-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x32 : Shape := ⟨2, ![800000, 32]⟩
abbrev S50000 : Shape := ⟨1, ![50000]⟩
abbrev S128x128 : Shape := ⟨2, ![128, 128]⟩
abbrev S128 : Shape := ⟨1, ![128]⟩
abbrev S32x128 : Shape := ⟨2, ![32, 128]⟩
abbrev S256x1 : Shape := ⟨2, ![256, 1]⟩
abbrev S1 : Shape := ⟨1, ![1]⟩
abbrev S128x1 : Shape := ⟨2, ![128, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S128x1 : S_.BroadcastsInDim S128x1 (![] : Fin 0 → Fin S128x1.rank)
  reducesTo_S128x1_S_d0_1 : S128x1.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S1 .f32) (main_arg14 : FVec F S128x1 .f32) (main_arg15 : FVec F S1 .f32) (main_v48 : IVec S_ 1) (main_v49 : FVec F S256x1 .f32) (main_v50 : FVec F S256x1 .f32) : IVec S_ 1 :=
  let main_v51 : IVec S256x1 1 := cmpf .olt main_v49 main_v50
  let main_c_19 : IVec S_ 1 := constantI S_ 1 1#1
  let main_v52 : IVec S_ 1 := (fun x v => Host.reduce IntOp.andi x v reducesTo_S256x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S128x1 .f32 := Host.absf main_arg14
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S128 .f32) (main_arg10 : FVec F S128x128 .f32) (main_arg11 : FVec F S128 .f32) (main_arg12 : FVec F S256x1 .f32) (main_arg13 : FVec F S1 .f32) (main_arg14 : FVec F S128x1 .f32) (main_arg15 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x1 .f32 := Host.absf main_arg12
  let main_cst_18 : FVec F S_ .f32 := constant S_ .f32 0x7F800000#32
  let main_v50 : FVec F S256x1 .f32 := broadcastInDim S256x1 ![] bcast_S_S256x1 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S32x128 .f32) (main_arg9 : FVec F S128 .f32) (main_arg10 : FVec F S128x128 .f32) (main_arg11 : FVec F S128 .f32) (main_arg12 : FVec F S256x1 .f32) (main_arg13 : FVec F S1 .f32) (main_arg14 : FVec F S128x1 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S32x128 .f32 := Host.absf main_arg8
  let main_cst_10 : FVec F S_ .f32 := constant S_ .f32 0x7F800000#32
  let main_v30 : FVec F S32x128 .f32 := broadcastInDim S32x128 ![] bcast_S_S32x128 main_cst_10
  let main_v31 : IVec S32x128 1 := cmpf .olt main_v29 main_v30
  let main_c_11 : IVec S_ 1 := constantI S_ 1 1#1
  let main_v32 : IVec S_ 1 := (fun x v => Host.reduce IntOp.andi x v reducesTo_S32x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S2x800000 32) (main_arg2 : FVec F S800000x32 .f32) (main_arg3 : IVec S50000 32) (main_arg4 : FVec F S128x128 .f32) (main_arg5 : FVec F S128 .f32) (main_arg6 : FVec F S128x128 .f32) (main_arg7 : FVec F S128 .f32) (main_arg8 : FVec F S32x128 .f32) (main_arg9 : FVec F S128 .f32) (main_arg10 : FVec F S128x128 .f32) (main_arg11 : FVec F S128 .f32) (main_arg12 : FVec F S256x1 .f32) (main_arg13 : FVec F S1 .f32) (main_arg14 : FVec F S128x1 .f32) (main_arg15 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S800000x32 : Shape := ⟨2, ![800000, 32]⟩
abbrev S50000 : Shape := ⟨1, ![50000]⟩
abbrev S128x128 : Shape := ⟨2, ![128, 128]⟩
abbrev S128 : Shape := ⟨1, ![128]⟩
abbrev S32x128 : Shape := ⟨2, ![32, 128]⟩
abbrev S256x1 : Shape := ⟨2, ![256, 1]⟩
abbrev S1 : Shape := ⟨1, ![1]⟩
abbrev S128x1 : Shape := ⟨2, ![128, 1]⟩
abbrev S1x800000 : Shape := ⟨2, ![1, 800000]⟩
abbrev S800000 : Shape := ⟨1, ![800000]⟩
abbrev S850000 : Shape := ⟨1, ![850000]⟩
abbrev S900000 : Shape := ⟨1, ![900000]⟩
abbrev S_ : Shape := ⟨0, ![]⟩
abbrev S900000x1 : Shape := ⟨2, ![900000, 1]⟩
abbrev S5000x128 : Shape := ⟨2, ![5000, 128]⟩
abbrev S900000x128 : Shape := ⟨2, ![900000, 128]⟩
abbrev S128x2 : Shape := ⟨2, ![128, 2]⟩
abbrev S1x128 : Shape := ⟨2, ![1, 128]⟩
abbrev S50000x2 : Shape := ⟨2, ![50000, 2]⟩
abbrev S5000x2 : Shape := ⟨2, ![5000, 2]⟩
abbrev S50000x1 : Shape := ⟨2, ![50000, 1]⟩
abbrev S850000x1 : Shape := ⟨2, ![850000, 1]⟩
abbrev S800000x1 : Shape := ⟨2, ![800000, 1]⟩
abbrev S800000x128 : Shape := ⟨2, ![800000, 128]⟩
abbrev S8000x32 : Shape := ⟨2, ![8000, 32]⟩
abbrev S8000x1 : Shape := ⟨2, ![8000, 1]⟩
abbrev S8000x128 : Shape := ⟨2, ![8000, 128]⟩
abbrev S64x128 : Shape := ⟨2, ![64, 128]⟩
abbrev S64 : Shape := ⟨1, ![64]⟩
abbrev S64x1 : Shape := ⟨2, ![64, 1]⟩
abbrev S1x1 : Shape := ⟨2, ![1, 1]⟩

abbrev nBuf : Space → Nat
  | .hbm => 171
  | .vmem => 35
  | .smem => 0
  | _ => 0

abbrev hbmTy0_0 (i : Nat) : BufTy := match i % 128 with
  | 0 => ⟨S50000x128, .f32⟩
  | 1 => ⟨S2x800000, .i32⟩
  | 2 => ⟨S800000x32, .f32⟩
  | 3 => ⟨S50000, .i32⟩
  | 4 => ⟨S128x128, .f32⟩
  | 5 => ⟨S128, .f32⟩
  | 6 => ⟨S128x128, .f32⟩
  | 7 => ⟨S128, .f32⟩
  | 8 => ⟨S32x128, .f32⟩
  | 9 => ⟨S128, .f32⟩
  | 10 => ⟨S128x128, .f32⟩
  | 11 => ⟨S128, .f32⟩
  | 12 => ⟨S256x1, .f32⟩
  | 13 => ⟨S1, .f32⟩
  | 14 => ⟨S128x1, .f32⟩
  | 15 => ⟨S1, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S50000, .i32⟩
  | 24 => ⟨S900000, .i32⟩
  | 25 => ⟨S900000, .i32⟩
  | 26 => ⟨S_, .f32⟩
  | 27 => ⟨S900000, .f32⟩
  | 28 => ⟨S_, .f32⟩
  | 29 => ⟨S50000, .f32⟩
  | 30 => ⟨S900000x1, .i32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S900000, .i32⟩
  | 42 => ⟨S900000, .i1⟩
  | 43 => ⟨S_, .i32⟩
  | 44 => ⟨S900000, .i32⟩
  | 45 => ⟨S900000, .i32⟩
  | 46 => ⟨S900000, .i32⟩
  | 47 => ⟨S900000x1, .i32⟩
  | 48 => ⟨S900000, .f32⟩
  | 49 => ⟨S_, .i32⟩
  | 50 => ⟨S900000, .i32⟩
  | 51 => ⟨S900000, .i1⟩
  | 52 => ⟨S_, .i32⟩
  | 53 => ⟨S900000, .i32⟩
  | 54 => ⟨S900000, .i32⟩
  | 55 => ⟨S900000, .i32⟩
  | 56 => ⟨S900000x1, .i32⟩
  | 57 => ⟨S900000, .f32⟩
  | 58 => ⟨S900000, .f32⟩
  | 59 => ⟨S50000x128, .f32⟩
  | 60 => ⟨S_, .i32⟩
  | 61 => ⟨S900000, .i32⟩
  | 62 => ⟨S900000, .i1⟩
  | 63 => ⟨S_, .i32⟩
  | 64 => ⟨S900000, .i32⟩
  | 65 => ⟨S900000, .i32⟩
  | 66 => ⟨S900000, .i32⟩
  | 67 => ⟨S900000x1, .i32⟩
  | 68 => ⟨S900000x128, .f32⟩
  | 69 => ⟨S900000x1, .f32⟩
  | 70 => ⟨S900000x128, .f32⟩
  | 71 => ⟨S900000x128, .f32⟩
  | 72 => ⟨S_, .f32⟩
  | 73 => ⟨S50000x128, .f32⟩
  | 74 => ⟨S900000x1, .i32⟩
  | 75 => ⟨S50000x128, .f32⟩
  | 76 => ⟨S128x1, .f32⟩
  | 77 => ⟨S128x1, .f32⟩
  | 78 => ⟨S128x2, .f32⟩
  | 79 => ⟨S1x128, .f32⟩
  | 80 => ⟨S50000x128, .f32⟩
  | 81 => ⟨S50000x2, .f32⟩
  | 82 => ⟨S50000x1, .f32⟩
  | 83 => ⟨S50000, .f32⟩
  | 84 => ⟨S50000x1, .f32⟩
  | 85 => ⟨S50000, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S850000, .f32⟩
  | 105 => ⟨S_, .f32⟩
  | 106 => ⟨S850000, .f32⟩
  | 107 => ⟨S850000, .f32⟩
  | 108 => ⟨S_, .f32⟩
  | 109 => ⟨S_, .f32⟩
  | 110 => ⟨S_, .f32⟩
  | 111 => ⟨S_, .f32⟩
  | 112 => ⟨S1, .f32⟩
  | 113 => ⟨S850000, .f32⟩
  | 114 => ⟨S850000, .f32⟩
  | 115 => ⟨S850000, .f32⟩
  | 116 => ⟨S_, .f32⟩
  | 117 => ⟨S_, .f32⟩
  | 118 => ⟨S1, .f32⟩
  | 119 => ⟨S850000, .f32⟩
  | 120 => ⟨S850000, .f32⟩
  | 121 => ⟨S800000, .f32⟩
  | 122 => ⟨S800000x1, .f32⟩
  | 123 => ⟨S1x128, .f32⟩
  | 124 => ⟨S1x128, .f32⟩
  | 125 => ⟨S800000x128, .f32⟩
  | 126 => ⟨S800000, .i32⟩
  | 127 => ⟨S_, .f32⟩
  | _ => ⟨S50000x128, .f32⟩

abbrev hbmTy0_1 (i : Nat) : BufTy := match i % 128 with
  | 0 => ⟨S50000x128, .f32⟩
  | 1 => ⟨S800000x1, .i32⟩
  | 2 => ⟨S50000x128, .f32⟩
  | 3 => ⟨S50000x128, .f32⟩
  | 4 => ⟨S_, .i32⟩
  | 5 => ⟨S900000, .i32⟩
  | 6 => ⟨S900000, .i1⟩
  | 7 => ⟨S_, .i32⟩
  | 8 => ⟨S900000, .i32⟩
  | 9 => ⟨S900000, .i32⟩
  | 10 => ⟨S900000, .i32⟩
  | 11 => ⟨S900000x1, .i32⟩
  | 12 => ⟨S900000x128, .f32⟩
  | 13 => ⟨S900000x1, .f32⟩
  | 14 => ⟨S900000x128, .f32⟩
  | 15 => ⟨S900000x128, .f32⟩
  | 16 => ⟨S_, .f32⟩
  | 17 => ⟨S50000x128, .f32⟩
  | 18 => ⟨S900000x1, .i32⟩
  | 19 => ⟨S50000x128, .f32⟩
  | 20 => ⟨S1x128, .f32⟩
  | 21 => ⟨S50000x128, .f32⟩
  | 22 => ⟨S_, .f32⟩
  | 23 => ⟨S64x128, .f32⟩
  | 24 => ⟨S50000x1, .i32⟩
  | 25 => ⟨S64x128, .f32⟩
  | 26 => ⟨S_, .f32⟩
  | 27 => ⟨S50000, .f32⟩
  | 28 => ⟨S_, .f32⟩
  | 29 => ⟨S64, .f32⟩
  | 30 => ⟨S50000x1, .i32⟩
  | 31 => ⟨S64, .f32⟩
  | 32 => ⟨S_, .f32⟩
  | 33 => ⟨S64, .f32⟩
  | 34 => ⟨S64, .f32⟩
  | 35 => ⟨S64x1, .f32⟩
  | 36 => ⟨S64x128, .f32⟩
  | 37 => ⟨S64x128, .f32⟩
  | 38 => ⟨S64x1, .f32⟩
  | 39 => ⟨S1x1, .f32⟩
  | 40 => ⟨S64x1, .f32⟩
  | 41 => ⟨S64x1, .f32⟩
  | 42 => ⟨S64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x2, .f32⟩
  | .local _ .vmem, ⟨9, _⟩ => ⟨S5000x128, .f32⟩
  | .local _ .vmem, ⟨10, _⟩ => ⟨S5000x128, .f32⟩
  | .local _ .vmem, ⟨11, _⟩ => ⟨S5000x2, .f32⟩
  | .local _ .vmem, ⟨12, _⟩ => ⟨S5000x2, .f32⟩
  | .local _ .vmem, ⟨13, _⟩ => ⟨S8000x32, .f32⟩
  | .local _ .vmem, ⟨14, _⟩ => ⟨S8000x32, .f32⟩
  | .local _ .vmem, ⟨15, _⟩ => ⟨S8000x1, .f32⟩
  | .local _ .vmem, ⟨16, _⟩ => ⟨S8000x1, .f32⟩
  | .local _ .vmem, ⟨17, _⟩ => ⟨S32x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S8000x128, .f32⟩
  | .local _ .vmem, ⟨22, _⟩ => ⟨S8000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_4 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_6 : Ref sig .tc := ⟨.hbm, 60, rfl⟩
abbrev main_v34 : Ref sig .tc := ⟨.hbm, 61, rfl⟩
abbrev main_v35 : Ref sig .tc := ⟨.hbm, 62, rfl⟩
abbrev main_c_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51_0 : Ref sig .tc := ⟨.hbm, 80, rfl⟩
abbrev main_v51_1 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_9 : Ref sig .tc := ⟨.hbm, 86, rfl⟩
abbrev main_v56 : Ref sig .tc := ⟨.hbm, 87, rfl⟩
abbrev main_v57 : Ref sig .tc := ⟨.hbm, 88, rfl⟩
abbrev main_c_10 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_11 : Ref sig .tc := ⟨.hbm, 95, rfl⟩
abbrev main_v63 : Ref sig .tc := ⟨.hbm, 96, rfl⟩
abbrev main_v64 : Ref sig .tc := ⟨.hbm, 97, rfl⟩
abbrev main_c_12 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_13 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_15 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_16 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_c_17 : Ref sig .tc := ⟨.hbm, 132, rfl⟩
abbrev main_v94 : Ref sig .tc := ⟨.hbm, 133, rfl⟩
abbrev main_v95 : Ref sig .tc := ⟨.hbm, 134, rfl⟩
abbrev main_c_18 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_19 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_20 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_21 : Ref sig .tc := ⟨.hbm, 154, rfl⟩
abbrev main_v112 : Ref sig .tc := ⟨.hbm, 155, rfl⟩
abbrev main_cst_22 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_23 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  concatenates_S850000_S50000_S900000_d0 : Shape.Concatenates [S850000, S50000] S900000 0
  bcast_S_S900000 : S_.BroadcastsInDim S900000 (![] : Fin 0 → Fin S900000.rank)
  bcast_S_S50000 : S_.BroadcastsInDim S50000 (![] : Fin 0 → Fin S50000.rank)
  bcast_S900000_S900000x1_0 : S900000.BroadcastsInDim S900000x1 (![0] : Fin 1 → Fin S900000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S900000x1_S900000x128_0_1 : S900000x1.BroadcastsInDim S900000x128 (![0, 1] : Fin 2 → Fin S900000x128.rank)
  bcast_S_S50000x128 : S_.BroadcastsInDim S50000x128 (![] : Fin 0 → Fin S50000x128.rank)
  slices_S256x1_S128x1_0_0 : S256x1.Slices ![0, 0] S128x1
  slices_S256x1_S128x1_128_0 : S256x1.Slices ![128, 0] S128x1
  concatenates_S128x1_S128x1_S128x2_d1 : Shape.Concatenates [S128x1, S128x1] S128x2 1
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S5000x2_S5000x2_0_0 : ∀ a, (![0, 0] : Fin 2 → Nat) a + S5000x2.size a ≤ S5000x2.size a
  h_S5000x2 : 0 < S5000x2.numel
  slices_S50000x2_S50000x1_0_0 : S50000x2.Slices ![0, 0] S50000x1
  shapeCasts_S50000x1_S50000 : S50000x1.ShapeCasts S50000
  slices_S50000x2_S50000x1_0_1 : S50000x2.Slices ![0, 1] S50000x1
  bcast_S_S850000 : S_.BroadcastsInDim S850000 (![] : Fin 0 → Fin S850000.rank)
  bcast_S850000_S850000x1_0 : S850000.BroadcastsInDim S850000x1 (![0] : Fin 1 → Fin S850000x1.rank)
  shapeCasts_S1_S_ : S1.ShapeCasts S_
  reducesTo_S850000_S_d0 : S850000.ReducesTo [0] S_
  h_S_ : 0 < S_.numel
  bcast_S_S1 : S_.BroadcastsInDim S1 (![] : Fin 0 → Fin S1.rank)
  bcast_S1_S850000_0 : S1.BroadcastsInDim S850000 (![0] : Fin 1 → Fin S850000.rank)
  slices_S850000_S800000_0 : S850000.Slices ![0] S800000
  shapeCasts_S800000_S800000x1 : S800000.ShapeCasts S800000x1
  inb_S8000x32_S8000x32_0_0 : ∀ a, (![0, 0] : Fin 2 → Nat) a + S8000x32.size a ≤ S8000x32.size a
  h_S8000x32 : 0 < S8000x32.numel
  inb_S32x128_S32x128_0_0 : ∀ a, (![0, 0] : Fin 2 → Nat) a + S32x128.size a ≤ S32x128.size a
  h_S32x128 : 0 < S32x128.numel
  broadcasts_S1x128_S8000x128 : S1x128.Broadcasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  inb_S8000x128_S8000x128_0_0 : ∀ a, (![0, 0] : Fin 2 → Nat) a + S8000x128.size a ≤ S8000x128.size a
  h_S8000x128 : 0 < S8000x128.numel
  bcast_S800000_S800000x1_0 : S800000.BroadcastsInDim S800000x1 (![0] : Fin 1 → Fin S800000x1.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S50000_S900000x1_S900000_n_0_0_1_wf : ScatterDims.WF S50000 S900000x1 S900000 [] [0] [0] 1
  gather_S50000_S900000x1_S900000_n_0_n_n_0_1_1_wf : GatherDims.WF S50000 S900000x1 S900000 [] [0] [] [0] [] 1 ![1]
  dot_S5000x128_S128x128_S5000x128_1_0_0_1_n_n_wf : DotDims.WF S5000x128 S128x128 S5000x128 [1] [0] [0] [1] [] []
  gather_S50000x128_S900000x1_S900000x128_1_0_n_n_0_1_1128_wf : GatherDims.WF S50000x128 S900000x1 S900000x128 [1] [0] [] [0] [] 1 ![1, 128]
  scatter_S50000x128_S900000x1_S900000x128_1_0_0_1_wf : ScatterDims.WF S50000x128 S900000x1 S900000x128 [1] [0] [0] 1
  dot_S5000x128_S128x2_S5000x2_1_0_0_1_n_n_wf : DotDims.WF S5000x128 S128x2 S5000x2 [1] [0] [0] [1] [] []
  gather_S50000_S850000x1_S850000_n_0_n_n_0_1_1_wf : GatherDims.WF S50000 S850000x1 S850000 [] [0] [] [0] [] 1 ![1]
  dot_S8000x32_S32x128_S8000x128_1_0_0_1_n_n_wf : DotDims.WF S8000x32 S32x128 S8000x128 [1] [0] [0] [1] [] []
  dot_S8000x128_S128x128_S8000x128_1_0_0_1_n_n_wf : DotDims.WF S8000x128 S128x128 S8000x128 [1] [0] [0] [1] [] []
  scatter_S50000x128_S800000x1_S800000x128_1_0_0_1_wf : ScatterDims.WF S50000x128 S800000x1 S800000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x2.size a ≤ S128x2.size a
  hwx1_2 : ∀ i : grid1.Coords, EltTy.bits .f32 = 32 ∨ (Rect.block (s := S128x2) S128x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x2.size a ≤ S50000x2.size a
  hwx1_4 : ∀ i : grid1.Coords, EltTy.bits .f32 = 32 ∨ (Rect.block (s := S50000x2) S5000x2.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x32.size a ≤ S800000x32.size a
  hwx2_0 : ∀ i : grid2.Coords, EltTy.bits .f32 = 32 ∨ (Rect.block (s := S800000x32) S8000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S800000x1.size a
  hwx2_1 : ∀ i : grid2.Coords, EltTy.bits .f32 = 32 ∨ (Rect.block (s := S800000x1) S8000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x128.size a ≤ S32x128.size a
  hwx2_2 : ∀ i : grid2.Coords, EltTy.bits .f32 = 32 ∨ (Rect.block (s := S32x128) S32x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8000x128.size a ≤ S800000x128.size a
  hwx2_6 : ∀ i : grid2.Coords, EltTy.bits .f32 = 32 ∨ (Rect.block (s := S800000x128) S8000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)

variable [Facts₀]

def scatter_S50000_S900000x1_S900000_n_0_0_1 : ScatterDims S50000 S900000x1 S900000 where
  updateWindowDims := []
  insertedWindowDims := [0]
  scatterDimsToOperandDims := [0]
  indexVectorDim := 1
  wf := scatter_S50000_S900000x1_S900000_n_0_0_1_wf
def gather_S50000_S900000x1_S900000_n_0_n_n_0_1_1 : GatherDims S50000 S900000x1 S900000 where
  offsetDims := []
  collapsedSliceDims := [0]
  operandBatchingDims := []
  startIndicesBatchingDims := []
  startIndexMap := [0]
  indexVectorDim := 1
  sliceSizes := ![1]
  wf := gather_S50000_S900000x1_S900000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S900000x1_S900000x128_1_0_n_n_0_1_1128 : GatherDims S50000x128 S900000x1 S900000x128 where
  offsetDims := [1]
  collapsedSliceDims := [0]
  operandBatchingDims := []
  startIndicesBatchingDims := []
  startIndexMap := [0]
  indexVectorDim := 1
  sliceSizes := ![1, 128]
  wf := gather_S50000x128_S900000x1_S900000x128_1_0_n_n_0_1_1128_wf
def scatter_S50000x128_S900000x1_S900000x128_1_0_0_1 : ScatterDims S50000x128 S900000x1 S900000x128 where
  updateWindowDims := [1]
  insertedWindowDims := [0]
  scatterDimsToOperandDims := [0]
  indexVectorDim := 1
  wf := scatter_S50000x128_S900000x1_S900000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S128x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v51_1) S5000x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg2) S8000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v85) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S32x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v86) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v87) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v88) S8000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v51_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v92) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v93) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v106) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v107) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v108) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x32 : Shape := ⟨2, ![800000, 32]⟩
abbrev S50000 : Shape := ⟨1, ![50000]⟩
abbrev S128x128 : Shape := ⟨2, ![128, 128]⟩
abbrev S128 : Shape := ⟨1, ![128]⟩
abbrev S32x128 : Shape := ⟨2, ![32, 128]⟩
abbrev S256x1 : Shape := ⟨2, ![256, 1]⟩
abbrev S1 : Shape := ⟨1, ![1]⟩
abbrev S128x1 : Shape := ⟨2, ![128, 1]⟩
abbrev S800000x128 : Shape := ⟨2, ![800000, 128]⟩
abbrev S1x128 : Shape := ⟨2, ![1, 128]⟩
abbrev S_ : Shape := ⟨0, ![]⟩
abbrev S1x800000 : Shape := ⟨2, ![1, 800000]⟩
abbrev S800000 : Shape := ⟨1, ![800000]⟩
abbrev S850000 : Shape := ⟨1, ![850000]⟩
abbrev S900000 : Shape := ⟨1, ![900000]⟩
abbrev S900000x1 : Shape := ⟨2, ![900000, 1]⟩
abbrev S900000x128 : Shape := ⟨2, ![900000, 128]⟩
abbrev S850000x1 : Shape := ⟨2, ![850000, 1]⟩
abbrev S850000x128 : Shape := ⟨2, ![850000, 128]⟩
abbrev S850000x256 : Shape := ⟨2, ![850000, 256]⟩
abbrev S1x1 : Shape := ⟨2, ![1, 1]⟩
abbrev S800000x1 : Shape := ⟨2, ![800000, 1]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩

abbrev nBuf : Space → Nat
  | .hbm => 244
  | .vmem => 0
  | .smem => 0
  | _ => 0

abbrev hbmTy0_0 (i : Nat) : BufTy := match i % 128 with
  | 0 => ⟨S50000x128, .f32⟩
  | 1 => ⟨S2x800000, .i32⟩
  | 2 => ⟨S800000x32, .f32⟩
  | 3 => ⟨S50000, .i32⟩
  | 4 => ⟨S128x128, .f32⟩
  | 5 => ⟨S128, .f32⟩
  | 6 => ⟨S128x128, .f32⟩
  | 7 => ⟨S128, .f32⟩
  | 8 => ⟨S32x128, .f32⟩
  | 9 => ⟨S128, .f32⟩
  | 10 => ⟨S128x128, .f32⟩
  | 11 => ⟨S128, .f32⟩
  | 12 => ⟨S256x1, .f32⟩
  | 13 => ⟨S1, .f32⟩
  | 14 => ⟨S128x1, .f32⟩
  | 15 => ⟨S1, .f32⟩
  | 16 => ⟨S800000x128, .f32⟩
  | 17 => ⟨S1x128, .f32⟩
  | 18 => ⟨S800000x128, .f32⟩
  | 19 => ⟨S800000x128, .f32⟩
  | 20 => ⟨S_, .f32⟩
  | 21 => ⟨S800000x128, .f32⟩
  | 22 => ⟨S800000x128, .f32⟩
  | 23 => ⟨S800000x128, .f32⟩
  | 24 => ⟨S1x128, .f32⟩
  | 25 => ⟨S800000x128, .f32⟩
  | 26 => ⟨S800000x128, .f32⟩
  | 27 => ⟨S50000, .i32⟩
  | 28 => ⟨S1x800000, .i32⟩
  | 29 => ⟨S800000, .i32⟩
  | 30 => ⟨S850000, .i32⟩
  | 31 => ⟨S1x800000, .i32⟩
  | 32 => ⟨S800000, .i32⟩
  | 33 => ⟨S850000, .i32⟩
  | 34 => ⟨S50000, .i32⟩
  | 35 => ⟨S900000, .i32⟩
  | 36 => ⟨S900000, .i32⟩
  | 37 => ⟨S_, .f32⟩
  | 38 => ⟨S900000, .f32⟩
  | 39 => ⟨S_, .f32⟩
  | 40 => ⟨S50000, .f32⟩
  | 41 => ⟨S900000x1, .i32⟩
  | 42 => ⟨S50000, .f32⟩
  | 43 => ⟨S_, .f32⟩
  | 44 => ⟨S50000, .f32⟩
  | 45 => ⟨S50000, .i1⟩
  | 46 => ⟨S50000, .f32⟩
  | 47 => ⟨S_, .f32⟩
  | 48 => ⟨S_, .f32⟩
  | 49 => ⟨S50000, .f32⟩
  | 50 => ⟨S50000, .f32⟩
  | 51 => ⟨S50000x128, .f32⟩
  | 52 => ⟨S_, .i32⟩
  | 53 => ⟨S900000, .i32⟩
  | 54 => ⟨S900000, .i1⟩
  | 55 => ⟨S_, .i32⟩
  | 56 => ⟨S900000, .i32⟩
  | 57 => ⟨S900000, .i32⟩
  | 58 => ⟨S900000, .i32⟩
  | 59 => ⟨S900000x1, .i32⟩
  | 60 => ⟨S900000, .f32⟩
  | 61 => ⟨S_, .i32⟩
  | 62 => ⟨S900000, .i32⟩
  | 63 => ⟨S900000, .i1⟩
  | 64 => ⟨S_, .i32⟩
  | 65 => ⟨S900000, .i32⟩
  | 66 => ⟨S900000, .i32⟩
  | 67 => ⟨S900000, .i32⟩
  | 68 => ⟨S900000x1, .i32⟩
  | 69 => ⟨S900000, .f32⟩
  | 70 => ⟨S900000, .f32⟩
  | 71 => ⟨S_, .i32⟩
  | 72 => ⟨S900000, .i32⟩
  | 73 => ⟨S900000, .i1⟩
  | 74 => ⟨S_, .i32⟩
  | 75 => ⟨S900000, .i32⟩
  | 76 => ⟨S900000, .i32⟩
  | 77 => ⟨S900000, .i32⟩
  | 78 => ⟨S900000x1, .i32⟩
  | 79 => ⟨S900000x128, .f32⟩
  | 80 => ⟨S900000x1, .f32⟩
  | 81 => ⟨S900000x128, .f32⟩
  | 82 => ⟨S900000x128, .f32⟩
  | 83 => ⟨S_, .f32⟩
  | 84 => ⟨S50000x128, .f32⟩
  | 85 => ⟨S900000x1, .i32⟩
  | 86 => ⟨S50000x128, .f32⟩
  | 87 => ⟨S1x128, .f32⟩
  | 88 => ⟨S50000x128, .f32⟩
  | 89 => ⟨S50000x128, .f32⟩
  | 90 => ⟨S_, .f32⟩
  | 91 => ⟨S50000x128, .f32⟩
  | 92 => ⟨S50000x128, .i1⟩
  | 93 => ⟨S_, .f32⟩
  | 94 => ⟨S50000x128, .f32⟩
  | 95 => ⟨S50000x128, .i1⟩
  | 96 => ⟨S_, .f32⟩
  | 97 => ⟨S_, .f32⟩
  | 98 => ⟨S50000x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S50000x128, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x128, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x128, .f32⟩
  | 123 => ⟨S850000x256, .f32⟩
  | 124 => ⟨S850000x1, .f32⟩
  | 125 => ⟨S1x1, .f32⟩
  | 126 => ⟨S850000x1, .f32⟩
  | 127 => ⟨S850000x1, .f32⟩
  | _ => ⟨S50000x128, .f32⟩

abbrev hbmTy0_1 (i : Nat) : BufTy := match i % 128 with
  | 0 => ⟨S850000, .f32⟩
  | 1 => ⟨S_, .f32⟩
  | 2 => ⟨S_, .f32⟩
  | 3 => ⟨S_, .f32⟩
  | 4 => ⟨S_, .f32⟩
  | 5 => ⟨S1, .f32⟩
  | 6 => ⟨S850000, .f32⟩
  | 7 => ⟨S850000, .f32⟩
  | 8 => ⟨S850000, .f32⟩
  | 9 => ⟨S_, .f32⟩
  | 10 => ⟨S_, .f32⟩
  | 11 => ⟨S1, .f32⟩
  | 12 => ⟨S850000, .f32⟩
  | 13 => ⟨S850000, .f32⟩
  | 14 => ⟨S800000, .f32⟩
  | 15 => ⟨S800000x1, .f32⟩
  | 16 => ⟨S800000x128, .f32⟩
  | 17 => ⟨S800000x128, .f32⟩
  | 18 => ⟨S800000, .i32⟩
  | 19 => ⟨S_, .f32⟩
  | 20 => ⟨S50000x128, .f32⟩
  | 21 => ⟨S800000x1, .i32⟩
  | 22 => ⟨S50000x128, .f32⟩
  | 23 => ⟨S50000x128, .f32⟩
  | 24 => ⟨S50000, .i32⟩
  | 25 => ⟨S900000, .i32⟩
  | 26 => ⟨S900000, .i32⟩
  | 27 => ⟨S_, .f32⟩
  | 28 => ⟨S900000, .f32⟩
  | 29 => ⟨S_, .f32⟩
  | 30 => ⟨S50000, .f32⟩
  | 31 => ⟨S900000x1, .i32⟩
  | 32 => ⟨S50000, .f32⟩
  | 33 => ⟨S_, .f32⟩
  | 34 => ⟨S50000, .f32⟩
  | 35 => ⟨S50000, .i1⟩
  | 36 => ⟨S50000, .f32⟩
  | 37 => ⟨S_, .f32⟩
  | 38 => ⟨S_, .f32⟩
  | 39 => ⟨S50000, .f32⟩
  | 40 => ⟨S50000, .f32⟩
  | 41 => ⟨S50000x128, .f32⟩
  | 42 => ⟨S_, .i32⟩
  | 43 => ⟨S900000, .i32⟩
  | 44 => ⟨S900000, .i1⟩
  | 45 => ⟨S_, .i32⟩
  | 46 => ⟨S900000, .i32⟩
  | 47 => ⟨S900000, .i32⟩
  | 48 => ⟨S900000, .i32⟩
  | 49 => ⟨S900000x1, .i32⟩
  | 50 => ⟨S900000, .f32⟩
  | 51 => ⟨S_, .i32⟩
  | 52 => ⟨S900000, .i32⟩
  | 53 => ⟨S900000, .i1⟩
  | 54 => ⟨S_, .i32⟩
  | 55 => ⟨S900000, .i32⟩
  | 56 => ⟨S900000, .i32⟩
  | 57 => ⟨S900000, .i32⟩
  | 58 => ⟨S900000x1, .i32⟩
  | 59 => ⟨S900000, .f32⟩
  | 60 => ⟨S900000, .f32⟩
  | 61 => ⟨S_, .i32⟩
  | 62 => ⟨S900000, .i32⟩
  | 63 => ⟨S900000, .i1⟩
  | 64 => ⟨S_, .i32⟩
  | 65 => ⟨S900000, .i32⟩
  | 66 => ⟨S900000, .i32⟩
  | 67 => ⟨S900000, .i32⟩
  | 68 => ⟨S900000x1, .i32⟩
  | 69 => ⟨S900000x128, .f32⟩
  | 70 => ⟨S900000x1, .f32⟩
  | 71 => ⟨S900000x128, .f32⟩
  | 72 => ⟨S900000x128, .f32⟩
  | 73 => ⟨S_, .f32⟩
  | 74 => ⟨S50000x128, .f32⟩
  | 75 => ⟨S900000x1, .i32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .i1⟩
  | 83 => ⟨S_, .f32⟩
  | 84 => ⟨S50000x128, .f32⟩
  | 85 => ⟨S50000x128, .i1⟩
  | 86 => ⟨S_, .f32⟩
  | 87 => ⟨S_, .f32⟩
  | 88 => ⟨S50000x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x128, .f32⟩
  | 95 => ⟨S_, .f32⟩
  | 96 => ⟨S64x128, .f32⟩
  | 97 => ⟨S50000x1, .i32⟩
  | 98 => ⟨S64x128, .f32⟩
  | 99 => ⟨S_, .f32⟩
  | 100 => ⟨S50000, .f32⟩
  | 101 => ⟨S_, .f32⟩
  | 102 => ⟨S64, .f32⟩
  | 103 => ⟨S50000x1, .i32⟩
  | 104 => ⟨S64, .f32⟩
  | 105 => ⟨S_, .f32⟩
  | 106 => ⟨S64, .f32⟩
  | 107 => ⟨S64, .f32⟩
  | 108 => ⟨S64x1, .f32⟩
  | 109 => ⟨S64x128, .f32⟩
  | 110 => ⟨S64x128, .f32⟩
  | 111 => ⟨S64x1, .f32⟩
  | 112 => ⟨S1x1, .f32⟩
  | 113 => ⟨S64x1, .f32⟩
  | 114 => ⟨S64x1, .f32⟩
  | 115 => ⟨S64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_2 : Ref sig .tc := ⟨.hbm, 47, rfl⟩
abbrev main_call1_v0 : Ref sig .tc := ⟨.hbm, 48, rfl⟩
abbrev main_call1_v1 : Ref sig .tc := ⟨.hbm, 49, rfl⟩
abbrev main_v26 : Ref sig .tc := ⟨.hbm, 50, rfl⟩
abbrev main_v27 : Ref sig .tc := ⟨.hbm, 51, rfl⟩
abbrev main_c : Ref sig .tc := ⟨.hbm, 52, rfl⟩
abbrev main_v28 : Ref sig .tc := ⟨.hbm, 53, rfl⟩
abbrev main_v29 : Ref sig .tc := ⟨.hbm, 54, rfl⟩
abbrev main_c_3 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_4 : Ref sig .tc := ⟨.hbm, 61, rfl⟩
abbrev main_v35 : Ref sig .tc := ⟨.hbm, 62, rfl⟩
abbrev main_v36 : Ref sig .tc := ⟨.hbm, 63, rfl⟩
abbrev main_c_5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_6 : Ref sig .tc := ⟨.hbm, 71, rfl⟩
abbrev main_v43 : Ref sig .tc := ⟨.hbm, 72, rfl⟩
abbrev main_v44 : Ref sig .tc := ⟨.hbm, 73, rfl⟩
abbrev main_c_7 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_call2_cst : Ref sig .tc := ⟨.hbm, 90, rfl⟩
abbrev main_call2_v0 : Ref sig .tc := ⟨.hbm, 91, rfl⟩
abbrev main_call2_v1 : Ref sig .tc := ⟨.hbm, 92, rfl⟩
abbrev main_call2_cst_0 : Ref sig .tc := ⟨.hbm, 93, rfl⟩
abbrev main_call2_v2 : Ref sig .tc := ⟨.hbm, 94, rfl⟩
abbrev main_call2_v3 : Ref sig .tc := ⟨.hbm, 95, rfl⟩
abbrev main_call2_cst_1 : Ref sig .tc := ⟨.hbm, 96, rfl⟩
abbrev main_call2_call0_v0 : Ref sig .tc := ⟨.hbm, 97, rfl⟩
abbrev main_call2_call0_v1 : Ref sig .tc := ⟨.hbm, 98, rfl⟩
abbrev main_call2_v4 : Ref sig .tc := ⟨.hbm, 99, rfl⟩
abbrev main_call2_v5 : Ref sig .tc := ⟨.hbm, 100, rfl⟩
abbrev main_call2_cst_2 : Ref sig .tc := ⟨.hbm, 101, rfl⟩
abbrev main_call2_v6 : Ref sig .tc := ⟨.hbm, 102, rfl⟩
abbrev main_call2_v7 : Ref sig .tc := ⟨.hbm, 103, rfl⟩
abbrev main_v59 : Ref sig .tc := ⟨.hbm, 104, rfl⟩
abbrev main_c_9 : Ref sig .tc := ⟨.hbm, 105, rfl⟩
abbrev main_v60 : Ref sig .tc := ⟨.hbm, 106, rfl⟩
abbrev main_v61 : Ref sig .tc := ⟨.hbm, 107, rfl⟩
abbrev main_c_10 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_c_11 : Ref sig .tc := ⟨.hbm, 114, rfl⟩
abbrev main_v67 : Ref sig .tc := ⟨.hbm, 115, rfl⟩
abbrev main_v68 : Ref sig .tc := ⟨.hbm, 116, rfl⟩
abbrev main_c_12 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_cst_13 : Ref sig .tc := ⟨.hbm, 129, rfl⟩
abbrev main_v80 : Ref sig .tc := ⟨.hbm, 130, rfl⟩
abbrev main_cst_14 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_cst_15 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_16 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_cst_17 : Ref sig .tc := ⟨.hbm, 155, rfl⟩
abbrev main_v102 : Ref sig .tc := ⟨.hbm, 156, rfl⟩
abbrev main_cst_18 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_cst_19 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_cst_20 : Ref sig .tc := ⟨.hbm, 165, rfl⟩
abbrev main_call3_v0 : Ref sig .tc := ⟨.hbm, 166, rfl⟩
abbrev main_call3_v1 : Ref sig .tc := ⟨.hbm, 167, rfl⟩
abbrev main_v109 : Ref sig .tc := ⟨.hbm, 168, rfl⟩
abbrev main_v110 : Ref sig .tc := ⟨.hbm, 169, rfl⟩
abbrev main_c_21 : Ref sig .tc := ⟨.hbm, 170, rfl⟩
abbrev main_v111 : Ref sig .tc := ⟨.hbm, 171, rfl⟩
abbrev main_v112 : Ref sig .tc := ⟨.hbm, 172, rfl⟩
abbrev main_c_22 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_c_23 : Ref sig .tc := ⟨.hbm, 179, rfl⟩
abbrev main_v118 : Ref sig .tc := ⟨.hbm, 180, rfl⟩
abbrev main_v119 : Ref sig .tc := ⟨.hbm, 181, rfl⟩
abbrev main_c_24 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_c_25 : Ref sig .tc := ⟨.hbm, 189, rfl⟩
abbrev main_v126 : Ref sig .tc := ⟨.hbm, 190, rfl⟩
abbrev main_v127 : Ref sig .tc := ⟨.hbm, 191, rfl⟩
abbrev main_c_26 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_cst_27 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_call4_cst : Ref sig .tc := ⟨.hbm, 208, rfl⟩
abbrev main_call4_v0 : Ref sig .tc := ⟨.hbm, 209, rfl⟩
abbrev main_call4_v1 : Ref sig .tc := ⟨.hbm, 210, rfl⟩
abbrev main_call4_cst_0 : Ref sig .tc := ⟨.hbm, 211, rfl⟩
abbrev main_call4_v2 : Ref sig .tc := ⟨.hbm, 212, rfl⟩
abbrev main_call4_v3 : Ref sig .tc := ⟨.hbm, 213, rfl⟩
abbrev main_call4_cst_1 : Ref sig .tc := ⟨.hbm, 214, rfl⟩
abbrev main_call4_call0_v0 : Ref sig .tc := ⟨.hbm, 215, rfl⟩
abbrev main_call4_call0_v1 : Ref sig .tc := ⟨.hbm, 216, rfl⟩
abbrev main_call4_v4 : Ref sig .tc := ⟨.hbm, 217, rfl⟩
abbrev main_call4_v5 : Ref sig .tc := ⟨.hbm, 218, rfl⟩
abbrev main_call4_cst_2 : Ref sig .tc := ⟨.hbm, 219, rfl⟩
abbrev main_call4_v6 : Ref sig .tc := ⟨.hbm, 220, rfl⟩
abbrev main_call4_v7 : Ref sig .tc := ⟨.hbm, 221, rfl⟩
abbrev main_v142 : Ref sig .tc := ⟨.hbm, 222, rfl⟩
abbrev main_cst_28 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_cst_29 : Ref sig .tc := ⟨.hbm, 227, rfl⟩
abbrev main_v146 : Ref sig .tc := ⟨.hbm, 228, rfl⟩
abbrev main_cst_30 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_cst_31 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  concatenates_S850000_S50000_S900000_d0 : Shape.Concatenates [S850000, S50000] S900000 0
  bcast_S_S900000 : S_.BroadcastsInDim S900000 (![] : Fin 0 → Fin S900000.rank)
  bcast_S_S50000 : S_.BroadcastsInDim S50000 (![] : Fin 0 → Fin S50000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  bcast_S_S850000 : S_.BroadcastsInDim S850000 (![] : Fin 0 → Fin S850000.rank)
  bcast_S850000_S850000x1_0 : S850000.BroadcastsInDim S850000x1 (![0] : Fin 1 → Fin S850000x1.rank)
  concatenates_S850000x128_S850000x128_S850000x256_d1 : Shape.Concatenates [S850000x128, S850000x128] S850000x256 1
  bcast_S1_S1x1_1 : S1.BroadcastsInDim S1x1 (![1] : Fin 1 → Fin S1x1.rank)
  bcast_S1x1_S850000x1_0_1 : S1x1.BroadcastsInDim S850000x1 (![0, 1] : Fin 2 → Fin S850000x1.rank)
  shapeCasts_S850000x1_S850000 : S850000x1.ShapeCasts S850000
  reducesTo_S850000_S_d0 : S850000.ReducesTo [0] S_
  h_S_ : 0 < S_.numel
  bcast_S_S1 : S_.BroadcastsInDim S1 (![] : Fin 0 → Fin S1.rank)
  bcast_S1_S850000_0 : S1.BroadcastsInDim S850000 (![0] : Fin 1 → Fin S850000.rank)
  slices_S850000_S800000_0 : S850000.Slices ![0] S800000
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x1_S64x1_0_1 : S1x1.BroadcastsInDim S64x1 (![0, 1] : Fin 2 → Fin S64x1.rank)
  shapeCasts_S64x1_S64 : S64x1.ShapeCasts S64
  dot_S800000x32_S32x128_S800000x128_1_0_0_1_n_n_wf : DotDims.WF S800000x32 S32x128 S800000x128 [1] [0] [0] [1] [] []
  dot_S800000x128_S128x128_S800000x128_1_0_0_1_n_n_wf : DotDims.WF S800000x128 S128x128 S800000x128 [1] [0] [0] [1] [] []
  scatter_S50000_S900000x1_S900000_n_0_0_1_wf : ScatterDims.WF S50000 S900000x1 S900000 [] [0] [0] 1
  dot_S50000x128_S128x128_S50000x128_1_0_0_1_n_n_wf : DotDims.WF S50000x128 S128x128 S50000x128 [1] [0] [0] [1] [] []
  gather_S50000_S900000x1_S900000_n_0_n_n_0_1_1_wf : GatherDims.WF S50000 S900000x1 S900000 [] [0] [] [0] [] 1 ![1]
  gather_S50000x128_S900000x1_S900000x128_1_0_n_n_0_1_1128_wf : GatherDims.WF S50000x128 S900000x1 S900000x128 [1] [0] [] [0] [] 1 ![1, 128]
  scatter_S50000x128_S900000x1_S900000x128_1_0_0_1_wf : ScatterDims.WF S50000x128 S900000x1 S900000x128 [1] [0] [0] 1
  gather_S50000x128_S850000x1_S850000x128_1_0_n_n_0_1_1128_wf : GatherDims.WF S50000x128 S850000x1 S850000x128 [1] [0] [] [0] [] 1 ![1, 128]
  dot_S850000x256_S256x1_S850000x1_1_0_0_1_n_n_wf : DotDims.WF S850000x256 S256x1 S850000x1 [1] [0] [0] [1] [] []
  scatter_S50000x128_S800000x1_S800000x128_1_0_0_1_wf : ScatterDims.WF S50000x128 S800000x1 S800000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x1_S64x1_1_0_0_1_n_n_wf : DotDims.WF S64x128 S128x1 S64x1 [1] [0] [0] [1] [] []

variable [Facts₀]

def dot_S800000x32_S32x128_S800000x128_1_0_0_1_n_n : DotDims S800000x32 S32x128 S800000x128 where
  lhsContracting := [1]
  rhsContracting := [0]
  lhsNonContracting := [0]
  rhsNonContracting := [1]
  lhsBatch := []
  rhsBatch := []
  wf := dot_S800000x32_S32x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000_S900000x1_S900000_n_0_0_1 : ScatterDims S50000 S900000x1 S900000 where
  updateWindowDims := []
  insertedWindowDims := [0]
  scatterDimsToOperandDims := [0]
  indexVectorDim := 1
  wf := scatter_S50000_S900000x1_S900000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S900000x1_S900000_n_0_n_n_0_1_1 : GatherDims S50000 S900000x1 S900000 where
  offsetDims := []
  collapsedSliceDims := [0]
  operandBatchingDims := []
  startIndicesBatchingDims := []
  startIndexMap := [0]
  indexVectorDim := 1
  sliceSizes := ![1]
  wf := gather_S50000_S900000x1_S900000_n_0_n_n_0_1_1_wf
def gather_S50000x128_S900000x1_S900000x128_1_0_n_n_0_1_1128 : GatherDims S50000x128 S900000x1 S900000x128 where
  offsetDims := [1]
  collapsedSliceDims := [0]
  operandBatchingDims := []
  startIndicesBatchingDims := []
  startIndexMap := [0]
  indexVectorDim := 1
  sliceSizes := ![1, 128]
  wf := gather_S50000x128_S900000x1_S900000x128_1_0_n_n_0_1_1128_wf
def scatter_S50000x128_S900000x1_S900000x128_1_0_0_1 : ScatterDims S50000x128 S900000x1 S900000x128 where
  updateWindowDims := [1]
  insertedWindowDims := [0]
  scatterDimsToOperandDims := [0]
  indexVectorDim := 1
  wf := scatter_S50000x128_S900000x1_S900000x128_1_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def dot_S850000x256_S256x1_S850000x1_1_0_0_1_n_n : DotDims S850000x256 S256x1 S850000x1 where
  lhsContracting := [1]
  rhsContracting := [0]
  lhsNonContracting := [0]
  rhsNonContracting := [1]
  lhsBatch := []
  rhsBatch := []
  wf := dot_S850000x256_S256x1_S850000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.KernelRun.lean ====
/-
  The idealized kernel program's run with EVERY buffer's final contents kept.

  The program is thirteen segments: stretches of host operations and five launched regions.  The buffer contents at each
  segment boundary are a fold from the launch memory: a stretch of host operations applies its operations in order, a
  region replaces its output arrays by what its grid points wrote back and leaves every other buffer alone.  Every weakly
  fair execution terminates, and in its final state every buffer that outlives the regions holds the last boundary's
  contents.  The frame claim keeps only the argument arrays of this; kept here is the whole final valuation, from which
  the result array is read.
-/
import proofs.«121654_j5970004542118_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every buffer that outlives the regions
    ends at the last segment boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

/-- The result array and the sixteen argument arrays after the run: the result at the last boundary's contents, the
    arguments as launched. -/
theorem run_result : θ_run defs (onTc (τ := τ) (main (F := F))) ⟨m, fun _ => 0, ρ⟩ (fun r => ∀ c : Dev nD,
      r.2.mem ((c.tc : Thread nD τ).loc main_v125) = W13 m ρ c (Proc.devRef .tc main_v125)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨h c _ (mem_uc main_v125 (by decide)),
      (h c _ (mem_uc main_arg0 (by decide))).trans (W13_main_arg0 m ρ c),
      (h c _ (mem_uc main_arg1 (by decide))).trans (W13_main_arg1 m ρ c),
      (h c _ (mem_uc main_arg2 (by decide))).trans (W13_main_arg2 m ρ c),
      (h c _ (mem_uc main_arg3 (by decide))).trans (W13_main_arg3 m ρ c),
      (h c _ (mem_uc main_arg4 (by decide))).trans (W13_main_arg4 m ρ c),
      (h c _ (mem_uc main_arg5 (by decide))).trans (W13_main_arg5 m ρ c),
      (h c _ (mem_uc main_arg6 (by decide))).trans (W13_main_arg6 m ρ c),
      (h c _ (mem_uc main_arg7 (by decide))).trans (W13_main_arg7 m ρ c),
      (h c _ (mem_uc main_arg8 (by decide))).trans (W13_main_arg8 m ρ c),
      (h c _ (mem_uc main_arg9 (by decide))).trans (W13_main_arg9 m ρ c),
      (h c _ (mem_uc main_arg10 (by decide))).trans (W13_main_arg10 m ρ c),
      (h c _ (mem_uc main_arg11 (by decide))).trans (W13_main_arg11 m ρ c),
      (h c _ (mem_uc main_arg12 (by decide))).trans (W13_main_arg12 m ρ c),
      (h c _ (mem_uc main_arg13 (by decide))).trans (W13_main_arg13 m ρ c),
      (h c _ (mem_uc main_arg14 (by decide))).trans (W13_main_arg14 m ρ c),
      (h c _ (mem_uc main_arg15 (by decide))).trans (W13_main_arg15 m ρ c)⟩) (run_all m ρ)

end Cert.KernelIdeal.Run

end
-- ==== Proof.RefOps.lean ====
/- The reference program's @main read as ONE straight line of host operations, cut into consecutive stages: the
   outlined functions' bodies (relu, the selects, elu and the two selects inside it) are written out at their call
   sites over each call's own buffers. Each stage is a literal list; the whole line is their concatenation, nested
   to the right (the first stage, then the rest). -/
import proofs.«121654_j5970004542118_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 11 of 228, the calls' bodies in place. -/
abbrev opsA : List (HloOp τ sig (Elt F)) :=
  [ StableHlo.binary main_arg2 main_arg8 main_v0 ((fun l r => Host.dotGeneral dot_S800000x32_S32x128_S800000x128_1_0_0_1_n_n none l r) : (⟨S800000x32, .f32⟩ : BufTy).Contents (Elt F) → (⟨S32x128, .f32⟩ : BufTy).Contents (Elt F) → (⟨S800000x128, .f32⟩ : BufTy).Contents (Elt F)),
    StableHlo.unary main_arg9 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S800000x128 ![0, 1] bcast_S1x128_S800000x128_0_1 : (⟨S1x128, .f32⟩ : BufTy).Contents (Elt F) → (⟨S800000x128, .f32⟩ : BufTy).Contents (Elt F)),
    StableHlo.binary main_v0 main_v2 main_v3 (addf : (⟨S800000x128, .f32⟩ : BufTy).Contents (Elt F) → (⟨S800000x128, .f32⟩ : BufTy).Contents (Elt F) → (⟨S800000x128, .f32⟩ : BufTy).Contents (Elt F)),
    StableHlo.TRef.nullary main_call0.cst (constant S_ .f32 0x00000000#32),
    StableHlo.TRef.unary main_call0.cst main_call0.v0 (broadcastInDim S800000x128 ![] bcast_S_S800000x128),
    StableHlo.TRef.binary (.of main_v3 : StableHlo.TRef sig ⟨S800000x128, .f32⟩) main_call0.v0 main_call0.v1 maximumf,
    StableHlo.binary main_v4 main_arg10 main_v5 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg11 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S800000x128 ![0, 1] bcast_S1x128_S800000x128_0_1 : (⟨S1x128, .f32⟩ : BufTy).Contents (Elt F) → (⟨S800000x128, .f32⟩ : BufTy).Contents (Elt F)),
    StableHlo.binary main_v5 main_v7 main_v8 (addf : (⟨S800000x128, .f32⟩ : BufTy).Contents (Elt F) → (⟨S800000x128, .f32⟩ : BufTy).Contents (Elt F) → (⟨S800000x128, .f32⟩ : BufTy).Contents (Elt F)) ]

/-- Operations 12 … 21 of 228, the calls' bodies in place. -/
abbrev opsB : List (HloOp τ sig (Elt F)) :=
  [ StableHlo.nullary main_v9 (iotaInDim S50000 32 0),
    StableHlo.unary main_arg1 main_v10 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v10 main_v11 rfl shapeCasts_S1x800000_S800000,
    StableHlo.binary main_v11 main_v9 main_v12 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v13 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v13 main_v14 rfl shapeCasts_S1x800000_S800000,
    StableHlo.binary main_v14 main_v9 main_v15 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_v16 (iotaInDim S50000 32 0),
    StableHlo.binary main_v12 main_v16 main_v17 ((fun a b => concatenate S900000 0 [⟨S850000, a⟩, ⟨S50000, b⟩] concatenates_S850000_S50000_S900000_d0) : (⟨S850000, .i32⟩ : BufTy).Contents (Elt F) → (⟨S50000, .i32⟩ : BufTy).Contents (Elt F) → (⟨S900000, .i32⟩ : BufTy).Contents (Elt F)),
    StableHlo.binary main_v15 main_v16 main_v18 ((fun a b => concatenate S900000 0 [⟨S850000, a⟩, ⟨S50000, b⟩] concatenates_S850000_S50000_S900000_d0) : (⟨S850000, .i32⟩ : BufTy).Contents (Elt F) → (⟨S50000, .i32⟩ : BufTy).Contents (Elt F) → (⟨S900000, .i32⟩ : BufTy).Contents (Elt F)) ]

/-- Operations 22 … 35 of 228, the calls' bodies in place. -/
abbrev opsC : List (HloOp τ sig (Elt F)) :=
  [ StableHlo.nullary main_cst (constant S_ .f32 0x3F800000#32),
    StableHlo.unary main_cst main_v19 (broadcastInDim S900000 ![] bcast_S_S900000 : (⟨S_, .f32⟩ : BufTy).Contents (Elt F) → (⟨S900000, .f32⟩ : BufTy).Contents (Elt F)),
    StableHlo.nullary main_cst_0 (constant S_ .f32 0x00000000#32),
    StableHlo.unary main_cst_0 main_v20 (broadcastInDim S50000 ![] bcast_S_S50000 : (⟨S_, .f32⟩ : BufTy).Contents (Elt F) → (⟨S50000, .f32⟩ : BufTy).Contents (Elt F)),
    StableHlo.unary main_v18 main_v21 (broadcastInDim S900000x1 ![0] bcast_S900000_S900000x1_0 : (⟨S900000, .i32⟩ : BufTy).Contents (Elt F) → (⟨S900000x1, .i32⟩ : BufTy).Contents (Elt F)),
    StableHlo.ternary main_v20 main_v21 main_v19 main_v22 ((fun x i u => Host.scatterAdd scatter_S50000_S900000x1_S900000_n_0_0_1 x i u) : (⟨S50000, .f32⟩ : BufTy).Contents (Elt F) → (⟨S900000x1, .i32⟩ : BufTy).Contents (Elt F) → (⟨S900000, .f32⟩ : BufTy).Contents (Elt F) → (⟨S50000, .f32⟩ : BufTy).Contents (Elt F)),
    StableHlo.nullary main_cst_1 (constant S_ .f32 0x00000000#32),
    StableHlo.unary main_cst_1 main_v23 (broadcastInDim S50000 ![] bcast_S_S50000 : (⟨S_, .f32⟩ : BufTy).Contents (Elt F) → (⟨S50000, .f32⟩ : BufTy).Contents (Elt F)),
    StableHlo.binary main_v22 main_v23 main_v24 (cmpf .ogt : (⟨S50000, .f32⟩ : BufTy).Contents (Elt F) → (⟨S50000, .f32⟩ : BufTy).Contents (Elt F) → (⟨S50000, .i1⟩ : BufTy).Contents (Elt F)),
    StableHlo.unary main_v22 main_v25 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) main_call1.v0 id,
    StableHlo.TRef.unary main_call1.v0 main_call1.v1 (broadcastInDim S50000 ![] bcast_S_S50000),
    StableHlo.TRef.ternary (.of main_v24 : StableHlo.TRef sig ⟨S50000, .i1⟩) (.of main_v25 : StableHlo.TRef sig ⟨S50000, .f32⟩) main_call1.v1 main_call1.v2 select ]

/-- Operations 36 … 36 of 228, the calls' bodies in place. -/
abbrev opsD : List (HloOp τ sig (Elt F)) :=
  [ StableHlo.binary main_arg0 main_arg4 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Operations 37 … 55 of 228, the calls' bodies in place. -/
abbrev opsE : List (HloOp τ sig (Elt F)) :=
  [ StableHlo.nullary main_c (constantI S_ 32 0#32),
    StableHlo.unary main_c main_v28 (broadcastInDim S900000 ![] bcast_S_S900000 : (⟨S_, .i32⟩ : BufTy).Contents (Elt F) → (⟨S900000, .i32⟩ : BufTy).Contents (Elt F)),
    StableHlo.binary main_v17 main_v28 main_v29 (cmpi .slt : (⟨S900000, .i32⟩ : BufTy).Contents (Elt F) → (⟨S900000, .i32⟩ : BufTy).Contents (Elt F) → (⟨S900000, .i1⟩ : BufTy).Contents (Elt F)),
    StableHlo.nullary main_c_3 (constantI S_ 32 50000#32),
    StableHlo.unary main_c_3 main_v30 (broadcastInDim S900000 ![] bcast_S_S900000 : (⟨S_, .i32⟩ : BufTy).Contents (Elt F) → (⟨S900000, .i32⟩ : BufTy).Contents (Elt F)),
    StableHlo.binary main_v17 main_v30 main_v31 (addi : (⟨S900000, .i32⟩ : BufTy).Contents (Elt F) → (⟨S900000, .i32⟩ : BufTy).Contents (Elt F) → (⟨S900000, .i32⟩ : BufTy).Contents (Elt F)),
    StableHlo.ternary main_v29 main_v31 main_v17 main_v32 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v32 main_v33 (broadcastInDim S900000x1 ![0] bcast_S900000_S900000x1_0 : (⟨S900000, .i32⟩ : BufTy).Contents (Elt F) → (⟨S900000x1, .i32⟩ : BufTy).Contents (Elt F)),
    StableHlo.binary main_v26 main_v33 main_v34 ((fun x i => Host.gather gather_S50000_S900000x1_S900000_n_0_n_n_0_1_1 x i) : (⟨S50000, .f32⟩ : BufTy).Contents (Elt F) → (⟨S900000x1, .i32⟩ : BufTy).Contents (Elt F) → (⟨S900000, .f32⟩ : BufTy).Contents (Elt F)),
    StableHlo.nullary main_c_4 (constantI S_ 32 0#32),
    StableHlo.unary main_c_4 main_v35 (broadcastInDim S900000 ![] bcast_S_S900000 : (⟨S_, .i32⟩ : BufTy).Contents (Elt F) → (⟨S900000, .i32⟩ : BufTy).Contents (Elt F)),
    StableHlo.binary main_v18 main_v35 main_v36 (cmpi .slt : (⟨S900000, .i32⟩ : BufTy).Contents (Elt F) → (⟨S900000, .i32⟩ : BufTy).Contents (Elt F) → (⟨S900000, .i1⟩ : BufTy).Contents (Elt F)),
    StableHlo.nullary main_c_5 (constantI S_ 32 50000#32),
    StableHlo.unary main_c_5 main_v37 (broadcastInDim S900000 ![] bcast_S_S900000 : (⟨S_, .i32⟩ : BufTy).Contents (Elt F) → (⟨S900000, .i32⟩ : BufTy).Contents (Elt F)),
    StableHlo.binary main_v18 main_v37 main_v38 (addi : (⟨S900000, .i32⟩ : BufTy).Contents (Elt F) → (⟨S900000, .i32⟩ : BufTy).Contents (Elt F) → (⟨S900000, .i32⟩ : BufTy).Contents (Elt F)),
    StableHlo.ternary main_v36 main_v38 main_v18 main_v39 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v39 main_v40 (broadcastInDim S900000x1 ![0] bcast_S900000_S900000x1_0 : (⟨S900000, .i32⟩ : BufTy).Contents (Elt F) → (⟨S900000x1, .i32⟩ : BufTy).Contents (Elt F)),
    StableHlo.binary main_v26 main_v40 main_v41 ((fun x i => Host.gather gather_S50000_S900000x1_S900000_n_0_n_n_0_1_1 x i) : (⟨S50000, .f32⟩ : BufTy).Contents (Elt F) → (⟨S900000x1, .i32⟩ : BufTy).Contents (Elt F) → (⟨S900000, .f32⟩ : BufTy).Contents (Elt F)),
    StableHlo.binary main_v34 main_v41 main_v42 (mulf : (⟨S900000, .f32⟩ : BufTy).Contents (Elt F) → (⟨S900000, .f32⟩ : BufTy).Contents (Elt F) → (⟨S900000, .f32⟩ : BufTy).Contents (Elt F)) ]

/-- Operations 56 … 71 of 228, the calls' bodies in place. -/
abbrev opsF : List (HloOp τ sig (Elt F)) :=
  [ StableHlo.nullary main_c_6 (constantI S_ 32 0#32),
    StableHlo.unary main_c_6 main_v43 (broadcastInDim S900000 ![] bcast_S_S900000 : (⟨S_, .i32⟩ : BufTy).Contents (Elt F) → (⟨S900000, .i32⟩ : BufTy).Contents (Elt F)),
    StableHlo.binary main_v17 main_v43 main_v44 (cmpi .slt : (⟨S900000, .i32⟩ : BufTy).Contents (Elt F) → (⟨S900000, .i32⟩ : BufTy).Contents (Elt F) → (⟨S900000, .i1⟩ : BufTy).Contents (Elt F)),
    StableHlo.nullary main_c_7 (constantI S_ 32 50000#32),
    StableHlo.unary main_c_7 main_v45 (broadcastInDim S900000 ![] bcast_S_S900000 : (⟨S_, .i32⟩ : BufTy).Contents (Elt F) → (⟨S900000, .i32⟩ : BufTy).Contents (Elt F)),
    StableHlo.binary main_v17 main_v45 main_v46 (addi : (⟨S900000, .i32⟩ : BufTy).Contents (Elt F) → (⟨S900000, .i32⟩ : BufTy).Contents (Elt F) → (⟨S900000, .i32⟩ : BufTy).Contents (Elt F)),
    StableHlo.ternary main_v44 main_v46 main_v17 main_v47 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v47 main_v48 (broadcastInDim S900000x1 ![0] bcast_S900000_S900000x1_0 : (⟨S900000, .i32⟩ : BufTy).Contents (Elt F) → (⟨S900000x1, .i32⟩ : BufTy).Contents (Elt F)),
    StableHlo.binary main_v27 main_v48 main_v49 ((fun x i => Host.gather gather_S50000x128_S900000x1_S900000x128_1_0_n_n_0_1_1128 x i) : (⟨S50000x128, .f32⟩ : BufTy).Contents (Elt F) → (⟨S900000x1, .i32⟩ : BufTy).Contents (Elt F) → (⟨S900000x128, .f32⟩ : BufTy).Contents (Elt F)),
    StableHlo.unary main_v42 main_v50 (broadcastInDim S900000x1 ![0] bcast_S900000_S900000x1_0 : (⟨S900000, .f32⟩ : BufTy).Contents (Elt F) → (⟨S900000x1, .f32⟩ : BufTy).Contents (Elt F)),
    StableHlo.unary main_v50 main_v51 (broadcastInDim S900000x128 ![0, 1] bcast_S900000x1_S900000x128_0_1 : (⟨S900000x1, .f32⟩ : BufTy).Contents (Elt F) → (⟨S900000x128, .f32⟩ : BufTy).Contents (Elt F)),
    StableHlo.binary main_v49 main_v51 main_v52 (mulf : (⟨S900000x128, .f32⟩ : BufTy).Contents (Elt F) → (⟨S900000x128, .f32⟩ : BufTy).Contents (Elt F) → (⟨S900000x128, .f32⟩ : BufTy).Contents (Elt F)),
    StableHlo.nullary main_cst_8 (constant S_ .f32 0x00000000#32),
    StableHlo.unary main_cst_8 main_v53 (broadcastInDim S50000x128 ![] bcast_S_S50000x128 : (⟨S_, .f32⟩ : BufTy).Contents (Elt F) → (⟨S50000x128, .f32⟩ : BufTy).Contents (Elt F)),
    StableHlo.unary main_v18 main_v54 (broadcastInDim S900000x1 ![0] bcast_S900000_S900000x1_0 : (⟨S900000, .i32⟩ : BufTy).Contents (Elt F) → (⟨S900000x1, .i32⟩ : BufTy).Contents (Elt F)),
    StableHlo.ternary main_v53 main_v54 main_v52 main_v55 ((fun x i u => Host.scatterAdd scatter_S50000x128_S900000x1_S900000x128_1_0_0_1 x i u) : (⟨S50000x128, .f32⟩ : BufTy).Contents (Elt F) → (⟨S900000x1, .i32⟩ : BufTy).Contents (Elt F) → (⟨S900000x128, .f32⟩ : BufTy).Contents (Elt F) → (⟨S50000x128, .f32⟩ : BufTy).Contents (Elt F)) ]

/-- Operations 72 … 89 of 228, the calls' bodies in place. -/
abbrev opsG : List (HloOp τ sig (Elt F)) :=
  [ StableHlo.unary main_arg5 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v55 main_v57 main_v58 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v58 : StableHlo.TRef sig ⟨S50000x128, .f32⟩) main_call2.v0 main_call2.v1 (cmpf .ogt),
    StableHlo.TRef.nullary main_call2.cst_0 (constant S_ .f32 0x00000000#32),
    StableHlo.TRef.unary main_call2.cst_0 main_call2.v2 (broadcastInDim S50000x128 ![] bcast_S_S50000x128),
    StableHlo.TRef.binary (.of main_v58 : StableHlo.TRef sig ⟨S50000x128, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S50000x128 ![] bcast_S_S50000x128),
    StableHlo.TRef.ternary main_call2.v3 main_call2.call0.v1 (.of main_v58 : StableHlo.TRef sig ⟨S50000x128, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S50000x128 ![] bcast_S_S50000x128),
    StableHlo.TRef.binary main_call2.v6 main_call2.v5 main_call2.v7 mulf,
    StableHlo.TRef.ternary main_call2.v1 (.of main_v58 : StableHlo.TRef sig ⟨S50000x128, .f32⟩) main_call2.v7 main_call2.call1.v0 select ]

/-- Operations 90 … 113 of 228, the calls' bodies in place. -/
abbrev opsH : List (HloOp τ sig (Elt F)) :=
  [ StableHlo.nullary main_c_9 (constantI S_ 32 0#32),
    StableHlo.unary main_c_9 main_v60 (broadcastInDim S850000 ![] bcast_S_S850000 : (⟨S_, .i32⟩ : BufTy).Contents (Elt F) → (⟨S850000, .i32⟩ : BufTy).Contents (Elt F)),
    StableHlo.binary main_v12 main_v60 main_v61 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v62 (broadcastInDim S850000 ![] bcast_S_S850000 : (⟨S_, .i32⟩ : BufTy).Contents (Elt F) → (⟨S850000, .i32⟩ : BufTy).Contents (Elt F)),
    StableHlo.binary main_v12 main_v62 main_v63 (addi : (⟨S850000, .i32⟩ : BufTy).Contents (Elt F) → (⟨S850000, .i32⟩ : BufTy).Contents (Elt F) → (⟨S850000, .i32⟩ : BufTy).Contents (Elt F)),
    StableHlo.ternary main_v61 main_v63 main_v12 main_v64 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v64 main_v65 (broadcastInDim S850000x1 ![0] bcast_S850000_S850000x1_0 : (⟨S850000, .i32⟩ : BufTy).Contents (Elt F) → (⟨S850000x1, .i32⟩ : BufTy).Contents (Elt F)),
    StableHlo.binary main_v59 main_v65 main_v66 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.nullary main_c_11 (constantI S_ 32 0#32),
    StableHlo.unary main_c_11 main_v67 (broadcastInDim S850000 ![] bcast_S_S850000 : (⟨S_, .i32⟩ : BufTy).Contents (Elt F) → (⟨S850000, .i32⟩ : BufTy).Contents (Elt F)),
    StableHlo.binary main_v15 main_v67 main_v68 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v69 (broadcastInDim S850000 ![] bcast_S_S850000 : (⟨S_, .i32⟩ : BufTy).Contents (Elt F) → (⟨S850000, .i32⟩ : BufTy).Contents (Elt F)),
    StableHlo.binary main_v15 main_v69 main_v70 (addi : (⟨S850000, .i32⟩ : BufTy).Contents (Elt F) → (⟨S850000, .i32⟩ : BufTy).Contents (Elt F) → (⟨S850000, .i32⟩ : BufTy).Contents (Elt F)),
    StableHlo.ternary main_v68 main_v70 main_v15 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v71 main_v72 (broadcastInDim S850000x1 ![0] bcast_S850000_S850000x1_0 : (⟨S850000, .i32⟩ : BufTy).Contents (Elt F) → (⟨S850000x1, .i32⟩ : BufTy).Contents (Elt F)),
    StableHlo.binary main_v59 main_v72 main_v73 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.binary main_v66 main_v73 main_v74 ((fun a b => concatenate S850000x256 1 [⟨S850000x128, a⟩, ⟨S850000x128, b⟩] concatenates_S850000x128_S850000x128_S850000x256_d1) : (⟨S850000x128, .f32⟩ : BufTy).Contents (Elt F) → (⟨S850000x128, .f32⟩ : BufTy).Contents (Elt F) → (⟨S850000x256, .f32⟩ : BufTy).Contents (Elt F)),
    StableHlo.binary main_v74 main_arg12 main_v75 ((fun l r => Host.dotGeneral dot_S850000x256_S256x1_S850000x1_1_0_0_1_n_n none l r) : (⟨S850000x256, .f32⟩ : BufTy).Contents (Elt F) → (⟨S256x1, .f32⟩ : BufTy).Contents (Elt F) → (⟨S850000x1, .f32⟩ : BufTy).Contents (Elt F)),
    StableHlo.unary main_arg13 main_v76 (broadcastInDim S1x1 ![1] bcast_S1_S1x1_1 : (⟨S1, .f32⟩ : BufTy).Contents (Elt F) → (⟨S1x1, .f32⟩ : BufTy).Contents (Elt F)),
    StableHlo.unary main_v76 main_v77 (broadcastInDim S850000x1 ![0, 1] bcast_S1x1_S850000x1_0_1 : (⟨S1x1, .f32⟩ : BufTy).Contents (Elt F) → (⟨S850000x1, .f32⟩ : BufTy).Contents (Elt F)),
    StableHlo.binary main_v75 main_v77 main_v78 (addf : (⟨S850000x1, .f32⟩ : BufTy).Contents (Elt F) → (⟨S850000x1, .f32⟩ : BufTy).Contents (Elt F) → (⟨S850000x1, .f32⟩ : BufTy).Contents (Elt F)),
    StableHlo.reshape main_v78 main_v79 rfl shapeCasts_S850000x1_S850000 ]

/-- Operations 114 … 128 of 228, the calls' bodies in place. -/
abbrev opsI : List (HloOp τ sig (Elt F)) :=
  [ StableHlo.nullary main_cst_13 (constant S_ .f32 0xFF800000#32),
    StableHlo.binary main_v79 main_cst_13 main_v80 ((fun x v => Host.reduce FloatOps.maximumf x v reducesTo_S850000_S_d0 h_S_) : (⟨S850000, .f32⟩ : BufTy).Contents (Elt F) → (⟨S_, .f32⟩ : BufTy).Contents (Elt F) → (⟨S_, .f32⟩ : BufTy).Contents (Elt F)),
    StableHlo.nullary main_cst_14 (constant S_ .f32 0xFF800000#32),
    StableHlo.binary main_cst_14 main_v80 main_v81 (maximumf : (⟨S_, .f32⟩ : BufTy).Contents (Elt F) → (⟨S_, .f32⟩ : BufTy).Contents (Elt F) → (⟨S_, .f32⟩ : BufTy).Contents (Elt F)),
    StableHlo.unary main_v81 main_v82 (broadcastInDim S1 ![] bcast_S_S1 : (⟨S_, .f32⟩ : BufTy).Contents (Elt F) → (⟨S1, .f32⟩ : BufTy).Contents (Elt F)),
    StableHlo.unary main_v82 main_v83 (broadcastInDim S850000 ![0] bcast_S1_S850000_0 : (⟨S1, .f32⟩ : BufTy).Contents (Elt F) → (⟨S850000, .f32⟩ : BufTy).Contents (Elt F)),
    StableHlo.binary main_v79 main_v83 main_v84 (subf : (⟨S850000, .f32⟩ : BufTy).Contents (Elt F) → (⟨S850000, .f32⟩ : BufTy).Contents (Elt F) → (⟨S850000, .f32⟩ : BufTy).Contents (Elt F)),
    StableHlo.unary main_v84 main_v85 (Host.exp : (⟨S850000, .f32⟩ : BufTy).Contents (Elt F) → (⟨S850000, .f32⟩ : BufTy).Contents (Elt F)),
    StableHlo.nullary main_cst_15 (constant S_ .f32 0x00000000#32),
    StableHlo.binary main_v85 main_cst_15 main_v86 ((fun x v => Host.reduceAdd x v reducesTo_S850000_S_d0 h_S_) : (⟨S850000, .f32⟩ : BufTy).Contents (Elt F) → (⟨S_, .f32⟩ : BufTy).Contents (Elt F) → (⟨S_, .f32⟩ : BufTy).Contents (Elt F)),
    StableHlo.unary main_v86 main_v87 (broadcastInDim S1 ![] bcast_S_S1 : (⟨S_, .f32⟩ : BufTy).Contents (Elt F) → (⟨S1, .f32⟩ : BufTy).Contents (Elt F)),
    StableHlo.unary main_v87 main_v88 (broadcastInDim S850000 ![0] bcast_S1_S850000_0 : (⟨S1, .f32⟩ : BufTy).Contents (Elt F) → (⟨S850000, .f32⟩ : BufTy).Contents (Elt F)),
    StableHlo.binary main_v85 main_v88 main_v89 (Host.divf : (⟨S850000, .f32⟩ : BufTy).Contents (Elt F) → (⟨S850000, .f32⟩ : BufTy).Contents (Elt F) → (⟨S850000, .f32⟩ : BufTy).Contents (Elt F)),
    StableHlo.unary main_v89 main_v90 ((extractStridedSlice S800000 ![0] · slices_S850000_S800000_0) : (⟨S850000, .f32⟩ : BufTy).Contents (Elt F) → (⟨S800000, .f32⟩ : BufTy).Contents (Elt F)),
    StableHlo.unary main_v90 main_v91 (broadcastInDim S800000x1 ![0] bcast_S800000_S800000x1_0 : (⟨S800000, .f32⟩ : BufTy).Contents (Elt F) → (⟨S800000x1, .f32⟩ : BufTy).Contents (Elt F)) ]

/-- Operations 129 … 130 of 228, the calls' bodies in place. -/
abbrev opsJ : List (HloOp τ sig (Elt F)) :=
  [ StableHlo.unary main_v91 main_v92 (broadcastInDim S800000x128 ![0, 1] bcast_S800000x1_S800000x128_0_1 : (⟨S800000x1, .f32⟩ : BufTy).Contents (Elt F) → (⟨S800000x128, .f32⟩ : BufTy).Contents (Elt F)),
    StableHlo.binary main_v92 main_v8 main_v93 (mulf : (⟨S800000x128, .f32⟩ : BufTy).Contents (Elt F) → (⟨S800000x128, .f32⟩ : BufTy).Contents (Elt F) → (⟨S800000x128, .f32⟩ : BufTy).Contents (Elt F)) ]

/-- Operations 131 … 135 of 228, the calls' bodies in place. -/
abbrev opsK : List (HloOp τ sig (Elt F)) :=
  [ StableHlo.unary main_v12 main_v94 ((extractStridedSlice S800000 ![0] · slices_S850000_S800000_0) : (⟨S850000, .i32⟩ : BufTy).Contents (Elt F) → (⟨S800000, .i32⟩ : BufTy).Contents (Elt F)),
    StableHlo.nullary main_cst_16 (constant S_ .f32 0x00000000#32),
    StableHlo.unary main_cst_16 main_v95 (broadcastInDim S50000x128 ![] bcast_S_S50000x128 : (⟨S_, .f32⟩ : BufTy).Contents (Elt F) → (⟨S50000x128, .f32⟩ : BufTy).Contents (Elt F)),
    StableHlo.unary main_v94 main_v96 (broadcastInDim S800000x1 ![0] bcast_S800000_S800000x1_0 : (⟨S800000, .i32⟩ : BufTy).Contents (Elt F) → (⟨S800000x1, .i32⟩ : BufTy).Contents (Elt F)),
    StableHlo.ternary main_v95 main_v96 main_v93 main_v97 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- Operations 136 … 136 of 228, the calls' bodies in place. -/
abbrev opsL : List (HloOp τ sig (Elt F)) :=
  [ StableHlo.binary main_v59 main_v97 main_v98 (addf : (⟨S50000x128, .f32⟩ : BufTy).Contents (Elt F) → (⟨S50000x128, .f32⟩ : BufTy).Contents (Elt F) → (⟨S50000x128, .f32⟩ : BufTy).Contents (Elt F)) ]

/-- Operations 137 … 139 of 228, the calls' bodies in place. -/
abbrev opsM : List (HloOp τ sig (Elt F)) :=
  [ StableHlo.nullary main_v99 (iotaInDim S50000 32 0),
    StableHlo.binary main_v12 main_v99 main_v100 ((fun a b => concatenate S900000 0 [⟨S850000, a⟩, ⟨S50000, b⟩] concatenates_S850000_S50000_S900000_d0) : (⟨S850000, .i32⟩ : BufTy).Contents (Elt F) → (⟨S50000, .i32⟩ : BufTy).Contents (Elt F) → (⟨S900000, .i32⟩ : BufTy).Contents (Elt F)),
    StableHlo.binary main_v15 main_v99 main_v101 ((fun a b => concatenate S900000 0 [⟨S850000, a⟩, ⟨S50000, b⟩] concatenates_S850000_S50000_S900000_d0) : (⟨S850000, .i32⟩ : BufTy).Contents (Elt F) → (⟨S50000, .i32⟩ : BufTy).Contents (Elt F) → (⟨S900000, .i32⟩ : BufTy).Contents (Elt F)) ]

/-- Operations 140 … 153 of 228, the calls' bodies in place. -/
abbrev opsN : List (HloOp τ sig (Elt F)) :=
  [ StableHlo.nullary main_cst_17 (constant S_ .f32 0x3F800000#32),
    StableHlo.unary main_cst_17 main_v102 (broadcastInDim S900000 ![] bcast_S_S900000 : (⟨S_, .f32⟩ : BufTy).Contents (Elt F) → (⟨S900000, .f32⟩ : BufTy).Contents (Elt F)),
    StableHlo.nullary main_cst_18 (constant S_ .f32 0x00000000#32),
    StableHlo.unary main_cst_18 main_v103 (broadcastInDim S50000 ![] bcast_S_S50000 : (⟨S_, .f32⟩ : BufTy).Contents (Elt F) → (⟨S50000, .f32⟩ : BufTy).Contents (Elt F)),
    StableHlo.unary main_v101 main_v104 (broadcastInDim S900000x1 ![0] bcast_S900000_S900000x1_0 : (⟨S900000, .i32⟩ : BufTy).Contents (Elt F) → (⟨S900000x1, .i32⟩ : BufTy).Contents (Elt F)),
    StableHlo.ternary main_v103 main_v104 main_v102 main_v105 ((fun x i u => Host.scatterAdd scatter_S50000_S900000x1_S900000_n_0_0_1 x i u) : (⟨S50000, .f32⟩ : BufTy).Contents (Elt F) → (⟨S900000x1, .i32⟩ : BufTy).Contents (Elt F) → (⟨S900000, .f32⟩ : BufTy).Contents (Elt F) → (⟨S50000, .f32⟩ : BufTy).Contents (Elt F)),
    StableHlo.nullary main_cst_19 (constant S_ .f32 0x00000000#32),
    StableHlo.unary main_cst_19 main_v106 (broadcastInDim S50000 ![] bcast_S_S50000 : (⟨S_, .f32⟩ : BufTy).Contents (Elt F) → (⟨S50000, .f32⟩ : BufTy).Contents (Elt F)),
    StableHlo.binary main_v105 main_v106 main_v107 (cmpf .ogt : (⟨S50000, .f32⟩ : BufTy).Contents (Elt F) → (⟨S50000, .f32⟩ : BufTy).Contents (Elt F) → (⟨S50000, .i1⟩ : BufTy).Contents (Elt F)),
    StableHlo.unary main_v105 main_v108 (Host.rsqrt : (⟨S50000, .f32⟩ : BufTy).Contents (Elt F) → (⟨S50000, .f32⟩ : BufTy).Contents (Elt F)),
    StableHlo.nullary main_cst_20 (constant S_ .f32 0x00000000#32),
    StableHlo.TRef.unary (.of main_cst_20 : StableHlo.TRef sig ⟨S_, .f32⟩) main_call3.v0 id,
    StableHlo.TRef.unary main_call3.v0 main_call3.v1 (broadcastInDim S50000 ![] bcast_S_S50000),
    StableHlo.TRef.ternary (.of main_v107 : StableHlo.TRef sig ⟨S50000, .i1⟩) (.of main_v108 : StableHlo.TRef sig ⟨S50000, .f32⟩) main_call3.v1 main_call3.v2 select ]

/-- Operations 154 … 154 of 228, the calls' bodies in place. -/
abbrev opsO : List (HloOp τ sig (Elt F)) :=
  [ StableHlo.binary main_v98 main_arg6 main_v110 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Operations 155 … 173 of 228, the calls' bodies in place. -/
abbrev opsP : List (HloOp τ sig (Elt F)) :=
  [ StableHlo.nullary main_c_21 (constantI S_ 32 0#32),
    StableHlo.unary main_c_21 main_v111 (broadcastInDim S900000 ![] bcast_S_S900000 : (⟨S_, .i32⟩ : BufTy).Contents (Elt F) → (⟨S900000, .i32⟩ : BufTy).Contents (Elt F)),
    StableHlo.binary main_v100 main_v111 main_v112 (cmpi .slt : (⟨S900000, .i32⟩ : BufTy).Contents (Elt F) → (⟨S900000, .i32⟩ : BufTy).Contents (Elt F) → (⟨S900000, .i1⟩ : BufTy).Contents (Elt F)),
    StableHlo.nullary main_c_22 (constantI S_ 32 50000#32),
    StableHlo.unary main_c_22 main_v113 (broadcastInDim S900000 ![] bcast_S_S900000 : (⟨S_, .i32⟩ : BufTy).Contents (Elt F) → (⟨S900000, .i32⟩ : BufTy).Contents (Elt F)),
    StableHlo.binary main_v100 main_v113 main_v114 (addi : (⟨S900000, .i32⟩ : BufTy).Contents (Elt F) → (⟨S900000, .i32⟩ : BufTy).Contents (Elt F) → (⟨S900000, .i32⟩ : BufTy).Contents (Elt F)),
    StableHlo.ternary main_v112 main_v114 main_v100 main_v115 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v115 main_v116 (broadcastInDim S900000x1 ![0] bcast_S900000_S900000x1_0 : (⟨S900000, .i32⟩ : BufTy).Contents (Elt F) → (⟨S900000x1, .i32⟩ : BufTy).Contents (Elt F)),
    StableHlo.binary main_v109 main_v116 main_v117 ((fun x i => Host.gather gather_S50000_S900000x1_S900000_n_0_n_n_0_1_1 x i) : (⟨S50000, .f32⟩ : BufTy).Contents (Elt F) → (⟨S900000x1, .i32⟩ : BufTy).Contents (Elt F) → (⟨S900000, .f32⟩ : BufTy).Contents (Elt F)),
    StableHlo.nullary main_c_23 (constantI S_ 32 0#32),
    StableHlo.unary main_c_23 main_v118 (broadcastInDim S900000 ![] bcast_S_S900000 : (⟨S_, .i32⟩ : BufTy).Contents (Elt F) → (⟨S900000, .i32⟩ : BufTy).Contents (Elt F)),
    StableHlo.binary main_v101 main_v118 main_v119 (cmpi .slt : (⟨S900000, .i32⟩ : BufTy).Contents (Elt F) → (⟨S900000, .i32⟩ : BufTy).Contents (Elt F) → (⟨S900000, .i1⟩ : BufTy).Contents (Elt F)),
    StableHlo.nullary main_c_24 (constantI S_ 32 50000#32),
    StableHlo.unary main_c_24 main_v120 (broadcastInDim S900000 ![] bcast_S_S900000 : (⟨S_, .i32⟩ : BufTy).Contents (Elt F) → (⟨S900000, .i32⟩ : BufTy).Contents (Elt F)),
    StableHlo.binary main_v101 main_v120 main_v121 (addi : (⟨S900000, .i32⟩ : BufTy).Contents (Elt F) → (⟨S900000, .i32⟩ : BufTy).Contents (Elt F) → (⟨S900000, .i32⟩ : BufTy).Contents (Elt F)),
    StableHlo.ternary main_v119 main_v121 main_v101 main_v122 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v122 main_v123 (broadcastInDim S900000x1 ![0] bcast_S900000_S900000x1_0 : (⟨S900000, .i32⟩ : BufTy).Contents (Elt F) → (⟨S900000x1, .i32⟩ : BufTy).Contents (Elt F)),
    StableHlo.binary main_v109 main_v123 main_v124 ((fun x i => Host.gather gather_S50000_S900000x1_S900000_n_0_n_n_0_1_1 x i) : (⟨S50000, .f32⟩ : BufTy).Contents (Elt F) → (⟨S900000x1, .i32⟩ : BufTy).Contents (Elt F) → (⟨S900000, .f32⟩ : BufTy).Contents (Elt F)),
    StableHlo.binary main_v117 main_v124 main_v125 (mulf : (⟨S900000, .f32⟩ : BufTy).Contents (Elt F) → (⟨S900000, .f32⟩ : BufTy).Contents (Elt F) → (⟨S900000, .f32⟩ : BufTy).Contents (Elt F)) ]

/-- Operations 174 … 189 of 228, the calls' bodies in place. -/
abbrev opsQ : List (HloOp τ sig (Elt F)) :=
  [ StableHlo.nullary main_c_25 (constantI S_ 32 0#32),
    StableHlo.unary main_c_25 main_v126 (broadcastInDim S900000 ![] bcast_S_S900000 : (⟨S_, .i32⟩ : BufTy).Contents (Elt F) → (⟨S900000, .i32⟩ : BufTy).Contents (Elt F)),
    StableHlo.binary main_v100 main_v126 main_v127 (cmpi .slt : (⟨S900000, .i32⟩ : BufTy).Contents (Elt F) → (⟨S900000, .i32⟩ : BufTy).Contents (Elt F) → (⟨S900000, .i1⟩ : BufTy).Contents (Elt F)),
    StableHlo.nullary main_c_26 (constantI S_ 32 50000#32),
    StableHlo.unary main_c_26 main_v128 (broadcastInDim S900000 ![] bcast_S_S900000 : (⟨S_, .i32⟩ : BufTy).Contents (Elt F) → (⟨S900000, .i32⟩ : BufTy).Contents (Elt F)),
    StableHlo.binary main_v100 main_v128 main_v129 (addi : (⟨S900000, .i32⟩ : BufTy).Contents (Elt F) → (⟨S900000, .i32⟩ : BufTy).Contents (Elt F) → (⟨S900000, .i32⟩ : BufTy).Contents (Elt F)),
    StableHlo.ternary main_v127 main_v129 main_v100 main_v130 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v130 main_v131 (broadcastInDim S900000x1 ![0] bcast_S900000_S900000x1_0 : (⟨S900000, .i32⟩ : BufTy).Contents (Elt F) → (⟨S900000x1, .i32⟩ : BufTy).Contents (Elt F)),
    StableHlo.binary main_v110 main_v131 main_v132 ((fun x i => Host.gather gather_S50000x128_S900000x1_S900000x128_1_0_n_n_0_1_1128 x i) : (⟨S50000x128, .f32⟩ : BufTy).Contents (Elt F) → (⟨S900000x1, .i32⟩ : BufTy).Contents (Elt F) → (⟨S900000x128, .f32⟩ : BufTy).Contents (Elt F)),
    StableHlo.unary main_v125 main_v133 (broadcastInDim S900000x1 ![0] bcast_S900000_S900000x1_0 : (⟨S900000, .f32⟩ : BufTy).Contents (Elt F) → (⟨S900000x1, .f32⟩ : BufTy).Contents (Elt F)),
    StableHlo.unary main_v133 main_v134 (broadcastInDim S900000x128 ![0, 1] bcast_S900000x1_S900000x128_0_1 : (⟨S900000x1, .f32⟩ : BufTy).Contents (Elt F) → (⟨S900000x128, .f32⟩ : BufTy).Contents (Elt F)),
    StableHlo.binary main_v132 main_v134 main_v135 (mulf : (⟨S900000x128, .f32⟩ : BufTy).Contents (Elt F) → (⟨S900000x128, .f32⟩ : BufTy).Contents (Elt F) → (⟨S900000x128, .f32⟩ : BufTy).Contents (Elt F)),
    StableHlo.nullary main_cst_27 (constant S_ .f32 0x00000000#32),
    StableHlo.unary main_cst_27 main_v136 (broadcastInDim S50000x128 ![] bcast_S_S50000x128 : (⟨S_, .f32⟩ : BufTy).Contents (Elt F) → (⟨S50000x128, .f32⟩ : BufTy).Contents (Elt F)),
    StableHlo.unary main_v101 main_v137 (broadcastInDim S900000x1 ![0] bcast_S900000_S900000x1_0 : (⟨S900000, .i32⟩ : BufTy).Contents (Elt F) → (⟨S900000x1, .i32⟩ : BufTy).Contents (Elt F)),
    StableHlo.ternary main_v136 main_v137 main_v135 main_v138 ((fun x i u => Host.scatterAdd scatter_S50000x128_S900000x1_S900000x128_1_0_0_1 x i u) : (⟨S50000x128, .f32⟩ : BufTy).Contents (Elt F) → (⟨S900000x1, .i32⟩ : BufTy).Contents (Elt F) → (⟨S900000x128, .f32⟩ : BufTy).Contents (Elt F) → (⟨S50000x128, .f32⟩ : BufTy).Contents (Elt F)) ]

/-- Operations 190 … 207 of 228, the calls' bodies in place. -/
abbrev opsR : List (HloOp τ sig (Elt F)) :=
  [ StableHlo.unary main_arg7 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S50000x128 ![0, 1] bcast_S1x128_S50000x128_0_1 : (⟨S1x128, .f32⟩ : BufTy).Contents (Elt F) → (⟨S50000x128, .f32⟩ : BufTy).Contents (Elt F)),
    StableHlo.binary main_v138 main_v140 main_v141 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v141 : StableHlo.TRef sig ⟨S50000x128, .f32⟩) main_call4.v0 main_call4.v1 (cmpf .ogt),
    StableHlo.TRef.nullary main_call4.cst_0 (constant S_ .f32 0x00000000#32),
    StableHlo.TRef.unary main_call4.cst_0 main_call4.v2 (broadcastInDim S50000x128 ![] bcast_S_S50000x128),
    StableHlo.TRef.binary (.of main_v141 : StableHlo.TRef sig ⟨S50000x128, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S50000x128 ![] bcast_S_S50000x128),
    StableHlo.TRef.ternary main_call4.v3 main_call4.call0.v1 (.of main_v141 : StableHlo.TRef sig ⟨S50000x128, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S50000x128 ![] bcast_S_S50000x128),
    StableHlo.TRef.binary main_call4.v6 main_call4.v5 main_call4.v7 mulf,
    StableHlo.TRef.ternary main_call4.v1 (.of main_v141 : StableHlo.TRef sig ⟨S50000x128, .f32⟩) main_call4.v7 main_call4.call1.v0 select ]

/-- Operations 208 … 228 of 228, the calls' bodies in place. -/
abbrev opsS : List (HloOp τ sig (Elt F)) :=
  [ StableHlo.nullary main_cst_28 (constant S_ .f32 0x00000000#32),
    StableHlo.unary main_cst_28 main_v143 (broadcastInDim S64x128 ![] bcast_S_S64x128 : (⟨S_, .f32⟩ : BufTy).Contents (Elt F) → (⟨S64x128, .f32⟩ : BufTy).Contents (Elt F)),
    StableHlo.unary main_arg3 main_v144 (broadcastInDim S50000x1 ![0] bcast_S50000_S50000x1_0 : (⟨S50000, .i32⟩ : BufTy).Contents (Elt F) → (⟨S50000x1, .i32⟩ : BufTy).Contents (Elt F)),
    StableHlo.ternary main_v143 main_v144 main_v142 main_v145 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)),
    StableHlo.nullary main_cst_29 (constant S_ .f32 0x3F800000#32),
    StableHlo.unary main_cst_29 main_v146 (broadcastInDim S50000 ![] bcast_S_S50000 : (⟨S_, .f32⟩ : BufTy).Contents (Elt F) → (⟨S50000, .f32⟩ : BufTy).Contents (Elt F)),
    StableHlo.nullary main_cst_30 (constant S_ .f32 0x00000000#32),
    StableHlo.unary main_cst_30 main_v147 (broadcastInDim S64 ![] bcast_S_S64 : (⟨S_, .f32⟩ : BufTy).Contents (Elt F) → (⟨S64, .f32⟩ : BufTy).Contents (Elt F)),
    StableHlo.unary main_arg3 main_v148 (broadcastInDim S50000x1 ![0] bcast_S50000_S50000x1_0 : (⟨S50000, .i32⟩ : BufTy).Contents (Elt F) → (⟨S50000x1, .i32⟩ : BufTy).Contents (Elt F)),
    StableHlo.ternary main_v147 main_v148 main_v146 main_v149 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_31 (constant S_ .f32 0x3F800000#32),
    StableHlo.unary main_cst_31 main_v150 (broadcastInDim S64 ![] bcast_S_S64 : (⟨S_, .f32⟩ : BufTy).Contents (Elt F) → (⟨S64, .f32⟩ : BufTy).Contents (Elt F)),
    StableHlo.binary main_v149 main_v150 main_v151 (maximumf : (⟨S64, .f32⟩ : BufTy).Contents (Elt F) → (⟨S64, .f32⟩ : BufTy).Contents (Elt F) → (⟨S64, .f32⟩ : BufTy).Contents (Elt F)),
    StableHlo.unary main_v151 main_v152 (broadcastInDim S64x1 ![0] bcast_S64_S64x1_0 : (⟨S64, .f32⟩ : BufTy).Contents (Elt F) → (⟨S64x1, .f32⟩ : BufTy).Contents (Elt F)),
    StableHlo.unary main_v152 main_v153 (broadcastInDim S64x128 ![0, 1] bcast_S64x1_S64x128_0_1 : (⟨S64x1, .f32⟩ : BufTy).Contents (Elt F) → (⟨S64x128, .f32⟩ : BufTy).Contents (Elt F)),
    StableHlo.binary main_v145 main_v153 main_v154 (Host.divf : (⟨S64x128, .f32⟩ : BufTy).Contents (Elt F) → (⟨S64x128, .f32⟩ : BufTy).Contents (Elt F) → (⟨S64x128, .f32⟩ : BufTy).Contents (Elt F)),
    StableHlo.binary main_v154 main_arg14 main_v155 ((fun l r => Host.dotGeneral dot_S64x128_S128x1_S64x1_1_0_0_1_n_n none l r) : (⟨S64x128, .f32⟩ : BufTy).Contents (Elt F) → (⟨S128x1, .f32⟩ : BufTy).Contents (Elt F) → (⟨S64x1, .f32⟩ : BufTy).Contents (Elt F)),
    StableHlo.unary main_arg15 main_v156 (broadcastInDim S1x1 ![1] bcast_S1_S1x1_1 : (⟨S1, .f32⟩ : BufTy).Contents (Elt F) → (⟨S1x1, .f32⟩ : BufTy).Contents (Elt F)),
    StableHlo.unary main_v156 main_v157 (broadcastInDim S64x1 ![0, 1] bcast_S1x1_S64x1_0_1 : (⟨S1x1, .f32⟩ : BufTy).Contents (Elt F) → (⟨S64x1, .f32⟩ : BufTy).Contents (Elt F)),
    StableHlo.binary main_v155 main_v157 main_v158 (addf : (⟨S64x1, .f32⟩ : BufTy).Contents (Elt F) → (⟨S64x1, .f32⟩ : BufTy).Contents (Elt F) → (⟨S64x1, .f32⟩ : BufTy).Contents (Elt F)),
    StableHlo.reshape main_v158 main_v159 rfl shapeCasts_S64x1_S64 ]

/-- All 228 operations, in order. -/
abbrev ops : List (HloOp τ sig (Elt F)) :=
  opsA ++ (opsB ++ (opsC ++ (opsD ++ (opsE ++ (opsF ++ (opsG ++ (opsH ++ (opsI ++ (opsJ ++ (opsK ++ (opsL ++ (opsM ++ (opsN ++ (opsO ++ (opsP ++ (opsQ ++ (opsR ++ opsS)))))))))))))))))

end Cert.ReferenceIdeal.RefRun

end
-- ==== Proof.RefRun.lean ====
/- The reference program's run. @main, printed in four windows that call the outlined functions, IS the straight
   line `ops` of the operations module (`main_eq`): each window equals its own operations in order (the called
   functions' definitions unfolded at their calls), and the four windows' lists concatenated are the stages
   concatenated (a stage that a window's end cuts is its two pieces). Every operation touches TensorCore buffers
   only and determines its result, and the signature scopes nothing; so every weakly fair execution of @main
   terminates with every buffer at the fold of the operations' results over the launch contents (`run_main`). -/
import proofs.«121654_j5970004542118_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main's windows as lists of stages -/

/-- Operations 56 … 64 of 228: the part of stage opsF on one side of a window boundary of @main. -/
abbrev opsF1 : List (HloOp τ sig (Elt F)) :=
  [ StableHlo.nullary main_c_6 (constantI S_ 32 0#32),
    StableHlo.unary main_c_6 main_v43 (broadcastInDim S900000 ![] bcast_S_S900000 : (⟨S_, .i32⟩ : BufTy).Contents (Elt F) → (⟨S900000, .i32⟩ : BufTy).Contents (Elt F)),
    StableHlo.binary main_v17 main_v43 main_v44 (cmpi .slt : (⟨S900000, .i32⟩ : BufTy).Contents (Elt F) → (⟨S900000, .i32⟩ : BufTy).Contents (Elt F) → (⟨S900000, .i1⟩ : BufTy).Contents (Elt F)),
    StableHlo.nullary main_c_7 (constantI S_ 32 50000#32),
    StableHlo.unary main_c_7 main_v45 (broadcastInDim S900000 ![] bcast_S_S900000 : (⟨S_, .i32⟩ : BufTy).Contents (Elt F) → (⟨S900000, .i32⟩ : BufTy).Contents (Elt F)),
    StableHlo.binary main_v17 main_v45 main_v46 (addi : (⟨S900000, .i32⟩ : BufTy).Contents (Elt F) → (⟨S900000, .i32⟩ : BufTy).Contents (Elt F) → (⟨S900000, .i32⟩ : BufTy).Contents (Elt F)),
    StableHlo.ternary main_v44 main_v46 main_v17 main_v47 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v47 main_v48 (broadcastInDim S900000x1 ![0] bcast_S900000_S900000x1_0 : (⟨S900000, .i32⟩ : BufTy).Contents (Elt F) → (⟨S900000x1, .i32⟩ : BufTy).Contents (Elt F)),
    StableHlo.binary main_v27 main_v48 main_v49 ((fun x i => Host.gather gather_S50000x128_S900000x1_S900000x128_1_0_n_n_0_1_1128 x i) : (⟨S50000x128, .f32⟩ : BufTy).Contents (Elt F) → (⟨S900000x1, .i32⟩ : BufTy).Contents (Elt F) → (⟨S900000x128, .f32⟩ : BufTy).Contents (Elt F)) ]

/-- Operations 65 … 71 of 228: the part of stage opsF on one side of a window boundary of @main. -/
abbrev opsF2 : List (HloOp τ sig (Elt F)) :=
  [ StableHlo.unary main_v42 main_v50 (broadcastInDim S900000x1 ![0] bcast_S900000_S900000x1_0 : (⟨S900000, .f32⟩ : BufTy).Contents (Elt F) → (⟨S900000x1, .f32⟩ : BufTy).Contents (Elt F)),
    StableHlo.unary main_v50 main_v51 (broadcastInDim S900000x128 ![0, 1] bcast_S900000x1_S900000x128_0_1 : (⟨S900000x1, .f32⟩ : BufTy).Contents (Elt F) → (⟨S900000x128, .f32⟩ : BufTy).Contents (Elt F)),
    StableHlo.binary main_v49 main_v51 main_v52 (mulf : (⟨S900000x128, .f32⟩ : BufTy).Contents (Elt F) → (⟨S900000x128, .f32⟩ : BufTy).Contents (Elt F) → (⟨S900000x128, .f32⟩ : BufTy).Contents (Elt F)),
    StableHlo.nullary main_cst_8 (constant S_ .f32 0x00000000#32),
    StableHlo.unary main_cst_8 main_v53 (broadcastInDim S50000x128 ![] bcast_S_S50000x128 : (⟨S_, .f32⟩ : BufTy).Contents (Elt F) → (⟨S50000x128, .f32⟩ : BufTy).Contents (Elt F)),
    StableHlo.unary main_v18 main_v54 (broadcastInDim S900000x1 ![0] bcast_S900000_S900000x1_0 : (⟨S900000, .i32⟩ : BufTy).Contents (Elt F) → (⟨S900000x1, .i32⟩ : BufTy).Contents (Elt F)),
    StableHlo.ternary main_v53 main_v54 main_v52 main_v55 ((fun x i u => Host.scatterAdd scatter_S50000x128_S900000x1_S900000x128_1_0_0_1 x i u) : (⟨S50000x128, .f32⟩ : BufTy).Contents (Elt F) → (⟨S900000x1, .i32⟩ : BufTy).Contents (Elt F) → (⟨S900000x128, .f32⟩ : BufTy).Contents (Elt F) → (⟨S50000x128, .f32⟩ : BufTy).Contents (Elt F)) ]

/-- Operations 137 … 138 of 228: the part of stage opsM on one side of a window boundary of @main. -/
abbrev opsM1 : List (HloOp τ sig (Elt F)) :=
  [ StableHlo.nullary main_v99 (iotaInDim S50000 32 0),
    StableHlo.binary main_v12 main_v99 main_v100 ((fun a b => concatenate S900000 0 [⟨S850000, a⟩, ⟨S50000, b⟩] concatenates_S850000_S50000_S900000_d0) : (⟨S850000, .i32⟩ : BufTy).Contents (Elt F) → (⟨S50000, .i32⟩ : BufTy).Contents (Elt F) → (⟨S900000, .i32⟩ : BufTy).Contents (Elt F)) ]

/-- Operations 139 … 139 of 228: the part of stage opsM on one side of a window boundary of @main. -/
abbrev opsM2 : List (HloOp τ sig (Elt F)) :=
  [ StableHlo.binary main_v15 main_v99 main_v101 ((fun a b => concatenate S900000 0 [⟨S850000, a⟩, ⟨S50000, b⟩] concatenates_S850000_S50000_S900000_d0) : (⟨S850000, .i32⟩ : BufTy).Contents (Elt F) → (⟨S50000, .i32⟩ : BufTy).Contents (Elt F) → (⟨S900000, .i32⟩ : BufTy).Contents (Elt F)) ]

/-- Operations 208 … 214 of 228: the part of stage opsS on one side of a window boundary of @main. -/
abbrev opsS1 : List (HloOp τ sig (Elt F)) :=
  [ StableHlo.nullary main_cst_28 (constant S_ .f32 0x00000000#32),
    StableHlo.unary main_cst_28 main_v143 (broadcastInDim S64x128 ![] bcast_S_S64x128 : (⟨S_, .f32⟩ : BufTy).Contents (Elt F) → (⟨S64x128, .f32⟩ : BufTy).Contents (Elt F)),
    StableHlo.unary main_arg3 main_v144 (broadcastInDim S50000x1 ![0] bcast_S50000_S50000x1_0 : (⟨S50000, .i32⟩ : BufTy).Contents (Elt F) → (⟨S50000x1, .i32⟩ : BufTy).Contents (Elt F)),
    StableHlo.ternary main_v143 main_v144 main_v142 main_v145 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)),
    StableHlo.nullary main_cst_29 (constant S_ .f32 0x3F800000#32),
    StableHlo.unary main_cst_29 main_v146 (broadcastInDim S50000 ![] bcast_S_S50000 : (⟨S_, .f32⟩ : BufTy).Contents (Elt F) → (⟨S50000, .f32⟩ : BufTy).Contents (Elt F)),
    StableHlo.nullary main_cst_30 (constant S_ .f32 0x00000000#32) ]

/-- Operations 215 … 228 of 228: the part of stage opsS on one side of a window boundary of @main. -/
abbrev opsS2 : List (HloOp τ sig (Elt F)) :=
  [ StableHlo.unary main_cst_30 main_v147 (broadcastInDim S64 ![] bcast_S_S64 : (⟨S_, .f32⟩ : BufTy).Contents (Elt F) → (⟨S64, .f32⟩ : BufTy).Contents (Elt F)),
    StableHlo.unary main_arg3 main_v148 (broadcastInDim S50000x1 ![0] bcast_S50000_S50000x1_0 : (⟨S50000, .i32⟩ : BufTy).Contents (Elt F) → (⟨S50000x1, .i32⟩ : BufTy).Contents (Elt F)),
    StableHlo.ternary main_v147 main_v148 main_v146 main_v149 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_31 (constant S_ .f32 0x3F800000#32),
    StableHlo.unary main_cst_31 main_v150 (broadcastInDim S64 ![] bcast_S_S64 : (⟨S_, .f32⟩ : BufTy).Contents (Elt F) → (⟨S64, .f32⟩ : BufTy).Contents (Elt F)),
    StableHlo.binary main_v149 main_v150 main_v151 (maximumf : (⟨S64, .f32⟩ : BufTy).Contents (Elt F) → (⟨S64, .f32⟩ : BufTy).Contents (Elt F) → (⟨S64, .f32⟩ : BufTy).Contents (Elt F)),
    StableHlo.unary main_v151 main_v152 (broadcastInDim S64x1 ![0] bcast_S64_S64x1_0 : (⟨S64, .f32⟩ : BufTy).Contents (Elt F) → (⟨S64x1, .f32⟩ : BufTy).Contents (Elt F)),
    StableHlo.unary main_v152 main_v153 (broadcastInDim S64x128 ![0, 1] bcast_S64x1_S64x128_0_1 : (⟨S64x1, .f32⟩ : BufTy).Contents (Elt F) → (⟨S64x128, .f32⟩ : BufTy).Contents (Elt F)),
    StableHlo.binary main_v145 main_v153 main_v154 (Host.divf : (⟨S64x128, .f32⟩ : BufTy).Contents (Elt F) → (⟨S64x128, .f32⟩ : BufTy).Contents (Elt F) → (⟨S64x128, .f32⟩ : BufTy).Contents (Elt F)),
    StableHlo.binary main_v154 main_arg14 main_v155 ((fun l r => Host.dotGeneral dot_S64x128_S128x1_S64x1_1_0_0_1_n_n none l r) : (⟨S64x128, .f32⟩ : BufTy).Contents (Elt F) → (⟨S128x1, .f32⟩ : BufTy).Contents (Elt F) → (⟨S64x1, .f32⟩ : BufTy).Contents (Elt F)),
    StableHlo.unary main_arg15 main_v156 (broadcastInDim S1x1 ![1] bcast_S1_S1x1_1 : (⟨S1, .f32⟩ : BufTy).Contents (Elt F) → (⟨S1x1, .f32⟩ : BufTy).Contents (Elt F)),
    StableHlo.unary main_v156 main_v157 (broadcastInDim S64x1 ![0, 1] bcast_S1x1_S64x1_0_1 : (⟨S1x1, .f32⟩ : BufTy).Contents (Elt F) → (⟨S64x1, .f32⟩ : BufTy).Contents (Elt F)),
    StableHlo.binary main_v155 main_v157 main_v158 (addf : (⟨S64x1, .f32⟩ : BufTy).Contents (Elt F) → (⟨S64x1, .f32⟩ : BufTy).Contents (Elt F) → (⟨S64x1, .f32⟩ : BufTy).Contents (Elt F)),
    StableHlo.reshape main_v158 main_v159 rfl shapeCasts_S64x1_S64 ]

/-- Stage opsF is its two pieces in order. -/
theorem opsF_split : (opsF : List (HloOp τ sig (Elt F))) = opsF1 ++ opsF2 := rfl
/-- Stage opsM is its two pieces in order. -/
theorem opsM_split : (opsM : List (HloOp τ sig (Elt F))) = opsM1 ++ opsM2 := rfl
/-- Stage opsS is its two pieces in order. -/
theorem opsS_split : (opsS : List (HloOp τ sig (Elt F))) = opsS1 ++ opsS2 := rfl

/-- The operations of @main's window 0: whole stages, and the piece of a stage the window's end cuts. -/
abbrev win0 : List (HloOp τ sig (Elt F)) :=
  opsA ++ (opsB ++ (opsC ++ (opsD ++ (opsE ++ opsF1))))

/-- The operations of @main's window 1: whole stages, and the piece of a stage the window's end cuts. -/
abbrev win1 : List (HloOp τ sig (Elt F)) :=
  opsF2 ++ (opsG ++ (opsH ++ (opsI ++ (opsJ ++ (opsK ++ (opsL ++ opsM1))))))

/-- The operations of @main's window 2: whole stages, and the piece of a stage the window's end cuts. -/
abbrev win2 : List (HloOp τ sig (Elt F)) :=
  opsM2 ++ (opsN ++ (opsO ++ (opsP ++ (opsQ ++ (opsR ++ opsS1)))))

/-- The operations of @main's window 3: whole stages, and the piece of a stage the window's end cuts. -/
abbrev win3 : List (HloOp τ sig (Elt F)) :=
  opsS2

set_option maxRecDepth 8192 in
set_option maxHeartbeats 4000000 in
/-- Window 0 of @main is its operations in order: the called functions' definitions unfolded at their calls, both
    sides are one chain of steps once sequencing is reassociated. -/
theorem main_part0_eq (c : Dev nD) : main_part0 (F := F) c = seq win0 := by
  simp only [main_part0, fn_relu.body, fn_where.body, win0, seq_append, seq, bind_assoc, pure_bind]
  rfl

set_option maxRecDepth 8192 in
set_option maxHeartbeats 4000000 in
/-- Window 1 of @main is its operations in order: the called functions' definitions unfolded at their calls, both
    sides are one chain of steps once sequencing is reassociated. -/
theorem main_part1_eq (c : Dev nD) : main_part1 (F := F) c = seq win1 := by
  simp only [main_part1, fn_elu.body, fn_where_0.body, fn_where_1.body, win1, seq_append, seq, bind_assoc, pure_bind]
  rfl

set_option maxRecDepth 8192 in
set_option maxHeartbeats 4000000 in
/-- Window 2 of @main is its operations in order: the called functions' definitions unfolded at their calls, both
    sides are one chain of steps once sequencing is reassociated. -/
theorem main_part2_eq (c : Dev nD) : main_part2 (F := F) c = seq win2 := by
  simp only [main_part2, fn_where.body, fn_elu.body, fn_where_0.body, fn_where_1.body, win2, seq_append, seq, bind_assoc, pure_bind]
  rfl

set_option maxRecDepth 8192 in
set_option maxHeartbeats 4000000 in
/-- Window 3 of @main is its operations in order: the called functions' definitions unfolded at their calls, both
    sides are one chain of steps once sequencing is reassociated. -/
theorem main_part3_eq (c : Dev nD) : main_part3 (F := F) c = seq win3 := by
  simp only [main_part3, win3, seq_append, seq, bind_assoc, pure_bind]

/-- The stages concatenated are the four windows' lists concatenated: the same 228 operations, cut differently. -/
theorem ops_windows : (ops : List (HloOp τ sig (Elt F))) = win0 ++ (win1 ++ (win2 ++ win3)) := by
  show (opsA ++ (opsB ++ (opsC ++ (opsD ++ (opsE ++ (opsF ++ (opsG ++ (opsH ++ (opsI ++ (opsJ ++ (opsK ++ (opsL ++ (opsM ++ (opsN ++ (opsO ++ (opsP ++ (opsQ ++ (opsR ++ opsS))))))))))))))))) : List (HloOp τ sig (Elt F)))
    = (opsA ++ (opsB ++ (opsC ++ (opsD ++ (opsE ++ opsF1))))) ++ ((opsF2 ++ (opsG ++ (opsH ++ (opsI ++ (opsJ ++ (opsK ++ (opsL ++ opsM1)))))))
      ++ ((opsM2 ++ (opsN ++ (opsO ++ (opsP ++ (opsQ ++ (opsR ++ opsS1)))))) ++ opsS2))
  rw [opsF_split, opsM_split, opsS_split]
  simp only [List.append_assoc]

/-- @main is the straight line `ops`. -/
theorem main_eq (c : Dev nD) : main (F := F) c = seq ops := by
  rw [ops_windows, seq_append win0, seq_append win1, seq_append win2, ← main_part0_eq c, ← main_part1_eq c, ← main_part2_eq c,
    ← main_part3_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_app {α : Type} {p : α → Prop} {l₁ l₂ : List α} (h₁ : l₁.Forall p) (h₂ : l₂.Forall p) : (l₁ ++ l₂).Forall p :=
  List.forall_iff_forall_mem.mpr fun a h =>
    (List.mem_append.mp h).elim (List.forall_iff_forall_mem.mp h₁ a) (List.forall_iff_forall_mem.mp h₂ a)

/-! Every operation touches TensorCore references only: each builder's own fact, stage by stage, then the stages
    joined one at a time from the last. -/
theorem opsA_sub : (opsA : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem opsB_sub : (opsB : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., binary_bufs_sub .., binary_bufs_sub ..⟩
theorem opsC_sub : (opsC : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩
theorem opsD_sub : (opsD : List (HloOp τ sig (Elt F))).Forall fun op => op.bufs ⊆ tcRefs τ sig :=
  binary_bufs_sub ..
theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsF_sub : (opsF : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsG_sub : (opsG : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem opsH_sub : (opsH : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., reshape_bufs_sub ..⟩
theorem opsI_sub : (opsI : List (HloOp τ sig (Elt F))).Forall fun op => op.bufs ⊆ tcRefs τ sig :=
  ⟨nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub ..⟩
theorem opsJ_sub : (opsJ : List (HloOp τ sig (Elt F))).Forall fun op => op.bufs ⊆ tcRefs τ sig :=
  ⟨unary_bufs_sub .., binary_bufs_sub ..⟩
theorem opsK_sub : (opsK : List (HloOp τ sig (Elt F))).Forall fun op => op.bufs ⊆ tcRefs τ sig :=
  ⟨unary_bufs_sub .., nullary_bufs_sub .., unary_bufs_sub .., unary_bufs_sub .., ternary_bufs_sub ..⟩
theorem opsL_sub : (opsL : List (HloOp τ sig (Elt F))).Forall fun op => op.bufs ⊆ tcRefs τ sig :=
  binary_bufs_sub ..
theorem opsM_sub : (opsM : List (HloOp τ sig (Elt F))).Forall fun op => op.bufs ⊆ tcRefs τ sig :=
  ⟨nullary_bufs_sub .., binary_bufs_sub .., binary_bufs_sub ..⟩
theorem opsN_sub : (opsN : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩
theorem opsO_sub : (opsO : List (HloOp τ sig (Elt F))).Forall fun op => op.bufs ⊆ tcRefs τ sig :=
  binary_bufs_sub ..
theorem opsP_sub : (opsP : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsQ_sub : (opsQ : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsR_sub : (opsR : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem opsS_sub : (opsS : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., reshape_bufs_sub ..⟩
theorem fromR_sub : (opsR ++ (opsS) : List (HloOp τ sig (Elt F))).Forall fun op => op.bufs ⊆ tcRefs τ sig :=
  forall_app opsR_sub opsS_sub
theorem fromQ_sub : (opsQ ++ (opsR ++ (opsS)) : List (HloOp τ sig (Elt F))).Forall fun op => op.bufs ⊆ tcRefs τ sig :=
  forall_app opsQ_sub fromR_sub
theorem fromP_sub : (opsP ++ (opsQ ++ (opsR ++ (opsS))) : List (HloOp τ sig (Elt F))).Forall fun op => op.bufs ⊆ tcRefs τ sig :=
  forall_app opsP_sub fromQ_sub
theorem fromO_sub : (opsO ++ (opsP ++ (opsQ ++ (opsR ++ (opsS)))) : List (HloOp τ sig (Elt F))).Forall fun op => op.bufs ⊆ tcRefs τ sig :=
  forall_app opsO_sub fromP_sub
theorem fromN_sub : (opsN ++ (opsO ++ (opsP ++ (opsQ ++ (opsR ++ (opsS))))) : List (HloOp τ sig (Elt F))).Forall fun op => op.bufs ⊆ tcRefs τ sig :=
  forall_app opsN_sub fromO_sub
theorem fromM_sub : (opsM ++ (opsN ++ (opsO ++ (opsP ++ (opsQ ++ (opsR ++ (opsS)))))) : List (HloOp τ sig (Elt F))).Forall fun op => op.bufs ⊆ tcRefs τ sig :=
  forall_app opsM_sub fromN_sub
theorem fromL_sub : (opsL ++ (opsM ++ (opsN ++ (opsO ++ (opsP ++ (opsQ ++ (opsR ++ (opsS))))))) : List (HloOp τ sig (Elt F))).Forall fun op => op.bufs ⊆ tcRefs τ sig :=
  forall_app opsL_sub fromM_sub
theorem fromK_sub : (opsK ++ (opsL ++ (opsM ++ (opsN ++ (opsO ++ (opsP ++ (opsQ ++ (opsR ++ (opsS)))))))) : List (HloOp τ sig (Elt F))).Forall fun op => op.bufs ⊆ tcRefs τ sig :=
  forall_app opsK_sub fromL_sub
theorem fromJ_sub : (opsJ ++ (opsK ++ (opsL ++ (opsM ++ (opsN ++ (opsO ++ (opsP ++ (opsQ ++ (opsR ++ (opsS))))))))) : List (HloOp τ sig (Elt F))).Forall fun op => op.bufs ⊆ tcRefs τ sig :=
  forall_app opsJ_sub fromK_sub
theorem fromI_sub : (opsI ++ (opsJ ++ (opsK ++ (opsL ++ (opsM ++ (opsN ++ (opsO ++ (opsP ++ (opsQ ++ (opsR ++ (opsS)))))))))) : List (HloOp τ sig (Elt F))).Forall fun op => op.bufs ⊆ tcRefs τ sig :=
  forall_app opsI_sub fromJ_sub
theorem fromH_sub : (opsH ++ (opsI ++ (opsJ ++ (opsK ++ (opsL ++ (opsM ++ (opsN ++ (opsO ++ (opsP ++ (opsQ ++ (opsR ++ (opsS))))))))))) : List (HloOp τ sig (Elt F))).Forall fun op => op.bufs ⊆ tcRefs τ sig :=
  forall_app opsH_sub fromI_sub
theorem fromG_sub : (opsG ++ (opsH ++ (opsI ++ (opsJ ++ (opsK ++ (opsL ++ (opsM ++ (opsN ++ (opsO ++ (opsP ++ (opsQ ++ (opsR ++ (opsS)))))))))))) : List (HloOp τ sig (Elt F))).Forall fun op => op.bufs ⊆ tcRefs τ sig :=
  forall_app opsG_sub fromH_sub
theorem fromF_sub : (opsF ++ (opsG ++ (opsH ++ (opsI ++ (opsJ ++ (opsK ++ (opsL ++ (opsM ++ (opsN ++ (opsO ++ (opsP ++ (opsQ ++ (opsR ++ (opsS))))))))))))) : List (HloOp τ sig (Elt F))).Forall fun op => op.bufs ⊆ tcRefs τ sig :=
  forall_app opsF_sub fromG_sub
theorem fromE_sub : (opsE ++ (opsF ++ (opsG ++ (opsH ++ (opsI ++ (opsJ ++ (opsK ++ (opsL ++ (opsM ++ (opsN ++ (opsO ++ (opsP ++ (opsQ ++ (opsR ++ (opsS)))))))))))))) : List (HloOp τ sig (Elt F))).Forall fun op => op.bufs ⊆ tcRefs τ sig :=
  forall_app opsE_sub fromF_sub
theorem fromD_sub : (opsD ++ (opsE ++ (opsF ++ (opsG ++ (opsH ++ (opsI ++ (opsJ ++ (opsK ++ (opsL ++ (opsM ++ (opsN ++ (opsO ++ (opsP ++ (opsQ ++ (opsR ++ (opsS))))))))))))))) : List (HloOp τ sig (Elt F))).Forall fun op => op.bufs ⊆ tcRefs τ sig :=
  forall_app opsD_sub fromE_sub
theorem fromC_sub : (opsC ++ (opsD ++ (opsE ++ (opsF ++ (opsG ++ (opsH ++ (opsI ++ (opsJ ++ (opsK ++ (opsL ++ (opsM ++ (opsN ++ (opsO ++ (opsP ++ (opsQ ++ (opsR ++ (opsS)))))))))))))))) : List (HloOp τ sig (Elt F))).Forall fun op => op.bufs ⊆ tcRefs τ sig :=
  forall_app opsC_sub fromD_sub
theorem fromB_sub : (opsB ++ (opsC ++ (opsD ++ (opsE ++ (opsF ++ (opsG ++ (opsH ++ (opsI ++ (opsJ ++ (opsK ++ (opsL ++ (opsM ++ (opsN ++ (opsO ++ (opsP ++ (opsQ ++ (opsR ++ (opsS))))))))))))))))) : List (HloOp τ sig (Elt F))).Forall fun op => op.bufs ⊆ tcRefs τ sig :=
  forall_app opsB_sub fromC_sub
theorem ops_sub : (ops : List (HloOp τ sig (Elt F))).Forall fun op => op.bufs ⊆ tcRefs τ sig :=
  forall_app opsA_sub fromB_sub

/-! Every operation determines its result (none allocates): by computation, stage by stage, then joined. -/
theorem opsA_fresh : (opsA : List (HloOp τ sig (Elt F))).Forall fun op => op.fresh = ∅ :=
  ⟨rfl, rfl, rfl, rfl, rfl, rfl, rfl, rfl, rfl, rfl, rfl⟩
theorem opsB_fresh : (opsB : List (HloOp τ sig (Elt F))).Forall fun op => op.fresh = ∅ :=
  ⟨rfl, rfl, rfl, rfl, rfl, rfl, rfl, rfl, rfl, rfl⟩
theorem opsC_fresh : (opsC : List (HloOp τ sig (Elt F))).Forall fun op => op.fresh = ∅ :=
  ⟨rfl, rfl, rfl, rfl, rfl, rfl, rfl, rfl, rfl, rfl, rfl, rfl, rfl, rfl⟩
theorem opsD_fresh : (opsD : List (HloOp τ sig (Elt F))).Forall fun op => op.fresh = ∅ :=
  rfl
theorem opsE_fresh : (opsE : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem opsF_fresh : (opsF : List (HloOp τ sig (Elt F))).Forall fun op => op.fresh = ∅ :=
  ⟨rfl, rfl, rfl, rfl, rfl, rfl, rfl, rfl, rfl, rfl, rfl, rfl, rfl, rfl, rfl, rfl⟩
theorem opsG_fresh : (opsG : List (HloOp τ sig (Elt F))).Forall fun op => op.fresh = ∅ :=
  ⟨rfl, rfl, rfl, rfl, rfl, rfl, rfl, rfl, rfl, rfl, rfl, rfl, rfl, rfl, rfl, rfl, rfl, rfl⟩
theorem opsH_fresh : (opsH : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
theorem opsI_fresh : (opsI : List (HloOp τ sig (Elt F))).Forall fun op => op.fresh = ∅ :=
  ⟨rfl, rfl, rfl, rfl, rfl, rfl, rfl, rfl, rfl, rfl, rfl, rfl, rfl, rfl, rfl⟩
theorem opsJ_fresh : (opsJ : List (HloOp τ sig (Elt F))).Forall fun op => op.fresh = ∅ :=
  ⟨rfl, rfl⟩
theorem opsK_fresh : (opsK : List (HloOp τ sig (Elt F))).Forall fun op => op.fresh = ∅ :=
  ⟨rfl, rfl, rfl, rfl, rfl⟩
theorem opsL_fresh : (opsL : List (HloOp τ sig (Elt F))).Forall fun op => op.fresh = ∅ :=
  rfl
theorem opsM_fresh : (opsM : List (HloOp τ sig (Elt F))).Forall fun op => op.fresh = ∅ :=
  ⟨rfl, rfl, rfl⟩
theorem opsN_fresh : (opsN : List (HloOp τ sig (Elt F))).Forall fun op => op.fresh = ∅ :=
  ⟨rfl, rfl, rfl, rfl, rfl, rfl, rfl, rfl, rfl, rfl, rfl, rfl, rfl, rfl⟩
theorem opsO_fresh : (opsO : List (HloOp τ sig (Elt F))).Forall fun op => op.fresh = ∅ :=
  rfl
theorem opsP_fresh : (opsP : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem opsQ_fresh : (opsQ : List (HloOp τ sig (Elt F))).Forall fun op => op.fresh = ∅ :=
  ⟨rfl, rfl, rfl, rfl, rfl, rfl, rfl, rfl, rfl, rfl, rfl, rfl, rfl, rfl, rfl, rfl⟩
theorem opsR_fresh : (opsR : List (HloOp τ sig (Elt F))).Forall fun op => op.fresh = ∅ :=
  ⟨rfl, rfl, rfl, rfl, rfl, rfl, rfl, rfl, rfl, rfl, rfl, rfl, rfl, rfl, rfl, rfl, rfl, rfl⟩
theorem opsS_fresh : (opsS : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem fromR_fresh : (opsR ++ (opsS) : List (HloOp τ sig (Elt F))).Forall fun op => op.fresh = ∅ :=
  forall_app opsR_fresh opsS_fresh
theorem fromQ_fresh : (opsQ ++ (opsR ++ (opsS)) : List (HloOp τ sig (Elt F))).Forall fun op => op.fresh = ∅ :=
  forall_app opsQ_fresh fromR_fresh
theorem fromP_fresh : (opsP ++ (opsQ ++ (opsR ++ (opsS))) : List (HloOp τ sig (Elt F))).Forall fun op => op.fresh = ∅ :=
  forall_app opsP_fresh fromQ_fresh
theorem fromO_fresh : (opsO ++ (opsP ++ (opsQ ++ (opsR ++ (opsS)))) : List (HloOp τ sig (Elt F))).Forall fun op => op.fresh = ∅ :=
  forall_app opsO_fresh fromP_fresh
theorem fromN_fresh : (opsN ++ (opsO ++ (opsP ++ (opsQ ++ (opsR ++ (opsS))))) : List (HloOp τ sig (Elt F))).Forall fun op => op.fresh = ∅ :=
  forall_app opsN_fresh fromO_fresh
theorem fromM_fresh : (opsM ++ (opsN ++ (opsO ++ (opsP ++ (opsQ ++ (opsR ++ (opsS)))))) : List (HloOp τ sig (Elt F))).Forall fun op => op.fresh = ∅ :=
  forall_app opsM_fresh fromN_fresh
theorem fromL_fresh : (opsL ++ (opsM ++ (opsN ++ (opsO ++ (opsP ++ (opsQ ++ (opsR ++ (opsS))))))) : List (HloOp τ sig (Elt F))).Forall fun op => op.fresh = ∅ :=
  forall_app opsL_fresh fromM_fresh
theorem fromK_fresh : (opsK ++ (opsL ++ (opsM ++ (opsN ++ (opsO ++ (opsP ++ (opsQ ++ (opsR ++ (opsS)))))))) : List (HloOp τ sig (Elt F))).Forall fun op => op.fresh = ∅ :=
  forall_app opsK_fresh fromL_fresh
theorem fromJ_fresh : (opsJ ++ (opsK ++ (opsL ++ (opsM ++ (opsN ++ (opsO ++ (opsP ++ (opsQ ++ (opsR ++ (opsS))))))))) : List (HloOp τ sig (Elt F))).Forall fun op => op.fresh = ∅ :=
  forall_app opsJ_fresh fromK_fresh
theorem fromI_fresh : (opsI ++ (opsJ ++ (opsK ++ (opsL ++ (opsM ++ (opsN ++ (opsO ++ (opsP ++ (opsQ ++ (opsR ++ (opsS)))))))))) : List (HloOp τ sig (Elt F))).Forall fun op => op.fresh = ∅ :=
  forall_app opsI_fresh fromJ_fresh
theorem fromH_fresh : (opsH ++ (opsI ++ (opsJ ++ (opsK ++ (opsL ++ (opsM ++ (opsN ++ (opsO ++ (opsP ++ (opsQ ++ (opsR ++ (opsS))))))))))) : List (HloOp τ sig (Elt F))).Forall fun op => op.fresh = ∅ :=
  forall_app opsH_fresh fromI_fresh
theorem fromG_fresh : (opsG ++ (opsH ++ (opsI ++ (opsJ ++ (opsK ++ (opsL ++ (opsM ++ (opsN ++ (opsO ++ (opsP ++ (opsQ ++ (opsR ++ (opsS)))))))))))) : List (HloOp τ sig (Elt F))).Forall fun op => op.fresh = ∅ :=
  forall_app opsG_fresh fromH_fresh
theorem fromF_fresh : (opsF ++ (opsG ++ (opsH ++ (opsI ++ (opsJ ++ (opsK ++ (opsL ++ (opsM ++ (opsN ++ (opsO ++ (opsP ++ (opsQ ++ (opsR ++ (opsS))))))))))))) : List (HloOp τ sig (Elt F))).Forall fun op => op.fresh = ∅ :=
  forall_app opsF_fresh fromG_fresh
theorem fromE_fresh : (opsE ++ (opsF ++ (opsG ++ (opsH ++ (opsI ++ (opsJ ++ (opsK ++ (opsL ++ (opsM ++ (opsN ++ (opsO ++ (opsP ++ (opsQ ++ (opsR ++ (opsS)))))))))))))) : List (HloOp τ sig (Elt F))).Forall fun op => op.fresh = ∅ :=
  forall_app opsE_fresh fromF_fresh
theorem fromD_fresh : (opsD ++ (opsE ++ (opsF ++ (opsG ++ (opsH ++ (opsI ++ (opsJ ++ (opsK ++ (opsL ++ (opsM ++ (opsN ++ (opsO ++ (opsP ++ (opsQ ++ (opsR ++ (opsS))))))))))))))) : List (HloOp τ sig (Elt F))).Forall fun op => op.fresh = ∅ :=
  forall_app opsD_fresh fromE_fresh
theorem fromC_fresh : (opsC ++ (opsD ++ (opsE ++ (opsF ++ (opsG ++ (opsH ++ (opsI ++ (opsJ ++ (opsK ++ (opsL ++ (opsM ++ (opsN ++ (opsO ++ (opsP ++ (opsQ ++ (opsR ++ (opsS)))))))))))))))) : List (HloOp τ sig (Elt F))).Forall fun op => op.fresh = ∅ :=
  forall_app opsC_fresh fromD_fresh
theorem fromB_fresh : (opsB ++ (opsC ++ (opsD ++ (opsE ++ (opsF ++ (opsG ++ (opsH ++ (opsI ++ (opsJ ++ (opsK ++ (opsL ++ (opsM ++ (opsN ++ (opsO ++ (opsP ++ (opsQ ++ (opsR ++ (opsS))))))))))))))))) : List (HloOp τ sig (Elt F))).Forall fun op => op.fresh = ∅ :=
  forall_app opsB_fresh fromC_fresh
theorem ops_fresh : (ops : List (HloOp τ sig (Elt F))).Forall fun op => op.fresh = ∅ :=
  forall_app opsA_fresh fromB_fresh

/-! ## The run -/

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

end Cert.ReferenceIdeal.RefRun

end
-- ==== Proof.JoinBase.lean ====
/-
  BOUNDARIES OF THE TWO PROGRAMS, AND CARRYING A BUFFER BACK TO WHERE IT WAS WRITTEN.

  Both programs are in static single assignment form: every buffer is written once, by one host operation or by one
  launched region, and only read afterwards.  The kernel program's buffer contents are a fold through its thirteen
  segments (boundaries W0 … W13); the reference's operation list is cut into nineteen consecutive stages, and its
  contents after each stage are named here (rA … rS).  A buffer read at a late boundary holds what it held at the
  boundary right after the segment that wrote it: no later host operation writes it, and no later region has it among
  its arrays.  The two tactics below walk a read back to that boundary, one segment at a time.
-/
import proofs.«121654_j5970004542118_2_alg».proof.Proof.Gen.KernelIdeal.Frame
import proofs.«121654_j5970004542118_2_alg».proof.Proof.RefOps

set_option maxRecDepth 16384

noncomputable section

namespace Cert.Join

open Idealize.ShloMosaic Idealize.ShloMosaic.TcCoe Idealize.SL.Sem Idealize.ShloMosaic.StableHlo
open Cert.ReferenceIdeal.RefRun

variable {F : FTy → Type} [FloatOps F]

/-- A kernel-program buffer as a device reference. -/
abbrev kb (b : Ref KernelIdeal.sig .tc) : DevRef KernelIdeal.τ KernelIdeal.sig := Proc.devRef .tc b
/-- A reference-program buffer as a device reference. -/
abbrev rb (b : Ref ReferenceIdeal.sig .tc) : DevRef ReferenceIdeal.τ ReferenceIdeal.sig := Proc.devRef .tc b

/-- The reference's valuations. -/
abbrev RVal (F : FTy → Type) [FloatOps F] := Valuation ReferenceIdeal.τ ReferenceIdeal.sig (Elt F)
/-- The kernel program's valuations. -/
abbrev KVal (F : FTy → Type) [FloatOps F] := Valuation KernelIdeal.τ KernelIdeal.sig (Elt F)

section RefBoundaries
variable [ReferenceIdeal.Facts] (V : RVal F)
/-! The reference's contents after each stage, from contents `V`. -/
abbrev rA : RVal F := after opsA V
abbrev rB : RVal F := after opsB (rA V)
abbrev rC : RVal F := after opsC (rB V)
abbrev rD : RVal F := after opsD (rC V)
abbrev rE : RVal F := after opsE (rD V)
abbrev rF : RVal F := after opsF (rE V)
abbrev rG : RVal F := after opsG (rF V)
abbrev rH : RVal F := after opsH (rG V)
abbrev rI : RVal F := after opsI (rH V)
abbrev rJ : RVal F := after opsJ (rI V)
abbrev rK : RVal F := after opsK (rJ V)
abbrev rL : RVal F := after opsL (rK V)
abbrev rM : RVal F := after opsM (rL V)
abbrev rN : RVal F := after opsN (rM V)
abbrev rO : RVal F := after opsO (rN V)
abbrev rP : RVal F := after opsP (rO V)
abbrev rQ : RVal F := after opsQ (rP V)
abbrev rR : RVal F := after opsR (rQ V)
abbrev rS : RVal F := after opsS (rR V)

/-- The whole operation list run from `V` is the last boundary. -/
theorem after_ops : after (ops (F := F)) V = rS V := by
  simp only [ops, StableHlo.after_append]
end RefBoundaries

/-- Open a fold of host operations at a buffer to the operations' composed term: one simplification pass, then, for the
    reads that sit inside the operand list of a concatenation (where the pass does not reach), one rewrite per read. -/
macro "open_fold" : tactic => `(tactic|
  (after_results_simp
   repeat (first
     | rw [StableHlo.nullary_result] | rw [StableHlo.unary_result] | rw [StableHlo.binary_result] | rw [StableHlo.ternary_result]
     | rw [StableHlo.quaternary_result] | rw [StableHlo.reshape_result]
     | (rw [StableHlo.nullary_result_ne]; rotate_left; decide)
     | (rw [StableHlo.unary_result_ne]; rotate_left; decide)
     | (rw [StableHlo.binary_result_ne]; rotate_left; decide)
     | (rw [StableHlo.ternary_result_ne]; rotate_left; decide)
     | (rw [StableHlo.quaternary_result_ne]; rotate_left; decide)
     | (rw [StableHlo.reshape_result_ne]; rotate_left; decide))))

/-- One step back through a stretch of host operations none of which writes the buffer read (either program). -/
macro "host_back" : tactic => `(tactic|
  (refine (StableHlo.after_of_forall_not_mem _ _ (List.forall_iff_forall_mem.mp ?_)).trans ?_
   · simp only [Cert.KernelIdeal.Gen.hostOps0, Cert.KernelIdeal.Gen.hostOps0_1, Cert.KernelIdeal.Gen.hostOps0_2,
       Cert.KernelIdeal.Gen.hostOps1, Cert.KernelIdeal.Gen.hostOps2, Cert.KernelIdeal.Gen.hostOps3,
       Cert.KernelIdeal.Gen.hostOps4, Cert.KernelIdeal.Gen.hostOps5,
       Cert.ReferenceIdeal.RefRun.opsA, Cert.ReferenceIdeal.RefRun.opsB, Cert.ReferenceIdeal.RefRun.opsC,
       Cert.ReferenceIdeal.RefRun.opsD, Cert.ReferenceIdeal.RefRun.opsE, Cert.ReferenceIdeal.RefRun.opsF,
       Cert.ReferenceIdeal.RefRun.opsG, Cert.ReferenceIdeal.RefRun.opsH, Cert.ReferenceIdeal.RefRun.opsI,
       Cert.ReferenceIdeal.RefRun.opsJ, Cert.ReferenceIdeal.RefRun.opsK, Cert.ReferenceIdeal.RefRun.opsL,
       Cert.ReferenceIdeal.RefRun.opsM, Cert.ReferenceIdeal.RefRun.opsN, Cert.ReferenceIdeal.RefRun.opsO,
       Cert.ReferenceIdeal.RefRun.opsP, Cert.ReferenceIdeal.RefRun.opsQ, Cert.ReferenceIdeal.RefRun.opsR,
       Cert.ReferenceIdeal.RefRun.opsS,
       List.flatten_cons, List.flatten_nil, List.append_nil, List.cons_append, List.nil_append, List.Forall,
       StableHlo.nullary_writes, StableHlo.unary_writes, StableHlo.binary_writes, StableHlo.ternary_writes,
       StableHlo.quaternary_writes, StableHlo.reshape_writes, StableHlo.binaryIndexed_writes, Finset.mem_singleton]
     repeat' apply And.intro
     all_goals exact StableHlo.devRef_ne_of_ne (by decide)))

/-- One step back through a region that does not have the buffer among its arrays: the left side of the goal is a read
    of the contents at that region's exit. -/
macro "r4_back" : tactic => `(tactic| refine (Cert.KernelIdeal.Gen.W12_of_ne _ _ _ _ (by decide)).trans ?_)
macro "r3_back" : tactic => `(tactic| refine (Cert.KernelIdeal.Gen.W10_of_ne _ _ _ _ (by decide)).trans ?_)
macro "r2_back" : tactic => `(tactic| refine (Cert.KernelIdeal.Gen.W8_of_ne _ _ _ _ (by decide)).trans ?_)
macro "r1_back" : tactic => `(tactic| refine (Cert.KernelIdeal.Gen.W6_of_ne _ _ _ _ (by decide)).trans ?_)
macro "r0_back" : tactic => `(tactic| refine (Cert.KernelIdeal.Gen.W4_of_ne _ _ _ _ (by decide)).trans ?_)

/-- The same steps on the right side of the goal. -/
macro "on_rhs " t:tactic : tactic => `(tactic| (refine Eq.symm ?_; $t; refine Eq.symm ?_))

section Test
open Cert.KernelIdeal Cert.KernelIdeal.Gen
variable (m : (ℓ : Loc nD τ sig) → Buf (Elt F) ℓ) (ρ : Dev nD → PrngReg) (c : Dev nD)

theorem W10_v8 : W10 m ρ c (kb main_v8) = W1 m ρ c (kb main_v8) := by
  r3_back; host_back; r2_back; host_back; r1_back; host_back; r0_back; host_back; host_back; rfl
theorem W12_arg3 : W12 m ρ c (kb main_arg3) = m ((c : Thread nD τ).loc main_arg3) := by
  r4_back; host_back; r3_back; host_back; r2_back; host_back; r1_back; host_back; r0_back; host_back; host_back; host_back; rfl
end Test

section Test2
variable [ReferenceIdeal.Facts] (V : RVal F)
theorem rG_v12 : rG V (rb ReferenceIdeal.main_v12) = rB V (rb ReferenceIdeal.main_v12) := by
  iterate 5 host_back
  rfl
theorem rS_arg3 : rS V (rb ReferenceIdeal.main_arg3) = V (rb ReferenceIdeal.main_arg3) := by
  iterate 19 host_back
  rfl
end Test2

end Cert.Join

end
-- ==== Proof.RefFrame.lean ====
/-
  THE REFERENCE'S FRAME: ITS ARGUMENT ARRAYS END UNCHANGED.

  No operation of the reference writes an argument's buffer (every operation writes the buffer of its own result, a
  literal reference different from every argument's), so an argument read after the last stage holds what it held at
  the start: nineteen steps back, one per stage.  With the run of the operation list this gives the frame: every weakly
  fair execution terminates, and each argument's buffer ends with its launch contents.
-/
import proofs.«121654_j5970004542118_2_alg».proof.Proof.RefRun
import proofs.«121654_j5970004542118_2_alg».proof.Proof.JoinBase

set_option maxRecDepth 16384

noncomputable section

namespace Cert.Join

open Idealize.ShloMosaic Idealize.ShloMosaic.TcCoe Idealize.SL.Sem Idealize.ShloMosaic.StableHlo
open Cert.ReferenceIdeal.RefRun

variable {F : FTy → Type} [FloatOps F]

section Args
variable [ReferenceIdeal.Facts] (V : RVal F)

/-! Each argument after the last stage, from contents `V`: what `V` holds (the fourth argument's fact is stated with
    the boundaries). -/
theorem rS_arg0 : rS V (rb ReferenceIdeal.main_arg0) = V (rb ReferenceIdeal.main_arg0) := by
  iterate 19 host_back
  rfl
theorem rS_arg1 : rS V (rb ReferenceIdeal.main_arg1) = V (rb ReferenceIdeal.main_arg1) := by
  iterate 19 host_back
  rfl
theorem rS_arg2 : rS V (rb ReferenceIdeal.main_arg2) = V (rb ReferenceIdeal.main_arg2) := by
  iterate 19 host_back
  rfl
theorem rS_arg4 : rS V (rb ReferenceIdeal.main_arg4) = V (rb ReferenceIdeal.main_arg4) := by
  iterate 19 host_back
  rfl
theorem rS_arg5 : rS V (rb ReferenceIdeal.main_arg5) = V (rb ReferenceIdeal.main_arg5) := by
  iterate 19 host_back
  rfl
theorem rS_arg6 : rS V (rb ReferenceIdeal.main_arg6) = V (rb ReferenceIdeal.main_arg6) := by
  iterate 19 host_back
  rfl
theorem rS_arg7 : rS V (rb ReferenceIdeal.main_arg7) = V (rb ReferenceIdeal.main_arg7) := by
  iterate 19 host_back
  rfl
theorem rS_arg8 : rS V (rb ReferenceIdeal.main_arg8) = V (rb ReferenceIdeal.main_arg8) := by
  iterate 19 host_back
  rfl
theorem rS_arg9 : rS V (rb ReferenceIdeal.main_arg9) = V (rb ReferenceIdeal.main_arg9) := by
  iterate 19 host_back
  rfl
theorem rS_arg10 : rS V (rb ReferenceIdeal.main_arg10) = V (rb ReferenceIdeal.main_arg10) := by
  iterate 19 host_back
  rfl
theorem rS_arg11 : rS V (rb ReferenceIdeal.main_arg11) = V (rb ReferenceIdeal.main_arg11) := by
  iterate 19 host_back
  rfl
theorem rS_arg12 : rS V (rb ReferenceIdeal.main_arg12) = V (rb ReferenceIdeal.main_arg12) := by
  iterate 19 host_back
  rfl
theorem rS_arg13 : rS V (rb ReferenceIdeal.main_arg13) = V (rb ReferenceIdeal.main_arg13) := by
  iterate 19 host_back
  rfl
theorem rS_arg14 : rS V (rb ReferenceIdeal.main_arg14) = V (rb ReferenceIdeal.main_arg14) := by
  iterate 19 host_back
  rfl
theorem rS_arg15 : rS V (rb ReferenceIdeal.main_arg15) = V (rb ReferenceIdeal.main_arg15) := by
  iterate 19 host_back
  rfl
end Args

section Frame
open Cert.ReferenceIdeal
variable [ReferenceIdeal.Facts]

/-- A final memory that has every TensorCore buffer of device `c` at the operations' fold over the launch contents has
    each argument's buffer at its launch contents. -/
theorem args_kept (m : (ℓ : Loc nD τ sig) → Buf (Elt F) ℓ) (c : Dev nD) (s : MemSt nD τ sig (Elt F))
    (h : ∀ b : Ref sig .tc, s.mem ((c.tc : Thread nD τ).loc b) = after ops (launchContents m c) (b : DevRef τ sig)) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15) :=
  ⟨(h main_arg0).trans ((congrFun (after_ops (launchContents m c)) (rb main_arg0)).trans (rS_arg0 (launchContents m c))),
   (h main_arg1).trans ((congrFun (after_ops (launchContents m c)) (rb main_arg1)).trans (rS_arg1 (launchContents m c))),
   (h main_arg2).trans ((congrFun (after_ops (launchContents m c)) (rb main_arg2)).trans (rS_arg2 (launchContents m c))),
   (h main_arg3).trans ((congrFun (after_ops (launchContents m c)) (rb main_arg3)).trans (rS_arg3 (launchContents m c))),
   (h main_arg4).trans ((congrFun (after_ops (launchContents m c)) (rb main_arg4)).trans (rS_arg4 (launchContents m c))),
   (h main_arg5).trans ((congrFun (after_ops (launchContents m c)) (rb main_arg5)).trans (rS_arg5 (launchContents m c))),
   (h main_arg6).trans ((congrFun (after_ops (launchContents m c)) (rb main_arg6)).trans (rS_arg6 (launchContents m c))),
   (h main_arg7).trans ((congrFun (after_ops (launchContents m c)) (rb main_arg7)).trans (rS_arg7 (launchContents m c))),
   (h main_arg8).trans ((congrFun (after_ops (launchContents m c)) (rb main_arg8)).trans (rS_arg8 (launchContents m c))),
   (h main_arg9).trans ((congrFun (after_ops (launchContents m c)) (rb main_arg9)).trans (rS_arg9 (launchContents m c))),
   (h main_arg10).trans ((congrFun (after_ops (launchContents m c)) (rb main_arg10)).trans (rS_arg10 (launchContents m c))),
   (h main_arg11).trans ((congrFun (after_ops (launchContents m c)) (rb main_arg11)).trans (rS_arg11 (launchContents m c))),
   (h main_arg12).trans ((congrFun (after_ops (launchContents m c)) (rb main_arg12)).trans (rS_arg12 (launchContents m c))),
   (h main_arg13).trans ((congrFun (after_ops (launchContents m c)) (rb main_arg13)).trans (rS_arg13 (launchContents m c))),
   (h main_arg14).trans ((congrFun (after_ops (launchContents m c)) (rb main_arg14)).trans (rS_arg14 (launchContents m c))),
   (h main_arg15).trans ((congrFun (after_ops (launchContents m c)) (rb main_arg15)).trans (rS_arg15 (launchContents m c)))⟩

/-- On every device, for any float values, from any memory with zero counters: every weakly fair execution of @main
    terminates, and its argument arrays end unchanged. -/
theorem ref_frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => args_kept m c r.2 (h c)) (run_main m ρ)
end Frame

end Cert.Join

end
-- ==== Proof.JoinTac.lean ====
/-
  Opening a fold of host operations that sits inside the operand list of a concatenation.

  The simplification pass that opens a fold to the operations' composed term does not reach inside the dependent pairs
  of a concatenation's operand list.  There the fold is unrolled and each read resolved by one rewrite at a time.
-/
import proofs.«121654_j5970004542118_2_alg».proof.Proof.JoinBase

namespace Cert.Join

open Idealize.ShloMosaic Idealize.ShloMosaic.StableHlo

/-- `open_fold`, also for folds inside a concatenation's operand list. -/
macro "open_fold_deep" : tactic => `(tactic|
  (try after_results_simp
   repeat (first
     | rw [StableHlo.after_cons] | rw [StableHlo.after_nil]
     | rw [StableHlo.nullary_result] | rw [StableHlo.unary_result] | rw [StableHlo.binary_result] | rw [StableHlo.ternary_result]
     | rw [StableHlo.quaternary_result] | rw [StableHlo.reshape_result]
     | (rw [StableHlo.nullary_result_ne]; rotate_left; decide)
     | (rw [StableHlo.unary_result_ne]; rotate_left; decide)
     | (rw [StableHlo.binary_result_ne]; rotate_left; decide)
     | (rw [StableHlo.ternary_result_ne]; rotate_left; decide)
     | (rw [StableHlo.quaternary_result_ne]; rotate_left; decide)
     | (rw [StableHlo.reshape_result_ne]; rotate_left; decide))))

end Cert.Join
-- ==== Proof.JoinHost.lean ====
/-
  THE STAGES THAT ARE HOST OPERATIONS IN BOTH PROGRAMS.

  Index vectors with self loops, node degrees, their inverse square roots, the edge normalisation, the two
  gather-scale-scatter convolutions, the attention-weighted scatter, the global softmax over the edge logits, and the
  mean pool with the final linear map: each of these is the same straight line of host operations in the kernel program
  and in the reference, on buffers with other names.  For each, from contents that agree on the stage's inputs the two
  stretches leave equal contents in the stage's output: both sides are opened to the operations' composed term, the inputs
  are rewritten, and the two terms are then the same term.  (The reference recomputes the index vectors, degrees and
  normalisation for its second convolution; the kernel program computes them once: the second copy is compared with the
  kernel program's only one.)  Nothing here depends on the float instance.
-/
import proofs.«121654_j5970004542118_2_alg».proof.Proof.JoinTac

set_option maxRecDepth 16384

noncomputable section

namespace Cert.Join

open Idealize.ShloMosaic Idealize.ShloMosaic.TcCoe Idealize.SL.Sem Idealize.ShloMosaic.StableHlo
open Cert.ReferenceIdeal.RefRun
open Cert.KernelIdeal.Gen (hostOps0 hostOps0_1 hostOps0_2 hostOps1 hostOps2 hostOps3 hostOps4 hostOps5)

variable {F : FTy → Type} [FloatOps F] [KernelIdeal.Facts] [ReferenceIdeal.Facts]
variable (V : KVal F) (V' : RVal F)

/-! ## Index vectors (source and target rows, with one and with two rounds of self loops) -/

theorem row_corr (h1 : V (kb KernelIdeal.main_arg1) = V' (rb ReferenceIdeal.main_arg1)) :
    after hostOps0 V (kb KernelIdeal.main_v3) = after opsB (after opsA V') (rb ReferenceIdeal.main_v12) := by
  open_fold; rw [h1]; rfl
theorem col_corr (h1 : V (kb KernelIdeal.main_arg1) = V' (rb ReferenceIdeal.main_arg1)) :
    after hostOps0 V (kb KernelIdeal.main_v6) = after opsB (after opsA V') (rb ReferenceIdeal.main_v15) := by
  open_fold; rw [h1]; rfl
theorem row2_corr (h1 : V (kb KernelIdeal.main_arg1) = V' (rb ReferenceIdeal.main_arg1)) :
    after hostOps0 V (kb KernelIdeal.main_v8) = after opsB (after opsA V') (rb ReferenceIdeal.main_v17) := by
  open_fold; rw [h1]; rfl
theorem col2_corr (h1 : V (kb KernelIdeal.main_arg1) = V' (rb ReferenceIdeal.main_arg1)) :
    after hostOps0 V (kb KernelIdeal.main_v9) = after opsB (after opsA V') (rb ReferenceIdeal.main_v18) := by
  open_fold; rw [h1]; rfl

/-! ## Degrees and their inverse square roots; the edge normalisation -/

/-- The inverse square root of each node's degree (zero where the degree is zero). -/
theorem dinv_corr (h9 : after hostOps0 V (kb KernelIdeal.main_v9) = V' (rb ReferenceIdeal.main_v18)) :
    after hostOps0_1 (after hostOps0 V) (kb KernelIdeal.main_v17) = after opsC V' (rb ReferenceIdeal.main_v26) := by
  open_fold; rw [← h9]; open_fold_deep; rfl

/-- The edge normalisation: the product of the two end nodes' inverse square root degrees. -/
theorem normOf_corr (h17 : V (kb KernelIdeal.main_v17) = V' (rb ReferenceIdeal.main_v26)) (h8 : V (kb KernelIdeal.main_v8) = V' (rb ReferenceIdeal.main_v17))
    (h9 : V (kb KernelIdeal.main_v9) = V' (rb ReferenceIdeal.main_v18)) :
    after hostOps0_2 V (kb KernelIdeal.main_v32) = after opsE V' (rb ReferenceIdeal.main_v42) := by
  open_fold; rw [h17, h8, h9]; rfl

/-! ## The reference's second copy of the index vectors, the degrees and the normalisation -/

variable (U : RVal F)

theorem row2_corr' (h12 : after hostOps0 V (kb KernelIdeal.main_v3) = U (rb ReferenceIdeal.main_v12)) :
    after hostOps0 V (kb KernelIdeal.main_v8) = after opsM U (rb ReferenceIdeal.main_v100) := by
  open_fold; rw [← h12]; open_fold_deep
theorem col2_corr' (h15 : after hostOps0 V (kb KernelIdeal.main_v6) = U (rb ReferenceIdeal.main_v15)) :
    after hostOps0 V (kb KernelIdeal.main_v9) = after opsM U (rb ReferenceIdeal.main_v101) := by
  open_fold; rw [← h15]; open_fold_deep
theorem dinv_corr' (h15 : after hostOps0 V (kb KernelIdeal.main_v6) = U (rb ReferenceIdeal.main_v15)) :
    after hostOps0_1 (after hostOps0 V) (kb KernelIdeal.main_v17) = after opsN (after opsM U) (rb ReferenceIdeal.main_v109) := by
  open_fold; rw [← h15]; open_fold_deep; rfl
theorem normOf_corr' (h17 : V (kb KernelIdeal.main_v17) = V' (rb ReferenceIdeal.main_v109)) (h8 : V (kb KernelIdeal.main_v8) = V' (rb ReferenceIdeal.main_v100))
    (h9 : V (kb KernelIdeal.main_v9) = V' (rb ReferenceIdeal.main_v101)) :
    after hostOps0_2 V (kb KernelIdeal.main_v32) = after opsP V' (rb ReferenceIdeal.main_v125) := by
  open_fold; rw [h17, h8, h9]; rfl

/-! ## The gather-scale-scatter of a graph convolution -/

theorem conv1_corr (h33 : V (kb KernelIdeal.main_v33) = V' (rb ReferenceIdeal.main_v27)) (h8 : V (kb KernelIdeal.main_v8) = V' (rb ReferenceIdeal.main_v17))
    (h9 : V (kb KernelIdeal.main_v9) = V' (rb ReferenceIdeal.main_v18)) (h32 : V (kb KernelIdeal.main_v32) = V' (rb ReferenceIdeal.main_v42)) :
    after hostOps1 V (kb KernelIdeal.main_v46) = after opsF V' (rb ReferenceIdeal.main_v55) := by
  open_fold; rw [h33, h8, h9, h32]; rfl

theorem conv2_corr (h93 : V (kb KernelIdeal.main_v93) = V' (rb ReferenceIdeal.main_v110)) (h8 : V (kb KernelIdeal.main_v8) = V' (rb ReferenceIdeal.main_v100))
    (h9 : V (kb KernelIdeal.main_v9) = V' (rb ReferenceIdeal.main_v101)) (h32 : V (kb KernelIdeal.main_v32) = V' (rb ReferenceIdeal.main_v125)) :
    after hostOps4 V (kb KernelIdeal.main_v106) = after opsQ V' (rb ReferenceIdeal.main_v138) := by
  open_fold; rw [h93, h8, h9, h32]; rfl

/-! ## The attention-weighted scatter over the original edges -/

theorem agg_corr (h3 : V (kb KernelIdeal.main_v3) = V' (rb ReferenceIdeal.main_v12)) (h88 : V (kb KernelIdeal.main_v88) = V' (rb ReferenceIdeal.main_v93)) :
    after hostOps3 V (kb KernelIdeal.main_v92) = after opsK V' (rb ReferenceIdeal.main_v97) := by
  open_fold; rw [h3, h88]; rfl

/-! ## The mean pool over graphs and the final linear map -/

theorem pool_corr (h108 : V (kb KernelIdeal.main_v108) = V' (rb ReferenceIdeal.main_v142)) (h3 : V (kb KernelIdeal.main_arg3) = V' (rb ReferenceIdeal.main_arg3))
    (h14 : V (kb KernelIdeal.main_arg14) = V' (rb ReferenceIdeal.main_arg14)) (h15 : V (kb KernelIdeal.main_arg15) = V' (rb ReferenceIdeal.main_arg15)) :
    after hostOps5 V (kb KernelIdeal.main_v125) = after opsS V' (rb ReferenceIdeal.main_v159) := by
  open_fold; rw [h108, h3, h14, h15]; rfl

end Cert.Join

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«121654_j5970004542118_2_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«121654_j5970004542118_2_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«121654_j5970004542118_2_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.Region0.lean ====
/-
  REGION 0: a matrix product computed block of rows by block of rows.

  The grid has ten points; point `t` reads rows `5000 t … 5000 t + 4999` of the `[50000, 128]` left operand and the whole
  `[128, 128]` right operand, and writes the product of the two into the same rows of the `[50000, 128]` result.  So after
  the region the result array is the product of the whole arrays: entry `(p, j)` is `∑ k, A (p, k) · W (k, j)`
  (`region0_apply`).  The steps: the body's stored value at an index of the block (`pay0_block`); each window's block at a
  point as rows of its array (`blk0_0_apply`, `blk0_1_apply`); what a point writes back is its block of the product
  (`flushed0_eq`); every row lies in the block of the point `row / 5000` (`cover0`); hence the whole array (`final0`).
-/
import proofs.«121654_j5970004542118_2_alg».proof.Proof.Gen.KernelIdeal.Frame
import proofs.«121654_j5970004542118_2_alg».proof.Proof.LibRegionRows
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's stored value at an index `y` of the block, when the loaded blocks are rows `off …` of `A` and all of `W`. -/
theorem pay0_block (x0 : Vec Ideal S5000x128 .f32) (x1 : Vec Ideal S128x128 .f32)
    (A : S50000x128.Idx → EReal) (W : S128x128.Idx → EReal) (off : ℕ) (y : S5000x128.Idx) (i : S50000x128.Idx)
    (hi0 : (i 0).val = off + (y 0).val) (hi1 : (i 1).val = (y 1).val)
    (h0 : ∀ (u : S5000x128.Idx) (z : S50000x128.Idx), (z 0).val = off + (u 0).val → (z 1).val = (u 1).val → (x0 u : EReal) = A z)
    (h1 : ∀ u : S128x128.Idx, (x1 u : EReal) = W u) :
    (k0_pay1 x0 x1 y : EReal) = prodArr A W i := by
  unfold k0_pay1
  exact block_prod none (truncf .bf16 x0 bitsLt_bf16_f32) (truncf .bf16 x1 bitsLt_bf16_f32) A W off y i hi0 hi1 h0 h1

/-- The printed index maps over the ten points: the row-blocked windows are at block `(t, 0)`, the whole one at `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block at point `t` is rows `5000 t …` of the left operand. -/
theorem blk0_0_apply (c : Dev nD) (t : Fin cfg0.N) (u : S5000x128.Idx) (z : S50000x128.Idx)
    (hz0 : (z 0).val = t.val * 5000 + (u 0).val) (hz1 : (z 1).val = (u 1).val) :
    (iblk0 V c 0 t : Vec Ideal S5000x128 .f32) u = (V c main_arg0 : S50000x128.Idx → EReal) z := by
  obtain ⟨e0, e1, -⟩ := idx0 t
  unfold iblk0
  rw [View.read_apply]
  show V c main_arg0 _ = V c main_arg0 z
  congr 1
  funext a
  apply Fin.ext
  match a with
  | ⟨0, _⟩ => show win0_0.index t (0 : Fin 2) * 5000 + 1 * (u 0).val = (z 0).val; rw [e0, hz0]; omega
  | ⟨1, _⟩ => show win0_0.index t (1 : Fin 2) * 128 + 1 * (u 1).val = (z 1).val; rw [e1, hz1]; omega

/-- Window 1's block at every point is the whole right operand. -/
theorem blk0_1_apply (c : Dev nD) (t : Fin cfg0.N) (u : S128x128.Idx) :
    (iblk0 V c 1 t : Vec Ideal S128x128 .f32) u = (V c main_arg4 : S128x128.Idx → EReal) u := by
  obtain ⟨-, -, e2, e3, -⟩ := idx0 t
  unfold iblk0
  rw [View.read_apply]
  show V c main_arg4 _ = V c main_arg4 u
  congr 1
  funext a
  apply Fin.ext
  match a with
  | ⟨0, _⟩ => show win0_1.index t (0 : Fin 2) * 128 + 1 * (u 0).val = (u 0).val; rw [e2]; omega
  | ⟨1, _⟩ => show win0_1.index t (1 : Fin 2) * 128 + 1 * (u 1).val = (u 1).val; rw [e3]; omega

/-- The result array of region 0 as a function of the arrays the region finds. -/
abbrev G0 (c : Dev nD) : S50000x128.Idx → EReal :=
  prodArr (V c main_arg0 : S50000x128.Idx → EReal) (V c main_arg4 : S128x128.Idx → EReal)

/-- What point `t` writes back is block `t` of the product. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero off2_zero]
  simp only [View.ld_unit_zero (S := S5000x128) off2_zero, View.ld_unit_zero (S := S128x128) off2_zero]
  obtain ⟨-, -, -, -, e4, e5⟩ := idx0 t
  funext y
  show (k0_pay1 (iblk0 V c 0 t) (iblk0 V c 1 t) y : EReal) = G0 V c (((cfg0.win 2).blk t).view.emb y)
  refine pay0_block (iblk0 V c 0 t) (iblk0 V c 1 t) (V c main_arg0) (V c main_arg4) (t.val * 5000) y
    (((cfg0.win 2).blk t).view.emb y) ?_ ?_ (blk0_0_apply V c t) (blk0_1_apply V c t)
  · show win0_2.index t (0 : Fin 2) * 5000 + 1 * (y 0).val = t.val * 5000 + (y 0).val
    rw [e4]; omega
  · show win0_2.index t (1 : Fin 2) * 128 + 1 * (y 1).val = (y 1).val
    rw [e5]; omega

/-- An index of the result array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v33).slice (win0_2.rect t)).set ↔ _
  rw [View.set_slice_whole, Rect.mem_set_unit]
  exact Iff.rfl

/-- Every index of the result array is in the block of the point `row / 5000`. -/
theorem cover0 (i : S50000x128.Idx) :
    ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  refine ⟨⟨(i 0).val / 5000, by rw [hN]; omega⟩, flush0_2 _, ?_⟩
  rw [mem_blk0]
  obtain ⟨-, -, -, -, e4, e5⟩ := idx0 ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- The result array after region 0 is the product of the arrays the region finds. -/
theorem final0 (c : Dev nD) : (dat0 V c).arrAt 2 cfg0.N = G0 V c :=
  (dat0 V c).arrAt_eq_of_cover 2 (G0 V c) (fun t _ => flushed0_eq V c t) cover0

/-- Entry `(p, j)` of the result array after region 0. -/
theorem region0_apply (c : Dev nD) (p : Fin 50000) (j : Fin 128) :
    (dat0 V c).arrAt 2 cfg0.N (ix2 p j)
      = ∑ k : Fin 128, realArr S50000x128 (V c main_arg0) (ix2 p k) * realArr S128x128 (V c main_arg4) (ix2 k j) := by
  rw [final0]
  rfl

end Cert.KernelIdeal.RegionValue

end
-- ==== Proof.Region3.lean ====
/-
  REGION 3: the matrix product of a sum of two arrays, computed block of rows by block of rows.

  The grid has ten points; point `t` reads rows `5000 t … 5000 t + 4999` of two `[50000, 128]` arrays, adds them, and
  multiplies the sum by the whole `[128, 128]` right operand; the product goes to the same rows of the `[50000, 128]`
  result.  So after the region entry `(p, j)` of the result is `∑ k, (A₀ (p, k) + A₁ (p, k)) · W (k, j)` (`region3_apply`).
  The steps are those of a plain blocked product: the body's stored value at an index of the block (`pay3_block`); each
  window's block at a point as rows of its array (`blk3_0_apply`, `blk3_1_apply`, `blk3_2_apply`); what a point writes
  back is its block of the product (`flushed3_eq`); every row lies in the block of the point `row / 5000` (`cover3`);
  hence the whole array (`final3`).
-/
import proofs.«121654_j5970004542118_2_alg».proof.Proof.Gen.KernelIdeal.Frame
import proofs.«121654_j5970004542118_2_alg».proof.Proof.LibRegionRows
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's stored value at an index `y` of the block, when the two loaded row blocks are rows `off …` of `A0` and
    `A1` and the third is all of `W`. -/
theorem pay3_block (x0 x1 : Vec Ideal S5000x128 .f32) (x2 : Vec Ideal S128x128 .f32)
    (A0 A1 : S50000x128.Idx → EReal) (W : S128x128.Idx → EReal) (off : ℕ) (y : S5000x128.Idx) (i : S50000x128.Idx)
    (hi0 : (i 0).val = off + (y 0).val) (hi1 : (i 1).val = (y 1).val)
    (h0 : ∀ (u : S5000x128.Idx) (z : S50000x128.Idx), (z 0).val = off + (u 0).val → (z 1).val = (u 1).val → (x0 u : EReal) = A0 z)
    (h1 : ∀ (u : S5000x128.Idx) (z : S50000x128.Idx), (z 0).val = off + (u 0).val → (z 1).val = (u 1).val → (x1 u : EReal) = A1 z)
    (h2 : ∀ u : S128x128.Idx, (x2 u : EReal) = W u) :
    (k3_pay1 x0 x1 x2 y : EReal) = prodArr (fun z => A0 z + A1 z) W i := by
  unfold k3_pay1
  refine block_prod none
    (truncf .bf16 (addf (shapeCast S5000x128 x0 shapeCasts_S5000x128_S5000x128) (shapeCast S5000x128 x1 shapeCasts_S5000x128_S5000x128)) bitsLt_bf16_f32)
    (truncf .bf16 x2 bitsLt_bf16_f32) (fun z => A0 z + A1 z) W off y i hi0 hi1 (fun u z hz0 hz1 => ?_) h2
  show (shapeCast S5000x128 x0 shapeCasts_S5000x128_S5000x128 u : EReal) + shapeCast S5000x128 x1 shapeCasts_S5000x128_S5000x128 u = A0 z + A1 z
  rw [shapeCast_self, shapeCast_self, h0 u z hz0 hz1, h1 u z hz0 hz1]

/-- The printed index maps over the ten points: the row-blocked windows are at block `(t, 0)`, the whole one at `(0, 0)`. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Window 0's block at point `t` is rows `5000 t …` of the first summand. -/
theorem blk3_0_apply (c : Dev nD) (t : Fin cfg3.N) (u : S5000x128.Idx) (z : S50000x128.Idx)
    (hz0 : (z 0).val = t.val * 5000 + (u 0).val) (hz1 : (z 1).val = (u 1).val) :
    (iblk3 V c 0 t : Vec Ideal S5000x128 .f32) u = (V c main_v51_0 : S50000x128.Idx → EReal) z := by
  obtain ⟨e0, e1, -⟩ := idx3 t
  unfold iblk3
  rw [View.read_apply]
  show V c main_v51_0 _ = V c main_v51_0 z
  congr 1
  funext a
  apply Fin.ext
  match a with
  | ⟨0, _⟩ => show win3_0.index t (0 : Fin 2) * 5000 + 1 * (u 0).val = (z 0).val; rw [e0, hz0]; omega
  | ⟨1, _⟩ => show win3_0.index t (1 : Fin 2) * 128 + 1 * (u 1).val = (z 1).val; rw [e1, hz1]; omega

/-- Window 1's block at point `t` is rows `5000 t …` of the second summand. -/
theorem blk3_1_apply (c : Dev nD) (t : Fin cfg3.N) (u : S5000x128.Idx) (z : S50000x128.Idx)
    (hz0 : (z 0).val = t.val * 5000 + (u 0).val) (hz1 : (z 1).val = (u 1).val) :
    (iblk3 V c 1 t : Vec Ideal S5000x128 .f32) u = (V c main_v92 : S50000x128.Idx → EReal) z := by
  obtain ⟨-, -, e0, e1, -⟩ := idx3 t
  unfold iblk3
  rw [View.read_apply]
  show V c main_v92 _ = V c main_v92 z
  congr 1
  funext a
  apply Fin.ext
  match a with
  | ⟨0, _⟩ => show win3_1.index t (0 : Fin 2) * 5000 + 1 * (u 0).val = (z 0).val; rw [e0, hz0]; omega
  | ⟨1, _⟩ => show win3_1.index t (1 : Fin 2) * 128 + 1 * (u 1).val = (z 1).val; rw [e1, hz1]; omega

/-- Window 2's block at every point is the whole right operand. -/
theorem blk3_2_apply (c : Dev nD) (t : Fin cfg3.N) (u : S128x128.Idx) :
    (iblk3 V c 2 t : Vec Ideal S128x128 .f32) u = (V c main_arg6 : S128x128.Idx → EReal) u := by
  obtain ⟨-, -, -, -, e2, e3, -⟩ := idx3 t
  unfold iblk3
  rw [View.read_apply]
  show V c main_arg6 _ = V c main_arg6 u
  congr 1
  funext a
  apply Fin.ext
  match a with
  | ⟨0, _⟩ => show win3_2.index t (0 : Fin 2) * 128 + 1 * (u 0).val = (u 0).val; rw [e2]; omega
  | ⟨1, _⟩ => show win3_2.index t (1 : Fin 2) * 128 + 1 * (u 1).val = (u 1).val; rw [e3]; omega

/-- The result array of region 3 as a function of the arrays the region finds. -/
abbrev G3 (c : Dev nD) : S50000x128.Idx → EReal :=
  prodArr (fun z => realArr S50000x128 (V c main_v51_0) z + realArr S50000x128 (V c main_v92) z)
    (V c main_arg6 : S128x128.Idx → EReal)

/-- What point `t` writes back is block `t` of the product. -/
theorem flushed3_eq (c : Dev nD) (t : Fin cfg3.N) :
    (dat3 V c).flushed 3 t = ((cfg3.win 3).blk t).view.read (Elt Ideal) (G3 V c) := by
  show (cfg3.win 3).cut (grid3.coords t) ((dat3 V c).after 3 t) = _
  rw [after3_3]
  unfold out3_3
  rw [View.canon_unit_zero off2_zero]
  simp only [View.ld_unit_zero (S := S5000x128) off2_zero, View.ld_unit_zero (S := S128x128) off2_zero]
  obtain ⟨-, -, -, -, -, -, e4, e5⟩ := idx3 t
  funext y
  show (k3_pay1 (iblk3 V c 0 t) (iblk3 V c 1 t) (iblk3 V c 2 t) y : EReal) = G3 V c (((cfg3.win 3).blk t).view.emb y)
  refine pay3_block (iblk3 V c 0 t) (iblk3 V c 1 t) (iblk3 V c 2 t) (V c main_v51_0) (V c main_v92) (V c main_arg6)
    (t.val * 5000) y (((cfg3.win 3).blk t).view.emb y) ?_ ?_ (blk3_0_apply V c t) (blk3_1_apply V c t) (blk3_2_apply V c t)
  · show win3_3.index t (0 : Fin 2) * 5000 + 1 * (y 0).val = t.val * 5000 + (y 0).val
    rw [e4]; omega
  · show win3_3.index t (1 : Fin 2) * 128 + 1 * (y 1).val = (y 1).val
    rw [e5]; omega

/-- An index of the result array is in point `t`'s block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v93).slice (win3_3.rect t)).set ↔ _
  rw [View.set_slice_whole, Rect.mem_set_unit]
  exact Iff.rfl

/-- Every index of the result array is in the block of the point `row / 5000`. -/
theorem cover3 (i : S50000x128.Idx) :
    ∃ t : Fin cfg3.N, (cfg3.win 3).flush t = true ∧ i ∈ ((cfg3.win 3).blk t).view.set := by
  have hN : cfg3.N = 10 := N_3
  have hi0 : (i 0).val < 50000 := (i 0).isLt
  have hi1 : (i 1).val < 128 := (i 1).isLt
  refine ⟨⟨(i 0).val / 5000, by rw [hN]; omega⟩, flush3_3 _, ?_⟩
  rw [mem_blk3]
  obtain ⟨-, -, -, -, -, -, e4, e5⟩ := idx3 ⟨(i 0).val / 5000, by rw [hN]; omega⟩
  intro a
  match a with
  | ⟨0, _⟩ =>
    show win3_3.index _ (0 : Fin 2) * 5000 ≤ (i 0).val ∧ (i 0).val < win3_3.index _ (0 : Fin 2) * 5000 + 5000
    rw [e4]; show (i 0).val / 5000 * 5000 ≤ (i 0).val ∧ (i 0).val < (i 0).val / 5000 * 5000 + 5000; omega
  | ⟨1, _⟩ =>
    show win3_3.index _ (1 : Fin 2) * 128 ≤ (i 1).val ∧ (i 1).val < win3_3.index _ (1 : Fin 2) * 128 + 128
    rw [e5]; omega

/-- The result array after region 3 is the product of the sum of the two arrays and the right operand. -/
theorem final3 (c : Dev nD) : (dat3 V c).arrAt 3 cfg3.N = G3 V c :=
  (dat3 V c).arrAt_eq_of_cover 3 (G3 V c) (fun t _ => flushed3_eq V c t) cover3

/-- Entry `(p, j)` of the result array after region 3. -/
theorem region3_apply (c : Dev nD) (p : Fin 50000) (j : Fin 128) :
    (dat3 V c).arrAt 3 cfg3.N (ix2 p j)
      = ∑ k : Fin 128, (realArr S50000x128 (V c main_v51_0) (ix2 p k) + realArr S50000x128 (V c main_v92) (ix2 p k))
          * realArr S128x128 (V c main_arg6) (ix2 k j) := by
  rw [final3]
  rfl

end Cert.KernelIdeal.RegionValue

end
-- ==== Proof.JoinDot.lean ====
/-
  THE TWO NODE-LEVEL MATRIX PRODUCTS.

  The kernel program computes x · W1 and (h + agg) · W2 in launched regions, ten blocks of 5000 rows each; the reference
  computes each as one host matrix product.  A block of rows of a product is the product of the block of rows, so after
  the region the whole output array holds, at (p, j), the sum over k of the left operand's (p, k) entry times the
  weights' (k, j) entry (the region's value, proved with the region); the host product read at (p, j) is the same sum, term
  by term in the same order.  Nothing needs to be finite.
-/
import proofs.«121654_j5970004542118_2_alg».proof.Proof.JoinBase
import proofs.«121654_j5970004542118_2_alg».proof.Proof.Region0
import proofs.«121654_j5970004542118_2_alg».proof.Proof.Region3

set_option maxRecDepth 16384

noncomputable section

namespace Cert.Join

open Idealize.ShloMosaic Idealize.ShloMosaic.TcCoe Idealize.SL.Sem Idealize.ShloMosaic.StableHlo Idealize.ShloMosaic.ValueIdx
open Cert.ReferenceIdeal.RefRun
open Cert.KernelIdeal.Gen

variable [KernelIdeal.Facts] [ReferenceIdeal.Facts]
variable (m : (ℓ : Loc KernelIdeal.nD KernelIdeal.τ KernelIdeal.sig) → Buf (Elt Ideal) ℓ) (ρ : Dev KernelIdeal.nD → PrngReg) (c : Dev KernelIdeal.nD)
variable (U : RVal Ideal)

/-- x · W1: the region's output array is the host product of the same operands. -/
theorem xw1_corr (h0 : W3 m ρ c (kb KernelIdeal.main_arg0) = U (rb ReferenceIdeal.main_arg0)) (h4 : W3 m ρ c (kb KernelIdeal.main_arg4) = U (rb ReferenceIdeal.main_arg4)) :
    W4 m ρ c (kb KernelIdeal.main_v33) = after opsD U (rb ReferenceIdeal.main_v27) := by
  refine (W4_arr m ρ c 2).trans ?_
  rw [KernelIdeal.RegionValue.final0]
  open_fold
  rw [← h0, ← h4]
  funext i
  obtain ⟨p, j, rfl⟩ : ∃ (p : Fin 50000) (j : Fin 128), i = ix2 p j := ⟨i 0, i 1, eq_ix2 i⟩
  refine Eq.trans ?_ (BlockDot.hdot_apply none _ _ p j).symm
  rfl

/-- (h + agg) · W2. -/
theorem xw2_corr (h51 : W9 m ρ c (kb KernelIdeal.main_v51_0) = U (rb ReferenceIdeal.main_v59)) (h92 : W9 m ρ c (kb KernelIdeal.main_v92) = U (rb ReferenceIdeal.main_v97))
    (h6 : W9 m ρ c (kb KernelIdeal.main_arg6) = U (rb ReferenceIdeal.main_arg6)) :
    W10 m ρ c (kb KernelIdeal.main_v93) = after opsO (after opsN (after opsM (after opsL U))) (rb ReferenceIdeal.main_v110) := by
  refine (W10_arr m ρ c 3).trans ?_
  rw [KernelIdeal.RegionValue.final3]
  open_fold
  rw [← h51, ← h92, ← h6]
  funext i
  obtain ⟨p, j, rfl⟩ : ∃ (p : Fin 50000) (j : Fin 128), i = ix2 p j := ⟨i 0, i 1, eq_ix2 i⟩
  refine Eq.trans ?_ (BlockDot.hdot_apply none _ _ p j).symm
  rfl

end Cert.Join

end
-- ==== Proof.LibColumn.lean ====
/-
  Two layout operations read at an index, for a per-row quantity kept as a column (a sum over the last axis with the
  reduced axis kept as a unit axis): the cast of a vector of `a` entries to an `a`-by-`1` column, and the broadcast of
  such a column across `b` columns. Both are stated over coordinates of literal extents.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to `[a, 1]` reads, at `(i, u)`, the operand at `i`, whatever the unit coordinate `u`: the two
    indices have the same row-major position, `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«121654_j5970004542118_2_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.LibDenseStep.lean ====
/-
  DENSE LAYERS STEP BY STEP, at the ideal values: from what the operand's row is to what the result's row is.

  Stated over LibDenseRow's row functions `layer` and `act`.  Each lemma takes as a hypothesis what row `p` of the operand is
  (`ha`) and what the weight's entries are (`hw`), and returns row `p` of the result, so that a chain of layers is read by
  nesting them.  Two spellings: on the vector unit (a matrix product into the zero accumulator; a one-row bias `[1, N]` cast
  to itself and broadcast over the rows; the rectifier against the zero word splat) and on the host (`dot_general`; the bias
  `[N]` broadcast to `[1, N]` and then over the rows; the rectifier against the zero constant broadcast from a scalar).
  Also: the host's broadcasts of a constant, of a column across columns, and the other keep-dimension broadcasts of a
  batch of tables, read at an index; and two tactics that decide, for a printed contraction record that contracts the
  operand's columns with the weight's rows, which operand entries an output entry reads.
  No algebra of the extended reals is used.
-/
import proofs.«121654_j5970004542118_2_alg».proof.Proof.LibRowBias

noncomputable section

open scoped BigOperators

namespace Cert.DenseStep

open Idealize.ShloMosaic Idealize.ShloMosaic.ValueIdx Cert.DenseRow Cert.RowBias

/-! ## The contraction records: operand indices at an output index -/

/-- For a record contracting the operand's columns with the weight's rows: the operand index at output `(p, c)` and
    contraction coordinate `k` is `(p, k)`. -/
macro "plain_lhs " d:ident K:num : tactic => `(tactic| (
  intro p c k
  funext a
  apply Fin.ext
  match a with
  | ⟨0, _⟩ =>
    show (DotDims.lhsIdx $d (ix2 p c) ((contrEquiv1 $d $K rfl rfl).symm k) 0).val = p.val
    unfold DotDims.lhsIdx
    rw [dif_neg (by decide), dif_pos (by decide)]
    rfl
  | ⟨1, _⟩ => exact (DotDims.lhsIdx_val_of_single $d rfl _ _).trans (contrEquiv1_symm_val $d $K rfl rfl k)))

/-- … and the weight index is `(k, c)`. -/
macro "plain_rhs " d:ident K:num : tactic => `(tactic| (
  intro p c k
  funext a
  apply Fin.ext
  match a with
  | ⟨0, _⟩ => exact (DotDims.rhsIdx_val_of_single $d rfl _ _).trans (contrEquiv1_symm_val $d $K rfl rfl k)
  | ⟨1, _⟩ =>
    show (DotDims.rhsIdx $d (ix2 p c) ((contrEquiv1 $d $K rfl rfl).symm k) 1).val = c.val
    unfold DotDims.rhsIdx
    rw [dif_neg (by decide), dif_pos (by decide)]
    rfl))

/-! ## Step lemmas: from the operand's row to the result's row -/

/-- A matrix product into the zero accumulator, at `(p, c)`, given the operand's row `p` and the weight's entries. -/
theorem kmm_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (c : Fin N) :
    matmul d none a w (constant ⟨2, ![R, N]⟩ .f32 0x00000000#32) (ix2 p c) = ∑ k : Fin K, xr k * wm k c := by
  show FloatOps.matmul d none a w (constant ⟨2, ![R, N]⟩ .f32 0x00000000#32) (ix2 p c) = _
  rw [Ideal.matmul_constant_zero_apply, contr_sum d hr hs hl hrr]
  exact Finset.sum_congr rfl fun k _ => by rw [ha k, hw k c]

/-- A one-row bias `[1, N]` cast to itself and broadcast over the rows, at `(p, c)`. -/
theorem kbias_row {R N : ℕ} (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (p : Fin R) (c : Fin N) :
    broadcastTo ⟨2, ![R, N]⟩ (shapeCast ⟨2, ![1, N]⟩ v hc) hb (ix2 p c) = v (ix2 (0 : Fin 1) c) := by
  rw [shapeCast_self, broadcastTo_1b_ab_apply]

/-- A dense layer (product into the zero accumulator plus the one-row bias), at `(p, c)`. -/
theorem klayer_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (c : Fin N) :
    addf (matmul d none a w (constant ⟨2, ![R, N]⟩ .f32 0x00000000#32))
        (broadcastTo ⟨2, ![R, N]⟩ (shapeCast ⟨2, ![1, N]⟩ v hc) hb) (ix2 p c)
      = layer xr wm (fun j => v (ix2 (0 : Fin 1) j)) c := by
  show matmul d none a w (constant ⟨2, ![R, N]⟩ .f32 0x00000000#32) (ix2 p c)
      + broadcastTo ⟨2, ![R, N]⟩ (shapeCast ⟨2, ![1, N]⟩ v hc) hb (ix2 p c) = _
  rw [kmm_row d hr hs hl hrr a w p xr ha wm hw c, kbias_row v hc hb p c]
  rfl

/-- The same followed by the rectifier. -/
theorem klayer_relu_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (c : Fin N) :
    maximumf (addf (matmul d none a w (constant ⟨2, ![R, N]⟩ .f32 0x00000000#32))
        (broadcastTo ⟨2, ![R, N]⟩ (shapeCast ⟨2, ![1, N]⟩ v hc) hb))
        (broadcast ⟨2, ![R, N]⟩ (Scalar.ofBits (F := Ideal) .f32 0x00000000#32)) (ix2 p c)
      = act zf (layer xr wm (fun j => v (ix2 (0 : Fin 1) j))) c :=
  congrArg (fun y => max y zf) (klayer_row d hr hs hl hrr a w p xr ha wm hw v hc hb c)

/-- A weight behind a cast to its own shape reads as itself. -/
theorem self_cast {K N : ℕ} {φ : FTy} (w : FVec Ideal ⟨2, ![K, N]⟩ φ) (h : (⟨2, ![K, N]⟩ : Shape).ShapeCasts ⟨2, ![K, N]⟩)
    (k : Fin K) (j : Fin N) : shapeCast ⟨2, ![K, N]⟩ w h (ix2 k j) = w (ix2 k j) :=
  congrFun (shapeCast_self w h) _

/-! ## The host's spellings -/

/-- A `dot_general`, at `(p, c)`, given the operand's row `p` and the weight's entries. -/
theorem hmm_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (c : Fin N) :
    Host.dotGeneral d none a w (ix2 p c) = ∑ k : Fin K, xr k * w (ix2 k c) := by
  simp only [Host.dotGeneral]
  rw [Ideal.dotGeneral_apply, contr_sum d hr hs hl hrr]
  exact Finset.sum_congr rfl fun k _ => by rw [ha k]

/-- The host's dense layer, at `(p, c)`. -/
theorem hlayer_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (c : Fin N) :
    addf (Host.dotGeneral d none a w)
        (broadcastInDim ⟨2, ![R, N]⟩ ![0, 1] h2 (broadcastInDim ⟨2, ![1, N]⟩ ![1] h1 b)) (ix2 p c)
      = layer xr (fun k j => w (ix2 k j)) (fun j => b (ix1 j)) c := by
  rw [hlayer_apply d hr hs hl hrr none a w b h1 h2 p c, show (fun k => a (ix2 p k)) = xr from funext ha]

/-- A constant broadcast from a scalar reads the constant's value everywhere. -/
theorem hconst {s : Shape} {φ : FTy} (w : BitVec φ.bits) (h : (⟨0, ![]⟩ : Shape).BroadcastsInDim s ![]) (i : s.Idx) :
    broadcastInDim s ![] h (constant (F := Ideal) ⟨0, ![]⟩ φ w) i = Ideal.ofBits φ w := by
  rw [broadcastInDim_apply _ h _ i ix0 (fun a => a.elim0)]
  rfl

/-- The host's rectifier at an index. -/
theorem hrelu {s : Shape} (y : FVec Ideal s .f32) (h : (⟨0, ![]⟩ : Shape).BroadcastsInDim s ![]) (i : s.Idx) :
    maximumf y (broadcastInDim s ![] h (constant (F := Ideal) ⟨0, ![]⟩ .f32 0x00000000#32)) i = max (y i) zf :=
  congrFun (hact y h) i

/-- The host's dense layer followed by its rectifier. -/
theorem hlayer_relu_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (h0 : (⟨0, ![]⟩ : Shape).BroadcastsInDim ⟨2, ![R, N]⟩ ![]) (c : Fin N) :
    maximumf (addf (Host.dotGeneral d none a w)
        (broadcastInDim ⟨2, ![R, N]⟩ ![0, 1] h2 (broadcastInDim ⟨2, ![1, N]⟩ ![1] h1 b)))
        (broadcastInDim ⟨2, ![R, N]⟩ ![] h0 (constant (F := Ideal) ⟨0, ![]⟩ .f32 0x00000000#32)) (ix2 p c)
      = act zf (layer xr (fun k j => w (ix2 k j)) (fun j => b (ix1 j))) c :=
  (hrelu _ h0 (ix2 p c)).trans (congrArg (fun y => max y zf) (hlayer_row d hr hs hl hrr a w p xr ha b h1 h2 c))

variable {α : Type}

/-- A column `[R, 1]` broadcast across `N` columns. -/
theorem hbcast_col {R N : ℕ} (v : (⟨2, ![R, 1]⟩ : Shape).Idx → α) (h : (⟨2, ![R, 1]⟩ : Shape).BroadcastsInDim ⟨2, ![R, N]⟩ ![0, 1])
    (r : Fin R) (k : Fin N) : broadcastInDim ⟨2, ![R, N]⟩ ![0, 1] h v (ix2 r k) = v (ix2 r (0 : Fin 1)) :=
  broadcastInDim_apply _ h v (ix2 r k) (ix2 r (0 : Fin 1)) fun ax => by
    match ax with
    | ⟨0, _⟩ =>
      show r.val = if R = 1 then 0 else r.val
      split
      · have := r.isLt; omega
      · rfl
    | ⟨1, _⟩ => rfl

/-- A vector `[A]` as a column `[A, 1]`. -/
theorem hbcast_vec_col {A : ℕ} (v : (⟨1, ![A]⟩ : Shape).Idx → α) (h : (⟨1, ![A]⟩ : Shape).BroadcastsInDim ⟨2, ![A, 1]⟩ ![0])
    (b : Fin A) (u : Fin 1) : broadcastInDim ⟨2, ![A, 1]⟩ ![0] h v (ix2 b u) = v (ix1 b) :=
  broadcastInDim_apply _ h v (ix2 b u) (ix1 b) fun ax => by
    match ax with
    | ⟨0, _⟩ =>
      show b.val = if A = 1 then 0 else b.val
      split
      · have := b.isLt; omega
      · rfl

/-- A per-table row `[A, C]` with a unit row axis inserted, `[A, 1, C]`. -/
theorem hbcast_ac_a1c {A C : ℕ} (v : (⟨2, ![A, C]⟩ : Shape).Idx → α)
    (h : (⟨2, ![A, C]⟩ : Shape).BroadcastsInDim ⟨3, ![A, 1, C]⟩ ![0, 2]) (b : Fin A) (u : Fin 1) (k : Fin C) :
    broadcastInDim ⟨3, ![A, 1, C]⟩ ![0, 2] h v (ix3 b u k) = v (ix2 b k) :=
  broadcastInDim_apply _ h v (ix3 b u k) (ix2 b k) fun ax => by
    match ax with
    | ⟨0, _⟩ =>
      show b.val = if A = 1 then 0 else b.val
      split
      · have := b.isLt; omega
      · rfl
    | ⟨1, _⟩ =>
      show k.val = if C = 1 then 0 else k.val
      split
      · have := k.isLt; omega
      · rfl

/-- `[A, 1, C]` repeated over a table's `B` rows. -/
theorem hbcast_a1c_abc {A B C : ℕ} (v : (⟨3, ![A, 1, C]⟩ : Shape).Idx → α)
    (h : (⟨3, ![A, 1, C]⟩ : Shape).BroadcastsInDim ⟨3, ![A, B, C]⟩ ![0, 1, 2]) (b : Fin A) (n : Fin B) (k : Fin C) :
    broadcastInDim ⟨3, ![A, B, C]⟩ ![0, 1, 2] h v (ix3 b n k) = v (ix3 b (0 : Fin 1) k) :=
  broadcastInDim_apply _ h v (ix3 b n k) (ix3 b (0 : Fin 1) k) fun ax => by
    match ax with
    | ⟨0, _⟩ =>
      show b.val = if A = 1 then 0 else b.val
      split
      · have := b.isLt; omega
      · rfl
    | ⟨1, _⟩ => rfl
    | ⟨2, _⟩ =>
      show k.val = if C = 1 then 0 else k.val
      split
      · have := k.isLt; omega
      · rfl

/-- A per-row number `[A, B]` with a unit column axis appended, `[A, B, 1]`. -/
theorem hbcast_ab_ab1 {A B : ℕ} (v : (⟨2, ![A, B]⟩ : Shape).Idx → α)
    (h : (⟨2, ![A, B]⟩ : Shape).BroadcastsInDim ⟨3, ![A, B, 1]⟩ ![0, 1]) (b : Fin A) (n : Fin B) (u : Fin 1) :
    broadcastInDim ⟨3, ![A, B, 1]⟩ ![0, 1] h v (ix3 b n u) = v (ix2 b n) :=
  broadcastInDim_apply _ h v (ix3 b n u) (ix2 b n) fun ax => by
    match ax with
    | ⟨0, _⟩ =>
      show b.val = if A = 1 then 0 else b.val
      split
      · have := b.isLt; omega
      · rfl
    | ⟨1, _⟩ =>
      show n.val = if B = 1 then 0 else n.val
      split
      · have := n.isLt; omega
      · rfl

/-- `[A, B, 1]` repeated across `C` columns. -/
theorem hbcast_ab1_abc {A B C : ℕ} (v : (⟨3, ![A, B, 1]⟩ : Shape).Idx → α)
    (h : (⟨3, ![A, B, 1]⟩ : Shape).BroadcastsInDim ⟨3, ![A, B, C]⟩ ![0, 1, 2]) (b : Fin A) (n : Fin B) (k : Fin C) :
    broadcastInDim ⟨3, ![A, B, C]⟩ ![0, 1, 2] h v (ix3 b n k) = v (ix3 b n (0 : Fin 1)) :=
  broadcastInDim_apply _ h v (ix3 b n k) (ix3 b n (0 : Fin 1)) fun ax => by
    match ax with
    | ⟨0, _⟩ =>
      show b.val = if A = 1 then 0 else b.val
      split
      · have := b.isLt; omega
      · rfl
    | ⟨1, _⟩ =>
      show n.val = if B = 1 then 0 else n.val
      split
      · have := n.isLt; omega
      · rfl
    | ⟨2, _⟩ => rfl

end Cert.DenseStep

end
-- ==== Proof.JoinAtt.lean ====
/-
  THE GLOBAL SOFTMAX OVER THE EDGE LOGITS, AND THE ATTENTION COLUMN OF THE ORIGINAL EDGES.

  From equal logit vectors both programs take the same softmax (maximum, shift, exponential, sum, quotient) and keep
  the first 800000 entries.  They then differ in one spelling only: the kernel program reshapes that vector to a column
  [800000, 1], the reference broadcasts it along a new unit axis.  Both read, at (e, 0), the vector's entry e.
-/
import proofs.«121654_j5970004542118_2_alg».proof.Proof.JoinTac
import proofs.«121654_j5970004542118_2_alg».proof.Proof.LibColumn
import proofs.«121654_j5970004542118_2_alg».proof.Proof.LibDenseStep

set_option maxRecDepth 16384

noncomputable section

namespace Cert.Join

open Idealize.ShloMosaic Idealize.ShloMosaic.TcCoe Idealize.SL.Sem Idealize.ShloMosaic.StableHlo Idealize.ShloMosaic.ValueIdx
open Cert.ReferenceIdeal.RefRun
open Cert.KernelIdeal.Gen (hostOps2)

/-- A vector reshaped to a column is the vector broadcast along a new unit axis. -/
theorem reshape_col_eq_bcast {α : Type} {n : ℕ} (x : (⟨1, ![n]⟩ : Shape).Idx → α)
    (hc : (⟨1, ![n]⟩ : Shape).ShapeCasts ⟨2, ![n, 1]⟩) (hb : (⟨1, ![n]⟩ : Shape).BroadcastsInDim ⟨2, ![n, 1]⟩ ![0]) :
    (fun i => shapeCast ⟨2, ![n, 1]⟩ x hc i) = broadcastInDim ⟨2, ![n, 1]⟩ ![0] hb x := by
  funext i
  obtain ⟨b, u, rfl⟩ : ∃ (b : Fin n) (u : Fin 1), i = ix2 b u := ⟨i 0, i 1, eq_ix2 i⟩
  rw [ColumnLayout.shapeCast_a_a1_apply, DenseStep.hbcast_vec_col]

variable {F : FTy → Type} [FloatOps F] [KernelIdeal.Facts] [ReferenceIdeal.Facts]

/-- From equal logits, equal attention columns. -/
theorem att_corr (V : KVal F) (U : RVal F)
    (hL : after hostOps2 V (kb KernelIdeal.main_v73) = U (rb ReferenceIdeal.main_v79)) :
    after hostOps2 V (kb KernelIdeal.main_v85) = after opsI U (rb ReferenceIdeal.main_v91) := by
  open_fold
  rw [← hL]
  open_fold
  exact reshape_col_eq_bcast _ _ _

end Cert.Join

end
-- ==== Proof.Region2Pay.lean ====
/-
  REGION 2's stored value at an index: an edge-wise two-layer network scaled by a per-row weight.

  For a block of `R` rows the body computes, from a `[R, 32]` input `x`, a per-row scale `s` kept as a column `[R, 1]`,
  weights `W₁ [32, 128]`, `W₂ [128, 128]` and one-row biases `b₁, b₂ [1, 128]`:
      `h = max (x · W₁ + b₁) 0`,   `out = s ⊙ (h · W₂ + b₂)`
  (the biases are broadcast over the rows, the scale over the columns).  Entry `(p, j)` of the result is therefore
      `s (p, 0) · ((∑ k, max ((∑ l, x (p, l) · W₁ (l, k)) + b₁ (0, k)) 0 · W₂ (k, j)) + b₂ (0, j))`,
  which depends on row `p` of `x` and `s` only.  `edgeArr` is that function of whole arrays at any row count;
  `pay2_apply` reads the body's value at `(p, j)`; `pay2_block` says a block of rows of the inputs gives the same block
  of rows of `edgeArr` of the whole arrays.  Sums are compared term by term; the only fact about numbers used is that the
  all-zero word is the real zero.
-/
import proofs.«121654_j5970004542118_2_alg».proof.Proof.Gen.KernelIdeal.Skeleton
import proofs.«121654_j5970004542118_2_alg».proof.Proof.LibBlockDot
import proofs.«121654_j5970004542118_2_alg».proof.Proof.LibRowBias
import proofs.«121654_j5970004542118_2_alg».proof.Proof.LibColumn

noncomputable section

open scoped BigOperators

namespace Cert.KernelIdeal.RegionValue

open Cert.KernelIdeal Cert.KernelIdeal.Gen Idealize.ShloMosaic Idealize.ShloMosaic.ValueIdx

/-- The two-layer network scaled per row, as a function of whole arrays with `R` rows. -/
def edgeArr {R : ℕ} (X : (⟨2, ![R, 32]⟩ : Shape).Idx → EReal) (S : (⟨2, ![R, 1]⟩ : Shape).Idx → EReal)
    (W1 : (⟨2, ![32, 128]⟩ : Shape).Idx → EReal) (B1 : (⟨2, ![1, 128]⟩ : Shape).Idx → EReal)
    (W2 : (⟨2, ![128, 128]⟩ : Shape).Idx → EReal) (B2 : (⟨2, ![1, 128]⟩ : Shape).Idx → EReal) :
    (⟨2, ![R, 128]⟩ : Shape).Idx → EReal :=
  fun i => S (ix2 (i 0) (0 : Fin 1))
    * ((∑ k : Fin 128, max ((∑ l : Fin 32, X (ix2 (i 0) l) * W1 (ix2 l k)) + B1 (ix2 (0 : Fin 1) k)) 0 * W2 (ix2 k (i 1)))
        + B2 (ix2 (0 : Fin 1) (i 1)))

theorem edgeArr_apply {R : ℕ} (X : (⟨2, ![R, 32]⟩ : Shape).Idx → EReal) (S : (⟨2, ![R, 1]⟩ : Shape).Idx → EReal)
    (W1 : (⟨2, ![32, 128]⟩ : Shape).Idx → EReal) (B1 : (⟨2, ![1, 128]⟩ : Shape).Idx → EReal)
    (W2 : (⟨2, ![128, 128]⟩ : Shape).Idx → EReal) (B2 : (⟨2, ![1, 128]⟩ : Shape).Idx → EReal) (p : Fin R) (j : Fin 128) :
    edgeArr X S W1 B1 W2 B2 (ix2 p j) = S (ix2 p (0 : Fin 1))
      * ((∑ k : Fin 128, max ((∑ l : Fin 32, X (ix2 p l) * W1 (ix2 l k)) + B1 (ix2 (0 : Fin 1) k)) 0 * W2 (ix2 k j))
          + B2 (ix2 (0 : Fin 1) j)) := rfl

example : dot_S8000x32_S32x128_S8000x128_1_0_0_1_n_n = DotDims.plain 8000 32 128 := rfl
example : dot_S8000x128_S128x128_S8000x128_1_0_0_1_n_n = DotDims.plain 8000 128 128 := rfl

/-- The body's stored value at `(p, j)`. -/
theorem pay2_apply (x0 : Vec Ideal S8000x32 .f32) (x2 : Vec Ideal S32x128 .f32) (x5 : Vec Ideal S1x128 .f32)
    (x12 : Vec Ideal S128x128 .f32) (x15 : Vec Ideal S1x128 .f32) (x19 : Vec Ideal S8000x1 .f32) (p : Fin 8000) (j : Fin 128) :
    (k2_pay1 x0 x2 x5 x12 x15 x19 (ix2 p j) : EReal) = edgeArr x0 x19 x2 x5 x12 x15 (ix2 p j) := by
  unfold k2_pay1
  refine (mulf_apply _ _ (ix2 p j)).trans ?_
  rw [edgeArr_apply]
  refine congrArg₂ (· * ·) ?_ ?_
  · refine (Idealize.ShloMosaic.ColumnLayout.broadcastTo_a1_ab_apply _ broadcasts_S8000x1_S8000x128 p j).trans ?_
    rw [shapeCast_self]
  · refine (Cert.RowBias.klayer1_apply (DotDims.plain 8000 128 128) rfl rfl (Cert.PlainDot.lhs_at 8000 128 128)
      (Cert.PlainDot.rhs_at 8000 128 128) none _ _ x15 shapeCasts_S1x128_S1x128 broadcasts_S1x128_S8000x128 p j).trans ?_
    unfold Cert.DenseRow.layer
    refine congrArg₂ (· + ·) (Finset.sum_congr rfl fun k _ => congrArg₂ (· * ·) ?_ rfl) rfl
    refine (truncf_apply (ψ := .bf16) _ bitsLt_bf16_f32 (ix2 p k)).trans ?_
    refine (maximumf_apply _ _ (ix2 p k)).trans ?_
    refine congrArg₂ max ?_ Ideal.ofBits_zero_f32
    exact Cert.RowBias.klayer1_apply (DotDims.plain 8000 32 128) rfl rfl (Cert.PlainDot.lhs_at 8000 32 128)
      (Cert.PlainDot.rhs_at 8000 32 128) none _ _ x5 shapeCasts_S1x128_S1x128 broadcasts_S1x128_S8000x128 p k

/-- A block of rows: when the block's input and scale are rows `off …` of the whole arrays, the body's value at the block's
    index `y` is the network of the whole arrays at the array's index `i`, `y` moved down by `off` rows. -/
theorem pay2_block (x0 : Vec Ideal S8000x32 .f32) (x2 : Vec Ideal S32x128 .f32) (x5 : Vec Ideal S1x128 .f32)
    (x12 : Vec Ideal S128x128 .f32) (x15 : Vec Ideal S1x128 .f32) (x19 : Vec Ideal S8000x1 .f32)
    (X : S800000x32.Idx → EReal) (S : S800000x1.Idx → EReal) (W1 : S32x128.Idx → EReal) (B1 : S1x128.Idx → EReal)
    (W2 : S128x128.Idx → EReal) (B2 : S1x128.Idx → EReal) (off : ℕ) (y : S8000x128.Idx) (i : S800000x128.Idx)
    (hi0 : (i 0).val = off + (y 0).val) (hi1 : (i 1).val = (y 1).val)
    (hX : ∀ (u : S8000x32.Idx) (z : S800000x32.Idx), (z 0).val = off + (u 0).val → (z 1).val = (u 1).val → (x0 u : EReal) = X z)
    (hS : ∀ (u : S8000x1.Idx) (z : S800000x1.Idx), (z 0).val = off + (u 0).val → (z 1).val = (u 1).val → (x19 u : EReal) = S z)
    (hW1 : ∀ u : S32x128.Idx, (x2 u : EReal) = W1 u) (hB1 : ∀ u : S1x128.Idx, (x5 u : EReal) = B1 u)
    (hW2 : ∀ u : S128x128.Idx, (x12 u : EReal) = W2 u) (hB2 : ∀ u : S1x128.Idx, (x15 u : EReal) = B2 u) :
    (k2_pay1 x0 x2 x5 x12 x15 x19 y : EReal) = edgeArr X S W1 B1 W2 B2 i := by
  obtain rfl : x2 = W1 := funext hW1
  obtain rfl : x5 = B1 := funext hB1
  obtain rfl : x12 = W2 := funext hW2
  obtain rfl : x15 = B2 := funext hB2
  obtain ⟨p, c, rfl⟩ : ∃ (p : Fin 8000) (c : Fin 128), y = ix2 p c := ⟨y 0, y 1, eq_ix2 y⟩
  obtain ⟨p', c', rfl⟩ : ∃ (p' : Fin 800000) (c' : Fin 128), i = ix2 p' c' := ⟨i 0, i 1, eq_ix2 i⟩
  obtain rfl : c' = c := Fin.ext hi1
  rw [pay2_apply, edgeArr_apply, edgeArr_apply, hS (ix2 p (0 : Fin 1)) (ix2 p' (0 : Fin 1)) hi0 rfl]
  refine congrArg (_ * ·) (congrArg₂ (· + ·) (Finset.sum_congr rfl fun k _ => congrArg₂ (· * ·) (congrArg (max · 0)
    (congrArg₂ (· + ·) (Finset.sum_congr rfl fun l _ => ?_) rfl)) rfl) rfl)
  rw [hX (ix2 p l) (ix2 p' l) hi0 rfl]

end Cert.KernelIdeal.RegionValue

end
-- ==== Proof.Region2.lean ====
/-
  REGION 2: an edge-wise two-layer network scaled per row, computed block of rows by block of rows.

  The grid has a hundred points; point `t` reads rows `8000 t … 8000 t + 7999` of the `[800000, 32]` input and of the
  `[800000, 1]` column of scales, and the whole weights and one-row biases, and writes the network's value on those rows
  to the same rows of the `[800000, 128]` result.  Each result row depends on the same row of the input and scale only,
  so after the region the result is the network of the whole arrays (`region2_apply`).  The steps: the printed index maps
  over the hundred points (`idx2_w`); each window's block at a point as rows of its array (`blk2_w_apply`); what a point
  writes back is its block of the result (`flushed2_eq`); every row lies in the block of the point `row / 8000`
  (`cover2`); hence the whole array (`final2`).
-/
import proofs.«121654_j5970004542118_2_alg».proof.Proof.Gen.KernelIdeal.Frame
import proofs.«121654_j5970004542118_2_alg».proof.Proof.LibRegionRows
import proofs.«121654_j5970004542118_2_alg».proof.Proof.Region2Pay
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The printed index maps, decided over the hundred points -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = t.val ∧ win2_6.index t (1 : Fin 2) = 0 :=
  (by decide +kernel : ∀ t : Fin grid2.N, _)

/-! ## The windows' blocks as rows of their arrays -/

/-- Window 0's block at point `t` is rows `8000 t …` of the input. -/
theorem blk2_0_apply (c : Dev nD) (t : Fin cfg2.N) (u : S8000x32.Idx) (z : S800000x32.Idx)
    (hz0 : (z 0).val = t.val * 8000 + (u 0).val) (hz1 : (z 1).val = (u 1).val) :
    (iblk2 V c 0 t : Vec Ideal S8000x32 .f32) u = (V c main_arg2 : S800000x32.Idx → EReal) z := by
  obtain ⟨e0, e1⟩ := idx2_0 t
  unfold iblk2
  rw [View.read_apply]
  show V c main_arg2 _ = V c main_arg2 z
  congr 1
  funext a
  apply Fin.ext
  match a with
  | ⟨0, _⟩ => show win2_0.index t (0 : Fin 2) * 8000 + 1 * (u 0).val = (z 0).val; rw [e0, hz0]; omega
  | ⟨1, _⟩ => show win2_0.index t (1 : Fin 2) * 32 + 1 * (u 1).val = (z 1).val; rw [e1, hz1]; omega

/-- Window 1's block at point `t` is rows `8000 t …` of the column of scales. -/
theorem blk2_1_apply (c : Dev nD) (t : Fin cfg2.N) (u : S8000x1.Idx) (z : S800000x1.Idx)
    (hz0 : (z 0).val = t.val * 8000 + (u 0).val) (hz1 : (z 1).val = (u 1).val) :
    (iblk2 V c 1 t : Vec Ideal S8000x1 .f32) u = (V c main_v85 : S800000x1.Idx → EReal) z := by
  obtain ⟨e0, e1⟩ := idx2_1 t
  unfold iblk2
  rw [View.read_apply]
  show V c main_v85 _ = V c main_v85 z
  congr 1
  funext a
  apply Fin.ext
  match a with
  | ⟨0, _⟩ => show win2_1.index t (0 : Fin 2) * 8000 + 1 * (u 0).val = (z 0).val; rw [e0, hz0]; omega
  | ⟨1, _⟩ => show win2_1.index t (1 : Fin 2) * 1 + 1 * (u 1).val = (z 1).val; rw [e1, hz1]; omega

/-- Window 2's block at every point is the whole of the first weight. -/
theorem blk2_2_apply (c : Dev nD) (t : Fin cfg2.N) (u : S32x128.Idx) :
    (iblk2 V c 2 t : Vec Ideal S32x128 .f32) u = (V c main_arg8 : S32x128.Idx → EReal) u := by
  obtain ⟨e0, e1⟩ := idx2_2 t
  unfold iblk2
  rw [View.read_apply]
  show V c main_arg8 _ = V c main_arg8 u
  congr 1
  funext a
  apply Fin.ext
  match a with
  | ⟨0, _⟩ => show win2_2.index t (0 : Fin 2) * 32 + 1 * (u 0).val = (u 0).val; rw [e0]; omega
  | ⟨1, _⟩ => show win2_2.index t (1 : Fin 2) * 128 + 1 * (u 1).val = (u 1).val; rw [e1]; omega

/-- Window 3's block at every point is the whole of the first bias row. -/
theorem blk2_3_apply (c : Dev nD) (t : Fin cfg2.N) (u : S1x128.Idx) :
    (iblk2 V c 3 t : Vec Ideal S1x128 .f32) u = (V c main_v86 : S1x128.Idx → EReal) u := by
  obtain ⟨e0, e1⟩ := idx2_3 t
  unfold iblk2
  rw [View.read_apply]
  show V c main_v86 _ = V c main_v86 u
  congr 1
  funext a
  apply Fin.ext
  match a with
  | ⟨0, _⟩ => show win2_3.index t (0 : Fin 2) * 1 + 1 * (u 0).val = (u 0).val; rw [e0]; omega
  | ⟨1, _⟩ => show win2_3.index t (1 : Fin 2) * 128 + 1 * (u 1).val = (u 1).val; rw [e1]; omega

/-- Window 4's block at every point is the whole of the second weight. -/
theorem blk2_4_apply (c : Dev nD) (t : Fin cfg2.N) (u : S128x128.Idx) :
    (iblk2 V c 4 t : Vec Ideal S128x128 .f32) u = (V c main_arg10 : S128x128.Idx → EReal) u := by
  obtain ⟨e0, e1⟩ := idx2_4 t
  unfold iblk2
  rw [View.read_apply]
  show V c main_arg10 _ = V c main_arg10 u
  congr 1
  funext a
  apply Fin.ext
  match a with
  | ⟨0, _⟩ => show win2_4.index t (0 : Fin 2) * 128 + 1 * (u 0).val = (u 0).val; rw [e0]; omega
  | ⟨1, _⟩ => show win2_4.index t (1 : Fin 2) * 128 + 1 * (u 1).val = (u 1).val; rw [e1]; omega

/-- Window 5's block at every point is the whole of the second bias row. -/
theorem blk2_5_apply (c : Dev nD) (t : Fin cfg2.N) (u : S1x128.Idx) :
    (iblk2 V c 5 t : Vec Ideal S1x128 .f32) u = (V c main_v87 : S1x128.Idx → EReal) u := by
  obtain ⟨e0, e1⟩ := idx2_5 t
  unfold iblk2
  rw [View.read_apply]
  show V c main_v87 _ = V c main_v87 u
  congr 1
  funext a
  apply Fin.ext
  match a with
  | ⟨0, _⟩ => show win2_5.index t (0 : Fin 2) * 1 + 1 * (u 0).val = (u 0).val; rw [e0]; omega
  | ⟨1, _⟩ => show win2_5.index t (1 : Fin 2) * 128 + 1 * (u 1).val = (u 1).val; rw [e1]; omega

/-! ## The result array -/

/-- The result array of region 2 as a function of the arrays the region finds. -/
abbrev G2 (c : Dev nD) : S800000x128.Idx → EReal :=
  edgeArr (V c main_arg2 : S800000x32.Idx → EReal) (V c main_v85 : S800000x1.Idx → EReal)
    (V c main_arg8 : S32x128.Idx → EReal) (V c main_v86 : S1x128.Idx → EReal)
    (V c main_arg10 : S128x128.Idx → EReal) (V c main_v87 : S1x128.Idx → EReal)

/-- What point `t` writes back is block `t` of the result. -/
theorem flushed2_eq (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6]
  unfold out2_6
  rw [View.canon_unit_zero off2_zero]
  simp only [View.ld_unit_zero (S := S8000x32) off2_zero, View.ld_unit_zero (S := S8000x1) off2_zero,
    View.ld_unit_zero (S := S32x128) off2_zero, View.ld_unit_zero (S := S1x128) off2_zero,
    View.ld_unit_zero (S := S128x128) off2_zero]
  obtain ⟨e0, e1⟩ := idx2_6 t
  funext y
  show (k2_pay1 (iblk2 V c 0 t) (iblk2 V c 2 t) (iblk2 V c 3 t) (iblk2 V c 4 t) (iblk2 V c 5 t) (iblk2 V c 1 t) y : EReal)
    = G2 V c (((cfg2.win 6).blk t).view.emb y)
  refine pay2_block (iblk2 V c 0 t) (iblk2 V c 2 t) (iblk2 V c 3 t) (iblk2 V c 4 t) (iblk2 V c 5 t) (iblk2 V c 1 t)
    (V c main_arg2) (V c main_v85) (V c main_arg8) (V c main_v86) (V c main_arg10) (V c main_v87)
    (t.val * 8000) y (((cfg2.win 6).blk t).view.emb y) ?_ ?_ (blk2_0_apply V c t) (blk2_1_apply V c t)
    (blk2_2_apply V c t) (blk2_3_apply V c t) (blk2_4_apply V c t) (blk2_5_apply V c t)
  · show win2_6.index t (0 : Fin 2) * 8000 + 1 * (y 0).val = t.val * 8000 + (y 0).val
    rw [e0]; omega
  · show win2_6.index t (1 : Fin 2) * 128 + 1 * (y 1).val = (y 1).val
    rw [e1]; omega

/-- An index of the result array is in point `t`'s block iff each coordinate is in the block's range on its axis. -/
theorem mem_blk2 (t : Fin cfg2.N) (i : S800000x128.Idx) :
    i ∈ ((cfg2.win 6).blk t).view.set ↔ ∀ a : Fin 2, win2_6.index t a * S8000x128.size a ≤ (i a).val
      ∧ (i a).val < win2_6.index t a * S8000x128.size a + S8000x128.size a := by
  show i ∈ ((View.whole main_v88).slice (win2_6.rect t)).set ↔ _
  rw [View.set_slice_whole, Rect.mem_set_unit]
  exact Iff.rfl

/-- Every index of the result array is in the block of the point `row / 8000`. -/
theorem cover2 (i : S800000x128.Idx) :
    ∃ t : Fin cfg2.N, (cfg2.win 6).flush t = true ∧ i ∈ ((cfg2.win 6).blk t).view.set := by
  have hN : cfg2.N = 100 := N_2
  have hi0 : (i 0).val < 800000 := (i 0).isLt
  have hi1 : (i 1).val < 128 := (i 1).isLt
  refine ⟨⟨(i 0).val / 8000, by rw [hN]; omega⟩, flush2_6 _, ?_⟩
  rw [mem_blk2]
  obtain ⟨e0, e1⟩ := idx2_6 ⟨(i 0).val / 8000, by rw [hN]; omega⟩
  intro a
  match a with
  | ⟨0, _⟩ =>
    show win2_6.index _ (0 : Fin 2) * 8000 ≤ (i 0).val ∧ (i 0).val < win2_6.index _ (0 : Fin 2) * 8000 + 8000
    rw [e0]; show (i 0).val / 8000 * 8000 ≤ (i 0).val ∧ (i 0).val < (i 0).val / 8000 * 8000 + 8000; omega
  | ⟨1, _⟩ =>
    show win2_6.index _ (1 : Fin 2) * 128 ≤ (i 1).val ∧ (i 1).val < win2_6.index _ (1 : Fin 2) * 128 + 128
    rw [e1]; omega

/-- The result array after region 2 is the network of the arrays the region finds. -/
theorem final2 (c : Dev nD) : (dat2 V c).arrAt 6 cfg2.N = G2 V c :=
  (dat2 V c).arrAt_eq_of_cover 6 (G2 V c) (fun t _ => flushed2_eq V c t) cover2

/-- Entry `(e, j)` of the result array after region 2. -/
theorem region2_apply (c : Dev nD) (e : Fin 800000) (j : Fin 128) :
    (dat2 V c).arrAt 6 cfg2.N (ix2 e j)
      = realArr S800000x1 (V c main_v85) (ix2 e (0 : Fin 1))
        * ((∑ k : Fin 128, max ((∑ l : Fin 32, realArr S800000x32 (V c main_arg2) (ix2 e l) * realArr S32x128 (V c main_arg8) (ix2 l k))
              + realArr S1x128 (V c main_v86) (ix2 (0 : Fin 1) k)) 0 * realArr S128x128 (V c main_arg10) (ix2 k j))
            + realArr S1x128 (V c main_v87) (ix2 (0 : Fin 1) j)) := by
  rw [final2]
  rfl

end Cert.KernelIdeal.RegionValue

end
-- ==== Proof.LibTypedRef.lean ====
/-
  CONTENTS AT A TYPED REFERENCE'S VALUE TYPE AND AT ITS BUFFER'S OWN TYPE.

  A host function whose operations are listed inside its caller names its buffers by typed references: a buffer together with
  the equation that the buffer's type is the value type `T` it is used at. Such an operation reads a buffer's contents
  moved along that equation to `T` (`ofBuf`) and writes its result moved back (`toBuf`). Both moves are the identity up
  to the equation. Stated here for every typed reference:
  • moved to the buffer's type and back, contents are what they were (`ofBuf_toBuf`);
  • contents moved either way are equal to whatever they are heterogeneously equal to (`ofBuf_eq`, `toBuf_eq`) — for a
    literal reference the two types are the same by computation, so the side condition is then reflexivity.
  The proofs take the reference apart and substitute the equation, which is possible because `T` is a variable here;
  nothing about any particular buffer table is evaluated.
-/
import Idealize.ShloMosaic.Lib.StableHlo

noncomputable section

namespace Cert.TypedRef

open Idealize.ShloMosaic Idealize.ShloMosaic.StableHlo

variable {sig : RefSig} {Val : EltTy → Type} {T : BufTy}

/-- Contents moved to the buffer's own type and back are what they were. -/
theorem ofBuf_toBuf (x : TRef sig T) (v : T.Contents Val) : x.ofBuf (x.toBuf v) = v := by
  obtain ⟨r, te, od, us⟩ := x
  subst te
  rfl

/-- The buffer's contents read at the value type are any value of that type they are heterogeneously equal to. -/
theorem ofBuf_eq (x : TRef sig T) (w' : x.ref.ty.Contents Val) (w : T.Contents Val) (h : HEq w' w) : x.ofBuf w' = w :=
  eq_of_heq ((cast_heq _ w').trans h)

/-- A value written at the buffer's own type is any contents of the buffer it is heterogeneously equal to. -/
theorem toBuf_eq (x : TRef sig T) (v : T.Contents Val) (w' : x.ref.ty.Contents Val) (h : HEq v w') : x.toBuf v = w' :=
  eq_of_heq ((cast_heq _ v).trans h)

end Cert.TypedRef

end
-- ==== Proof.JoinEdge.lean ====
/-
  THE WEIGHTED EDGE STAGE: an edge-wise two-layer network scaled by a per-edge weight.

  The kernel program computes it in a launched region, a hundred blocks of 8000 rows each, from the input's and the
  scale column's rows, the whole weights, and the two biases laid out beforehand as one-row arrays (the bias vectors cast
  to `[1, 128]`).  The reference computes it on the host: two matrix products, each followed by its bias vector broadcast
  first to one row and then over the rows, the rectifier between them, and at the end the product with the scale column
  broadcast across the columns.  Entry `(e, j)` of either is
      `s (e, 0) · ((∑ k, max ((∑ l, x (e, l) · W₁ (l, k)) + b₁ k) 0 · W₂ (k, j)) + b₂ j)`
  with the sums in the same order: the region's value was proved with the region; the host side is read here at an index
  (`hedge_apply`), and the one-row biases are read back to the vectors (`v86_apply`, `v87_apply`).  Nothing needs to be
  finite; the only fact about numbers used is that the all-zero word is the real zero.
-/
import proofs.«121654_j5970004542118_2_alg».proof.Proof.JoinBase
import proofs.«121654_j5970004542118_2_alg».proof.Proof.Region2
import proofs.«121654_j5970004542118_2_alg».proof.Proof.LibDenseStep
import proofs.«121654_j5970004542118_2_alg».proof.Proof.LibTypedRef

set_option maxRecDepth 16384

noncomputable section

open scoped BigOperators

namespace Cert.Join

open Idealize.ShloMosaic Idealize.ShloMosaic.TcCoe Idealize.SL.Sem Idealize.ShloMosaic.StableHlo Idealize.ShloMosaic.ValueIdx
open Cert.ReferenceIdeal.RefRun
open Cert.KernelIdeal.Gen

variable [KernelIdeal.Facts] [ReferenceIdeal.Facts]
variable (m : (ℓ : Loc KernelIdeal.nD KernelIdeal.τ KernelIdeal.sig) → Buf (Elt Ideal) ℓ) (ρ : Dev KernelIdeal.nD → PrngReg) (c : Dev KernelIdeal.nD)
variable (U0 U : RVal Ideal)

/-- The host's spelling of the network, read at `(e, j)`, for any number of rows. -/
theorem hedge_apply {R : ℕ} (X : FVec Ideal ⟨2, ![R, 32]⟩ .f32) (S : FVec Ideal ⟨2, ![R, 1]⟩ .f32)
    (W1 : FVec Ideal ⟨2, ![32, 128]⟩ .f32) (b1 : FVec Ideal ⟨1, ![128]⟩ .f32)
    (W2 : FVec Ideal ⟨2, ![128, 128]⟩ .f32) (b2 : FVec Ideal ⟨1, ![128]⟩ .f32)
    (hS : (⟨2, ![R, 1]⟩ : Shape).BroadcastsInDim ⟨2, ![R, 128]⟩ ![0, 1])
    (h1 : (⟨1, ![128]⟩ : Shape).BroadcastsInDim ⟨2, ![1, 128]⟩ ![1])
    (h2 : (⟨2, ![1, 128]⟩ : Shape).BroadcastsInDim ⟨2, ![R, 128]⟩ ![0, 1])
    (h0 : (⟨0, ![]⟩ : Shape).BroadcastsInDim ⟨2, ![R, 128]⟩ ![]) (e : Fin R) (j : Fin 128) :
    mulf (broadcastInDim ⟨2, ![R, 128]⟩ ![0, 1] hS S)
        (addf (Host.dotGeneral (DotDims.plain R 128 128) none
            (maximumf (addf (Host.dotGeneral (DotDims.plain R 32 128) none X W1)
                (broadcastInDim ⟨2, ![R, 128]⟩ ![0, 1] h2 (broadcastInDim ⟨2, ![1, 128]⟩ ![1] h1 b1)))
              (broadcastInDim ⟨2, ![R, 128]⟩ ![] h0 (constant (F := Ideal) ⟨0, ![]⟩ .f32 0x00000000#32))) W2)
          (broadcastInDim ⟨2, ![R, 128]⟩ ![0, 1] h2 (broadcastInDim ⟨2, ![1, 128]⟩ ![1] h1 b2))) (ix2 e j)
      = S (ix2 e (0 : Fin 1))
        * ((∑ k : Fin 128, max ((∑ l : Fin 32, X (ix2 e l) * W1 (ix2 l k)) + b1 (ix1 k)) 0 * W2 (ix2 k j)) + b2 (ix1 j)) := by
  refine (mulf_apply _ _ (ix2 e j)).trans ?_
  refine congrArg₂ (· * ·) (DenseStep.hbcast_col S hS e j) ?_
  refine (DenseStep.hlayer_row (DotDims.plain R 128 128) rfl rfl (PlainDot.lhs_at R 128 128) (PlainDot.rhs_at R 128 128) _ W2 e
    (fun k => max ((∑ l : Fin 32, X (ix2 e l) * W1 (ix2 l k)) + b1 (ix1 k)) 0) (fun k => ?_) b2 h1 h2 j).trans rfl
  refine (DenseStep.hlayer_relu_row (DotDims.plain R 32 128) rfl rfl (PlainDot.lhs_at R 32 128) (PlainDot.rhs_at R 32 128)
    X W1 e (fun l => X (ix2 e l)) (fun _ => rfl) b1 h1 h2 h0 k).trans ?_
  show max _ RowBias.zf = max _ 0
  rw [show RowBias.zf = (0 : EReal) from Ideal.ofBits_zero_f32]
  rfl

/-- The first bias row, laid out before the region, is the first bias vector cast to one row. -/
theorem v86_eq (V : KVal Ideal) : after KernelIdeal.Gen.hostOps2 V (kb KernelIdeal.main_v86)
    = fun i => shapeCast KernelIdeal.S1x128 (V (kb KernelIdeal.main_arg9)) KernelIdeal.Gen.shapeCasts_S128_S1x128 i := by
  open_fold
  rfl

/-- The second bias row is the second bias vector cast to one row. -/
theorem v87_eq (V : KVal Ideal) : after KernelIdeal.Gen.hostOps2 V (kb KernelIdeal.main_v87)
    = fun i => shapeCast KernelIdeal.S1x128 (V (kb KernelIdeal.main_arg11)) KernelIdeal.Gen.shapeCasts_S128_S1x128 i := by
  open_fold
  rfl

/-- Entry `(0, k)` of the first bias row is entry `k` of the first bias vector. -/
theorem v86_apply (V : KVal Ideal) (k : Fin 128) :
    after KernelIdeal.Gen.hostOps2 V (kb KernelIdeal.main_v86) (ix2 (0 : Fin 1) k) = V (kb KernelIdeal.main_arg9) (ix1 k) :=
  (congrFun (v86_eq V) (ix2 (0 : Fin 1) k)).trans (shapeCast_a_1a_apply _ _ 0 k)

/-- Entry `(0, k)` of the second bias row is entry `k` of the second bias vector. -/
theorem v87_apply (V : KVal Ideal) (k : Fin 128) :
    after KernelIdeal.Gen.hostOps2 V (kb KernelIdeal.main_v87) (ix2 (0 : Fin 1) k) = V (kb KernelIdeal.main_arg11) (ix1 k) :=
  (congrFun (v87_eq V) (ix2 (0 : Fin 1) k)).trans (shapeCast_a_1a_apply _ _ 0 k)

/-- The region's output array is the host's weighted edge network of the same operands. -/
theorem weighted_corr
    (hea : U (rb ReferenceIdeal.main_v8) = after opsA U0 (rb ReferenceIdeal.main_v8))
    (h85 : W7 m ρ c (kb KernelIdeal.main_v85) = U (rb ReferenceIdeal.main_v91))
    (h2 : W7 m ρ c (kb KernelIdeal.main_arg2) = U0 (rb ReferenceIdeal.main_arg2)) (h8 : W7 m ρ c (kb KernelIdeal.main_arg8) = U0 (rb ReferenceIdeal.main_arg8))
    (h10 : W7 m ρ c (kb KernelIdeal.main_arg10) = U0 (rb ReferenceIdeal.main_arg10))
    (h9 : W6 m ρ c (kb KernelIdeal.main_arg9) = U0 (rb ReferenceIdeal.main_arg9)) (h11 : W6 m ρ c (kb KernelIdeal.main_arg11) = U0 (rb ReferenceIdeal.main_arg11)) :
    W8 m ρ c (kb KernelIdeal.main_v88) = after opsJ U (rb ReferenceIdeal.main_v93) := by
  refine (W8_arr m ρ c 6).trans ?_
  rw [KernelIdeal.RegionValue.final2]
  open_fold
  rw [hea]
  open_fold
  rw [← h85, ← h2, ← h8, ← h10, ← h9, ← h11]
  simp only [Cert.TypedRef.ofBuf_toBuf]
  rw [Cert.TypedRef.toBuf_eq _ _ _ HEq.rfl, Cert.TypedRef.ofBuf_eq _ _ _ HEq.rfl]
  funext i
  obtain ⟨e, j, rfl⟩ : ∃ (e : Fin 800000) (j : Fin 128), i = ix2 e j := ⟨i 0, i 1, eq_ix2 i⟩
  refine Eq.trans ?_ (hedge_apply _ _ _ _ _ _ _ _ _ _ e j).symm
  refine (KernelIdeal.RegionValue.edgeArr_apply _ _ _ _ _ _ e j).trans ?_
  have hb1 : ∀ k : Fin 128, V7 m ρ c KernelIdeal.main_v86 (ix2 (0 : Fin 1) k) = W6 m ρ c (kb KernelIdeal.main_arg9) (ix1 k) :=
    fun k => v86_apply (W6 m ρ c) k
  have hb2 : ∀ k : Fin 128, V7 m ρ c KernelIdeal.main_v87 (ix2 (0 : Fin 1) k) = W6 m ρ c (kb KernelIdeal.main_arg11) (ix1 k) :=
    fun k => v87_apply (W6 m ρ c) k
  simp only [hb1, hb2]

end Cert.Join

end
-- ==== Proof.LibEluSpec.lean ====
/-
  The exponential linear unit on one extended real, as the kernels' element operations spell it:
  the value itself where it is positive, and otherwise the exponential of its minimum with zero,
  less one.
-/
import Idealize.ShloMosaic.PureOps.Ideal
import Idealize.ShloMosaic.Lib.IdealHost

noncomputable section

namespace Cert.EluSpec

open Idealize.ShloMosaic

/-- ELU at one extended real `v`: `v` where `0 < v`, else `exp (min v 0) - 1`. -/
def elu1 (v : EReal) : EReal := if 0 < v then v else Ideal.exp (min v 0) - 1

/-- On the positive side ELU is the identity. -/
theorem elu1_of_pos {v : EReal} (h : 0 < v) : elu1 v = v := if_pos h

/-- Off the positive side the minimum with zero is the value itself, so ELU is `exp v - 1`. -/
theorem elu1_of_not_pos {v : EReal} (h : ¬ 0 < v) : elu1 v = Ideal.exp v - 1 := by
  rw [elu1, if_neg h, min_eq_left (not_lt.mp h)]

/-- A one-bit word built from a Boolean is the word `1` exactly when the Boolean is true. -/
theorem ofBool_eq_one_iff (b : Bool) : BitVec.ofBool b = 1#1 ↔ b = true := by
  cases b <;> decide

/-- The element operations of the kernels' ELU — compare with the zero word, take the minimum with
    the zero word, exponentiate, subtract the word of one, select — read at the exact instance
    are `elu1`. -/
theorem elu1_ops (v : Ideal .f32) :
    Scalar.select (FloatOps.cmpf .ogt v (Scalar.ofBits (F := Ideal) .f32 0x00000000#32)) v
      (FloatOps.subf (FloatOps.exp (FloatOps.minimumf v (Scalar.ofBits (F := Ideal) .f32 0x00000000#32)))
        (Scalar.ofBits (F := Ideal) .f32 0x3F800000#32)) = elu1 v := by
  show (if BitVec.ofBool (decide (Ideal.ofBits .f32 0x00000000#32 < v)) = 1#1 then v
      else Ideal.exp (min v (Ideal.ofBits .f32 0x00000000#32)) - Ideal.ofBits .f32 0x3F800000#32) = elu1 v
  rw [Ideal.ofBits_zero_f32, Ideal.ofBits_one_f32, elu1]
  by_cases h : (0 : EReal) < v
  · rw [if_pos h, if_pos ((ofBool_eq_one_iff _).mpr (decide_eq_true h))]
  · rw [if_neg h, if_neg (fun hb => h (of_decide_eq_true ((ofBool_eq_one_iff _).mp hb)))]

end Cert.EluSpec

end
-- ==== Proof.EluPayload.lean ====
/-
  The bias-and-ELU bodies of regions 1 and 4 read at one element. Each adds a one-row bias `[1, 128]`, broadcast
  over the 5000 rows of a block, to the block and applies the exponential linear unit element by
  element: the entry at row `p`, column `j` depends on the block's entry at `(p, j)` and on the
  bias's entry at `(0, j)` only.
-/
import proofs.«121654_j5970004542118_2_alg».proof.Proof.Gen.KernelIdeal.Skeleton
import proofs.«121654_j5970004542118_2_alg».proof.Proof.LibEluSpec
import Idealize.ShloMosaic.Lib.Pipeline.Value
import Idealize.ShloMosaic.Lib.ValueLayout

noncomputable section

namespace Cert.KernelIdeal.RegionValue

open Cert.KernelIdeal Cert.KernelIdeal.Gen Idealize.ShloMosaic
open Idealize.ShloMosaic.ValueIdx Cert.EluSpec

/-- The zero offsets of a whole-buffer rectangle, as a constant function. -/
theorem off00 : (![0, 0] : Fin 2 → Nat) = fun _ => 0 := funext fun a => by fin_cases a <;> rfl

/-- A block plus a one-row bias broadcast over its rows, at `(p, j)`: the block's entry plus the
    bias's entry in column `j`. -/
theorem bias_rows_apply (x0 : Vec Ideal S5000x128 .f32) (x1 : Vec Ideal S1x128 .f32)
    (h0 : S5000x128.ShapeCasts S5000x128) (h1 : S1x128.ShapeCasts S1x128) (hb : S1x128.Broadcasts S5000x128)
    (p : Fin 5000) (j : Fin 128) :
    addf (F := Ideal) (φ := .f32) (shapeCast S5000x128 x0 h0) (broadcastTo S5000x128 (shapeCast S1x128 x1 h1) hb) (ix2 p j)
      = (x0 (ix2 p j) : EReal) + (x1 (ix2 (0 : Fin 1) j) : EReal) := by
  show (shapeCast S5000x128 x0 h0 (ix2 p j) : EReal) + (broadcastTo S5000x128 (shapeCast S1x128 x1 h1) hb (ix2 p j) : EReal) = _
  rw [shapeCast_self, shapeCast_self, broadcastTo_1b_ab_apply]

/-- Region 4's stored value at `(p, j)`: ELU of the block's entry plus the bias's. -/
theorem k4_pay1_apply (x0 : Vec Ideal S5000x128 .f32) (x1 : Vec Ideal S1x128 .f32) (p : Fin 5000) (j : Fin 128) :
    k4_pay1 x0 x1 (ix2 p j) = elu1 ((x0 (ix2 p j) : EReal) + (x1 (ix2 (0 : Fin 1) j) : EReal)) := by
  unfold k4_pay1
  refine (elu1_ops _).trans ?_
  exact congrArg elu1 (bias_rows_apply x0 x1 _ _ _ p j)

/-- The same at an index not split into coordinates. -/
theorem k4_pay1_at (x0 : Vec Ideal S5000x128 .f32) (x1 : Vec Ideal S1x128 .f32) (i : S5000x128.Idx) :
    k4_pay1 x0 x1 i = elu1 ((x0 i : EReal) + (x1 (ix2 (0 : Fin 1) (i 1)) : EReal)) := by
  obtain ⟨p, j, rfl⟩ : ∃ (p : Fin 5000) (j : Fin 128), i = ix2 p j := ⟨i 0, i 1, eq_ix2 i⟩
  exact k4_pay1_apply x0 x1 p j

/-- Region 1's first stored value at `(p, j)`: ELU of the block's entry plus the bias's. -/
theorem k1_pay1_apply (x0 : Vec Ideal S5000x128 .f32) (x1 : Vec Ideal S1x128 .f32) (p : Fin 5000) (j : Fin 128) :
    k1_pay1 x0 x1 (ix2 p j) = elu1 ((x0 (ix2 p j) : EReal) + (x1 (ix2 (0 : Fin 1) j) : EReal)) := by
  unfold k1_pay1
  refine (elu1_ops _).trans ?_
  exact congrArg elu1 (bias_rows_apply x0 x1 _ _ _ p j)

/-- The same at an index not split into coordinates. -/
theorem k1_pay1_at (x0 : Vec Ideal S5000x128 .f32) (x1 : Vec Ideal S1x128 .f32) (i : S5000x128.Idx) :
    k1_pay1 x0 x1 i = elu1 ((x0 i : EReal) + (x1 (ix2 (0 : Fin 1) (i 1)) : EReal)) := by
  obtain ⟨p, j, rfl⟩ : ∃ (p : Fin 5000) (j : Fin 128), i = ix2 p j := ⟨i 0, i 1, eq_ix2 i⟩
  exact k1_pay1_apply x0 x1 p j

/-- ELU of a `[50000, 128]` array plus a one-row bias, entry by entry: what each of regions 1 and 4
    leaves in its `[50000, 128]` output. -/
def biasElu (a : S50000x128.Idx → Elt Ideal .f32) (b : S1x128.Idx → Elt Ideal .f32) : S50000x128.Idx → Elt Ideal .f32 :=
  fun i => elu1 ((a i : EReal) + (b (ix2 (0 : Fin 1) (i 1)) : EReal))

end Cert.KernelIdeal.RegionValue

end
-- ==== Proof.AttnPayload.lean ====
/-
  REGION 1's second stored value read at one element. The body multiplies the ELU block
  `[5000, 128]` (its first stored value) by the whole `[128, 2]` weights into a zero accumulator: the entry at
  row `p`, column `q` is the sum over `k` of the ELU block's entry at `(p, k)` times the weights' entry at
  `(k, q)`, so it depends on row `p` of the operand block only.
-/
import proofs.«121654_j5970004542118_2_alg».proof.Proof.EluPayload
import proofs.«121654_j5970004542118_2_alg».proof.Proof.LibBlockDot

noncomputable section

open scoped BigOperators

namespace Cert.KernelIdeal.RegionValue

open Cert.KernelIdeal Cert.KernelIdeal.Gen Idealize.ShloMosaic
open Idealize.ShloMosaic.ValueIdx Cert.EluSpec

/-- The program's dimension record of the `[5000,128] × [128,2]` product is the plain one: contract the left
    operand's columns with the right operand's rows. -/
theorem dot_attn_plain : dot_S5000x128_S128x2_S5000x2_1_0_0_1_n_n = DotDims.plain 5000 128 2 := rfl

/-- The second stored value at `(p, q)`: the row `p` of the ELU block against column `q` of the weights. -/
theorem k1_pay2_apply (x0 : Vec Ideal S5000x128 .f32) (x1 : Vec Ideal S1x128 .f32) (x2 : Vec Ideal S128x2 .f32)
    (p : Fin 5000) (q : Fin 2) :
    k1_pay2 x0 x1 x2 (ix2 p q)
      = ∑ k : Fin 128, elu1 ((x0 (ix2 p k) : EReal) + (x1 (ix2 (0 : Fin 1) k) : EReal)) * (x2 (ix2 k q) : EReal) := by
  unfold k1_pay2
  refine (Cert.BlockDot.kdot_apply (R := 5000) (K := 128) (N := 2) none
    (truncf .bf16 (k1_pay1 x0 x1) bitsLt_bf16_f32)
    (truncf .bf16 (shapeCast S128x2 x2 shapeCasts_S128x2_S128x2) bitsLt_bf16_f32) p q).trans ?_
  refine Finset.sum_congr rfl fun k _ => ?_
  show (k1_pay1 x0 x1 (ix2 p k) : EReal) * (shapeCast S128x2 x2 shapeCasts_S128x2_S128x2 (ix2 k q) : EReal) = _
  rw [shapeCast_self, k1_pay1_apply]

/-- The same at an index not split into coordinates. -/
theorem k1_pay2_at (x0 : Vec Ideal S5000x128 .f32) (x1 : Vec Ideal S1x128 .f32) (x2 : Vec Ideal S128x2 .f32)
    (i : S5000x2.Idx) :
    k1_pay2 x0 x1 x2 i
      = ∑ k : Fin 128, elu1 ((x0 (ix2 (i 0) k) : EReal) + (x1 (ix2 (0 : Fin 1) k) : EReal)) * (x2 (ix2 k (i 1)) : EReal) := by
  obtain ⟨p, q, rfl⟩ : ∃ (p : Fin 5000) (q : Fin 2), i = ix2 p q := ⟨i 0, i 1, eq_ix2 i⟩
  exact k1_pay2_apply x0 x1 x2 p q

end Cert.KernelIdeal.RegionValue

end
-- ==== Proof.Region1.lean ====
/-
  REGION 1 as functions of the arrays it finds. Its grid has ten points; point `t` handles rows
  `[5000 t, 5000 (t + 1))` of the `[50000, 128]` operand, and the `[1, 128]` bias and the `[128, 2]` weights are
  whole at every point. The body adds the bias to each row and applies the exponential linear unit — its first
  output — and multiplies that block by the weights — its second output. A row of either output depends on the
  same row of the operand only, so the first output array ends holding, at `(p, j)`, ELU of the operand's entry
  at `(p, j)` plus the bias's entry at `(0, j)`, and the second, at `(p, q)`, the sum over `k` of that value at
  `(p, k)` times the weights' entry at `(k, q)`: the ten row blocks tile each array, and row `r` lies in the
  block of point `r / 5000`.
-/
import proofs.«121654_j5970004542118_2_alg».proof.Proof.Gen.KernelIdeal.Frame
import proofs.«121654_j5970004542118_2_alg».proof.Proof.AttnPayload

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Cert.EluSpec

variable (V : (c : Dev nD) → (b : Ref sig .tc) → Buf (Elt Ideal) ((c : Thread nD τ).loc b))

/-- What the second output array ends holding: each row of ELU of the operand plus the bias, against the
    weights' columns. -/
def eluAttn (a : S50000x128.Idx → Elt Ideal .f32) (b : S1x128.Idx → Elt Ideal .f32) (w : S128x2.Idx → Elt Ideal .f32) :
    S50000x2.Idx → Elt Ideal .f32 :=
  fun i => ∑ k : Fin 128, elu1 ((a (ix2 (i 0) k) : EReal) + (b (ix2 (0 : Fin 1) k) : EReal)) * (w (ix2 k (i 1)) : EReal)

/-- The block indices over the grid: point `t` takes row block `t` of the operand and of both outputs, column
    block 0; the bias's and the weights' block is always `(0, 0)`. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-! ## The first output: ELU of the operand plus the bias -/

/-- What point `t` writes back to the first output is block `t` of `biasElu` of the arrays the region finds. -/
theorem flushed1_feat_eq (c : Dev nD) (t : Fin cfg1.N) :
    (dat1 V c).flushed 3 t = ((cfg1.win 3).blk t).view.read (Elt Ideal) (biasElu (V c main_v46) (V c main_v50)) := by
  show (cfg1.win 3).cut (grid1.coords t) ((dat1 V c).after 3 t) = _
  rw [after1_3]
  unfold out1_3
  rw [View.canon_unit_zero off00]
  simp only [View.ld_unit_zero (S := S5000x128) off00, View.ld_unit_zero (S := S1x128) off00]
  obtain ⟨e0, e1, e2, e3, e4, e5, e6, e7, e8, e9⟩ := blockIdx1 t
  funext y
  refine (k1_pay1_at (iblk1 V c 0 t) (iblk1 V c 1 t) y).trans ?_
  refine congrArg elu1 ?_
  have hy0 : (y 0).val < 5000 := (y 0).isLt
  have hy1 : (y 1).val < 128 := (y 1).isLt
  have h0 : iblk1 V c 0 t y = V c main_v46 (((cfg1.win 3).blk t).view.emb y) := by
    show V c main_v46 (((cfg1.win 0).blk t).view.emb y) = V c main_v46 (((cfg1.win 3).blk t).view.emb y)
    refine congrArg _ (funext fun a => Fin.ext ?_)
    match a with
    | ⟨0, _⟩ => show win1_0.index t (0 : Fin 2) * 5000 + 1 * (y 0).val = win1_3.index t (0 : Fin 2) * 5000 + 1 * (y 0).val; omega
    | ⟨1, _⟩ => show win1_0.index t (1 : Fin 2) * 128 + 1 * (y 1).val = win1_3.index t (1 : Fin 2) * 128 + 1 * (y 1).val; omega
  have h1 : iblk1 V c 1 t (ix2 (0 : Fin 1) (y 1)) = V c main_v50 (ix2 (0 : Fin 1) ((((cfg1.win 3).blk t).view.emb y) 1)) := by
    show V c main_v50 (((cfg1.win 1).blk t).view.emb (ix2 (0 : Fin 1) (y 1))) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * (y 1).val = win1_3.index t (1 : Fin 2) * 128 + 1 * (y 1).val; omega
  rw [h0, h1]

/-- An index of the first output array is in point `t`'s block iff each coordinate is in the block's range. -/
theorem mem_blk1_feat (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v51_0).slice (win1_3.rect t)).set ↔ _
  rw [View.set_slice_whole, Rect.mem_set_unit]
  exact Iff.rfl

/-- Every index of the first output array is in some point's block: row `r` in that of point `r / 5000`. -/
theorem cover1_feat (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e0, e1, e2, e3, e4, e5, e6, e7, e8, e9⟩ := blockIdx1 t
  refine ⟨t, flush1_3 t, ?_⟩
  rw [mem_blk1_feat]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The first output array after the region is `biasElu` of the arrays the region finds. -/
theorem region1_feat_final (c : Dev nD) :
    (dat1 V c).arrAt 3 cfg1.N = biasElu (V c main_v46) (V c main_v50) :=
  (dat1 V c).arrAt_eq_of_cover 3 (biasElu (V c main_v46) (V c main_v50)) (fun t _ => flushed1_feat_eq V c t) cover1_feat

/-- The first output array after the region, entry by entry. -/
theorem region1_feat_apply (c : Dev nD) (p : Fin 50000) (j : Fin 128) :
    (dat1 V c).arrAt 3 cfg1.N (ix2 p j)
      = elu1 (HAdd.hAdd (α := EReal) (β := EReal) (γ := EReal) (V c main_v46 (ix2 p j)) (V c main_v50 (ix2 (0 : Fin 1) j))) := by
  rw [region1_feat_final]
  rfl

/-! ## The second output: the ELU rows against the weights -/

/-- What point `t` writes back to the second output is block `t` of `eluAttn` of the arrays the region finds. -/
theorem flushed1_hw_eq (c : Dev nD) (t : Fin cfg1.N) :
    (dat1 V c).flushed 4 t
      = ((cfg1.win 4).blk t).view.read (Elt Ideal) (eluAttn (V c main_v46) (V c main_v50) (V c main_v49)) := by
  show (cfg1.win 4).cut (grid1.coords t) ((dat1 V c).after 4 t) = _
  rw [after1_4]
  unfold out1_4
  rw [View.canon_unit_zero off00]
  simp only [View.ld_unit_zero (S := S5000x128) off00, View.ld_unit_zero (S := S1x128) off00,
    View.ld_unit_zero (S := S128x2) off00]
  obtain ⟨e0, e1, e2, e3, e4, e5, e6, e7, e8, e9⟩ := blockIdx1 t
  funext y
  rw [View.read_apply]
  unfold eluAttn
  refine (k1_pay2_at (iblk1 V c 0 t) (iblk1 V c 1 t) (iblk1 V c 2 t) y).trans ?_
  have hy0 : (y 0).val < 5000 := (y 0).isLt
  have hy1 : (y 1).val < 2 := (y 1).isLt
  refine Finset.sum_congr (M := EReal) (s₁ := (Finset.univ : Finset (Fin 128))) (s₂ := Finset.univ) rfl fun k _ => ?_
  have hk : k.val < 128 := k.isLt
  have h0 : iblk1 V c 0 t (ix2 (y 0) k) = V c main_v46 (ix2 ((((cfg1.win 4).blk t).view.emb y) 0) k) := by
    show V c main_v46 (((cfg1.win 0).blk t).view.emb (ix2 (y 0) k)) = _
    refine congrArg _ (funext fun a => Fin.ext ?_)
    match a with
    | ⟨0, _⟩ => show win1_0.index t (0 : Fin 2) * 5000 + 1 * (y 0).val = win1_4.index t (0 : Fin 2) * 5000 + 1 * (y 0).val; omega
    | ⟨1, _⟩ => show win1_0.index t (1 : Fin 2) * 128 + 1 * k.val = k.val; omega
  have h1 : iblk1 V c 1 t (ix2 (0 : Fin 1) k) = V c main_v50 (ix2 (0 : Fin 1) k) := by
    show V c main_v50 (((cfg1.win 1).blk t).view.emb (ix2 (0 : Fin 1) k)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  have h2 : iblk1 V c 2 t (ix2 k (y 1)) = V c main_v49 (ix2 k ((((cfg1.win 4).blk t).view.emb y) 1)) := by
    show V c main_v49 (((cfg1.win 2).blk t).view.emb (ix2 k (y 1))) = _
    refine congrArg _ (funext fun a => Fin.ext ?_)
    match a with
    | ⟨0, _⟩ => show win1_2.index t (0 : Fin 2) * 128 + 1 * k.val = k.val; omega
    | ⟨1, _⟩ => show win1_2.index t (1 : Fin 2) * 2 + 1 * (y 1).val = win1_4.index t (1 : Fin 2) * 2 + 1 * (y 1).val; omega
  rw [h0, h1, h2]

/-- An index of the second output array is in point `t`'s block iff each coordinate is in the block's range. -/
theorem mem_blk1_hw (t : Fin cfg1.N) (i : S50000x2.Idx) :
    i ∈ ((cfg1.win 4).blk t).view.set ↔ ∀ a : Fin 2, win1_4.index t a * S5000x2.size a ≤ (i a).val ∧ (i a).val < win1_4.index t a * S5000x2.size a + S5000x2.size a := by
  show i ∈ ((View.whole main_v51_1).slice (win1_4.rect t)).set ↔ _
  rw [View.set_slice_whole, Rect.mem_set_unit]
  exact Iff.rfl

/-- Every index of the second output array is in some point's block: row `r` in that of point `r / 5000`. -/
theorem cover1_hw (i : S50000x2.Idx) :
    ∃ t : Fin cfg1.N, (cfg1.win 4).flush t = true ∧ i ∈ ((cfg1.win 4).blk t).view.set := by
  have hi0 : (i 0).val < 50000 := (i 0).isLt
  have hi1 : (i 1).val < 2 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e0, e1, e2, e3, e4, e5, e6, e7, e8, e9⟩ := blockIdx1 t
  refine ⟨t, flush1_4 t, ?_⟩
  rw [mem_blk1_hw]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 2 ≤ (i 1).val ∧ (i 1).val < win1_4.index t (1 : Fin 2) * 2 + 2; omega

/-- The second output array after the region is `eluAttn` of the arrays the region finds. -/
theorem region1_hw_final (c : Dev nD) :
    (dat1 V c).arrAt 4 cfg1.N = eluAttn (V c main_v46) (V c main_v50) (V c main_v49) :=
  (dat1 V c).arrAt_eq_of_cover 4 (eluAttn (V c main_v46) (V c main_v50) (V c main_v49))
    (fun t _ => flushed1_hw_eq V c t) cover1_hw

/-- The second output array after the region, entry by entry. -/
theorem region1_hw_apply (c : Dev nD) (p : Fin 50000) (q : Fin 2) :
    (dat1 V c).arrAt 4 cfg1.N (ix2 p q)
      = ∑ k : Fin 128, elu1 (HAdd.hAdd (α := EReal) (β := EReal) (γ := EReal) (V c main_v46 (ix2 p k)) (V c main_v50 (ix2 (0 : Fin 1) k)))
          * (V c main_v49 (ix2 k q) : EReal) := by
  rw [region1_hw_final]
  rfl

end Cert.KernelIdeal.RegionValue

end
-- ==== Proof.Region4.lean ====
/-
  REGION 4 as one function of the arrays it finds. Its grid has ten points; point `t` handles
  rows `[5000 t, 5000 (t + 1))` of the `[50000, 128]` operand, and the `[1, 128]` bias is whole at every
  point. The body adds the bias to each row and applies the exponential linear unit, so the output
  array ends holding, at `(p, j)`, ELU of the operand's entry at `(p, j)` plus the bias's entry at
  `(0, j)`: the ten row blocks tile the array, and row `r` lies in the block of point `r / 5000`.
-/
import proofs.«121654_j5970004542118_2_alg».proof.Proof.Gen.KernelIdeal.Frame
import proofs.«121654_j5970004542118_2_alg».proof.Proof.EluPayload

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Cert.EluSpec

variable (V : (c : Dev nD) → (b : Ref sig .tc) → Buf (Elt Ideal) ((c : Thread nD τ).loc b))

/-- The block indices over the grid: point `t` takes row block `t` of the operand and of the output, column
    block 0; the bias's block is always `(0, 0)`. -/
theorem blockIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of `biasElu` of the arrays the region finds. -/
theorem flushed4_eq (c : Dev nD) (t : Fin cfg4.N) :
    (dat4 V c).flushed 2 t = ((cfg4.win 2).blk t).view.read (Elt Ideal) (biasElu (V c main_v106) (V c main_v107)) := by
  show (cfg4.win 2).cut (grid4.coords t) ((dat4 V c).after 2 t) = _
  rw [after4_2]
  unfold out4_2
  rw [View.canon_unit_zero off00]
  simp only [View.ld_unit_zero (S := S5000x128) off00, View.ld_unit_zero (S := S1x128) off00]
  obtain ⟨e0, e1, e2, e3, e4, e5⟩ := blockIdx4 t
  funext y
  refine (k4_pay1_at (iblk4 V c 0 t) (iblk4 V c 1 t) y).trans ?_
  refine congrArg elu1 ?_
  have hy0 : (y 0).val < 5000 := (y 0).isLt
  have hy1 : (y 1).val < 128 := (y 1).isLt
  have h0 : iblk4 V c 0 t y = V c main_v106 (((cfg4.win 2).blk t).view.emb y) := by
    show V c main_v106 (((cfg4.win 0).blk t).view.emb y) = V c main_v106 (((cfg4.win 2).blk t).view.emb y)
    refine congrArg _ (funext fun a => Fin.ext ?_)
    match a with
    | ⟨0, _⟩ => show win4_0.index t (0 : Fin 2) * 5000 + 1 * (y 0).val = win4_2.index t (0 : Fin 2) * 5000 + 1 * (y 0).val; omega
    | ⟨1, _⟩ => show win4_0.index t (1 : Fin 2) * 128 + 1 * (y 1).val = win4_2.index t (1 : Fin 2) * 128 + 1 * (y 1).val; omega
  have h1 : iblk4 V c 1 t (ix2 (0 : Fin 1) (y 1)) = V c main_v107 (ix2 (0 : Fin 1) ((((cfg4.win 2).blk t).view.emb y) 1)) := by
    show V c main_v107 (((cfg4.win 1).blk t).view.emb (ix2 (0 : Fin 1) (y 1))) = _
    refine congrArg _ (funext fun a => Fin.ext ?_)
    match a with
    | ⟨0, _⟩ => show win4_1.index t (0 : Fin 2) * 1 + 1 * 0 = 0; omega
    | ⟨1, _⟩ => show win4_1.index t (1 : Fin 2) * 128 + 1 * (y 1).val = win4_2.index t (1 : Fin 2) * 128 + 1 * (y 1).val; omega
  rw [h0, h1]

/-- An index of the output array is in point `t`'s block iff each coordinate is in the block's range. -/
theorem mem_blk4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v108).slice (win4_2.rect t)).set ↔ _
  rw [View.set_slice_whole, Rect.mem_set_unit]
  exact Iff.rfl

/-- Every index of the output array is in some point's block: row `r` in that of point `r / 5000`. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨e0, e1, e2, e3, e4, e5⟩ := blockIdx4 t
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The output array after the region is `biasElu` of the arrays the region finds. -/
theorem region4_final (c : Dev nD) :
    (dat4 V c).arrAt 2 cfg4.N = biasElu (V c main_v106) (V c main_v107) :=
  (dat4 V c).arrAt_eq_of_cover 2 (biasElu (V c main_v106) (V c main_v107)) (fun t _ => flushed4_eq V c t) cover4

/-- The output array after the region, entry by entry. -/
theorem region4_apply (c : Dev nD) (p : Fin 50000) (j : Fin 128) :
    (dat4 V c).arrAt 2 cfg4.N (ix2 p j)
      = elu1 (HAdd.hAdd (α := EReal) (β := EReal) (γ := EReal) (V c main_v106 (ix2 p j)) (V c main_v107 (ix2 (0 : Fin 1) j))) := by
  rw [region4_final]
  rfl

end Cert.KernelIdeal.RegionValue

end
-- ==== Proof.LibRefElu.lean ====
/-
  The reference's spelling of the exponential linear unit and of the bias, read at one element.

  The reference computes ELU of an array `x` as: where `x > 0` take `x`, elsewhere take `1 · expm1 z`, with
  `z` equal to `0` where `x > 0` and to `x` elsewhere; the constants are scalars broadcast over the array's shape.
  Off the positive side `z = x` and `expm1 x = exp x - 1`, so at every index this is `elu1` of the entry.
  Its bias is a vector `[N]` broadcast first to one row `[1, N]` and then over the rows; the kernel's is the same
  vector cast to one row. Both read the vector's entry in the column asked for.
-/
import proofs.«121654_j5970004542118_2_alg».proof.Proof.LibEluSpec
import proofs.«121654_j5970004542118_2_alg».proof.Proof.LibDenseStep

noncomputable section

namespace Cert.RefElu

open Idealize.ShloMosaic Idealize.ShloMosaic.ValueIdx Cert.EluSpec Cert.DenseStep

/-- The reference's ELU of an array, at an index: `elu1` of the entry. -/
theorem helu_apply {s : Shape} (x : FVec Ideal s .f32) (h : (⟨0, ![]⟩ : Shape).BroadcastsInDim s ![]) (i : s.Idx) :
    select (cmpf .ogt x (broadcastInDim s ![] h (constant (F := Ideal) ⟨0, ![]⟩ .f32 0x00000000#32))) x
      (mulf (broadcastInDim s ![] h (constant (F := Ideal) ⟨0, ![]⟩ .f32 0x3F800000#32))
        (Host.expm1 (select (cmpf .ogt x (broadcastInDim s ![] h (constant (F := Ideal) ⟨0, ![]⟩ .f32 0x00000000#32)))
          (broadcastInDim s ![] h (id (constant (F := Ideal) ⟨0, ![]⟩ .f32 0x00000000#32))) x))) i
      = elu1 (x i) := by
  have hz : broadcastInDim s ![] h (constant (F := Ideal) ⟨0, ![]⟩ .f32 0x00000000#32) i = (0 : EReal) :=
    (hconst (φ := .f32) 0x00000000#32 h i).trans Ideal.ofBits_zero_f32
  have ho : broadcastInDim s ![] h (constant (F := Ideal) ⟨0, ![]⟩ .f32 0x3F800000#32) i = (1 : EReal) :=
    (hconst (φ := .f32) 0x3F800000#32 h i).trans Ideal.ofBits_one_f32
  show Scalar.select (Ideal.cmp .ogt (x i) (broadcastInDim s ![] h (constant (F := Ideal) ⟨0, ![]⟩ .f32 0x00000000#32) i)) (x i)
      ((broadcastInDim s ![] h (constant (F := Ideal) ⟨0, ![]⟩ .f32 0x3F800000#32) i : EReal)
        * (Ideal.exp (Scalar.select (Ideal.cmp .ogt (x i) (broadcastInDim s ![] h (constant (F := Ideal) ⟨0, ![]⟩ .f32 0x00000000#32) i))
            (broadcastInDim s ![] h (constant (F := Ideal) ⟨0, ![]⟩ .f32 0x00000000#32) i) (x i)) - 1)) = _
  rw [hz, ho, one_mul]
  show (if BitVec.ofBool (decide ((0 : EReal) < x i)) = 1#1 then x i
      else Ideal.exp (if BitVec.ofBool (decide ((0 : EReal) < x i)) = 1#1 then (0 : EReal) else x i) - 1) = _
  by_cases hp : (0 : EReal) < x i
  · rw [if_pos ((ofBool_eq_one_iff _).mpr (decide_eq_true hp)), elu1_of_pos hp]
  · have hb : ¬ BitVec.ofBool (decide ((0 : EReal) < x i)) = 1#1 :=
      fun hb => hp (of_decide_eq_true ((ofBool_eq_one_iff _).mp hb))
    rw [if_neg hb, if_neg hb, elu1_of_not_pos hp]

/-- A vector broadcast to one row and then over `R` rows reads, at `(p, j)`, the vector's entry `j`. -/
theorem hbias_apply {R N : ℕ} {α : Type} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (p : Fin R) (j : Fin N) :
    broadcastInDim ⟨2, ![R, N]⟩ ![0, 1] h2 (broadcastInDim ⟨2, ![1, N]⟩ ![1] h1 b) (ix2 p j) = b (ix1 j) := by
  have e2 : broadcastInDim ⟨2, ![R, N]⟩ ![0, 1] h2 (broadcastInDim ⟨2, ![1, N]⟩ ![1] h1 b) (ix2 p j)
      = broadcastInDim ⟨2, ![1, N]⟩ ![1] h1 b (ix2 (0 : Fin 1) j) :=
    broadcastInDim_apply _ h2 _ (ix2 p j) (ix2 (0 : Fin 1) j) fun ax => by
      match ax with
      | ⟨0, _⟩ => show 0 = if (1 : ℕ) = 1 then 0 else p.val; rw [if_pos rfl]
      | ⟨1, _⟩ =>
        show j.val = if N = 1 then 0 else j.val
        split
        · have := j.isLt; omega
        · rfl
  have e1 : broadcastInDim ⟨2, ![1, N]⟩ ![1] h1 b (ix2 (0 : Fin 1) j) = b (ix1 j) :=
    broadcastInDim_apply _ h1 b (ix2 (0 : Fin 1) j) (ix1 j) fun ax => by
      match ax with
      | ⟨0, _⟩ =>
        show j.val = if N = 1 then 0 else j.val
        split
        · have := j.isLt; omega
        · rfl
  rw [e2, e1]

/-- A vector cast to one row reads, at `(0, j)`, the vector's entry `j`. -/
theorem row_cast_apply {N : ℕ} {α : Type} (b : (⟨1, ![N]⟩ : Shape).Idx → α)
    (h : (⟨1, ![N]⟩ : Shape).ShapeCasts ⟨2, ![1, N]⟩) (j : Fin N) :
    shapeCast ⟨2, ![1, N]⟩ b h (ix2 (0 : Fin 1) j) = b (ix1 j) :=
  shapeCast_a_1a_apply b h 0 j

end Cert.RefElu

end
-- ==== Proof.JoinElu.lean ====
/-
  THE TWO BIAS-AND-ELU STAGES.

  After each of the two convolutions' aggregations both programs add the layer's bias to every row and apply the
  exponential linear unit. The kernel program does it in a launched region, ten blocks of 5000 rows each, with the bias
  cast to one row by the host stretch before the region; after the region the whole output array holds, at (p, j), ELU
  of the operand's (p, j) entry plus the bias's entry j (the region's value, proved with the region). The reference
  broadcasts the bias to one row and over the rows, adds, and spells ELU as two selects around expm1; read at (p, j)
  that is ELU of the same sum. Nothing needs to be finite.
-/
import proofs.«121654_j5970004542118_2_alg».proof.Proof.JoinBase
import proofs.«121654_j5970004542118_2_alg».proof.Proof.Region1
import proofs.«121654_j5970004542118_2_alg».proof.Proof.Region4
import proofs.«121654_j5970004542118_2_alg».proof.Proof.LibRefElu
import proofs.«121654_j5970004542118_2_alg».proof.Proof.LibTypedRef

set_option maxRecDepth 16384

noncomputable section

namespace Cert.Join

open Idealize.ShloMosaic Idealize.ShloMosaic.TcCoe Idealize.SL.Sem Idealize.ShloMosaic.StableHlo Idealize.ShloMosaic.ValueIdx
open Cert.ReferenceIdeal.RefRun
open Cert.KernelIdeal.Gen
open Cert.EluSpec

variable [KernelIdeal.Facts] [ReferenceIdeal.Facts]
variable (m : (ℓ : Loc KernelIdeal.nD KernelIdeal.τ KernelIdeal.sig) → Buf (Elt Ideal) ℓ) (ρ : Dev KernelIdeal.nD → PrngReg) (c : Dev KernelIdeal.nD)
variable (U : RVal Ideal)

/-- The first layer's one-row bias, as the host stretch before the region writes it: the bias vector cast to one row. -/
theorem bias1_row (V : KVal Ideal) :
    after (hostOps1 (F := Ideal)) V (kb KernelIdeal.main_v50)
      = fun i => shapeCast KernelIdeal.S1x128 (V (kb KernelIdeal.main_arg5)) shapeCasts_S128_S1x128 i := by
  open_fold
  rfl

/-- The second layer's one-row bias: the bias vector cast to one row. -/
theorem bias2_row (V : KVal Ideal) :
    after (hostOps4 (F := Ideal)) V (kb KernelIdeal.main_v107)
      = fun i => shapeCast KernelIdeal.S1x128 (V (kb KernelIdeal.main_arg7)) shapeCasts_S128_S1x128 i := by
  open_fold
  rfl

/-- The sum a row's ELU is taken of, on both sides, at `(p, j)`: the kernel program's operand entry plus its one-row
    bias at `(0, j)` is the reference's operand entry plus its twice-broadcast bias at `(p, j)`, when the operands
    and the bias vectors agree. -/
theorem presum_eq (a : KernelIdeal.S50000x128.Idx → Elt Ideal .f32) (a' : ReferenceIdeal.S50000x128.Idx → Elt Ideal .f32)
    (bk : KernelIdeal.S128.Idx → Elt Ideal .f32) (br : ReferenceIdeal.S128.Idx → Elt Ideal .f32)
    (ha : a = a') (hb : bk = br) (p : Fin 50000) (j : Fin 128) :
    (a (ix2 p j) : EReal) + (shapeCast KernelIdeal.S1x128 bk shapeCasts_S128_S1x128 (ix2 (0 : Fin 1) j) : EReal)
      = addf (F := Ideal) (φ := .f32) a'
          (broadcastInDim ReferenceIdeal.S50000x128 ![0, 1] ReferenceIdeal.Gen.bcast_S1x128_S50000x128_0_1
            (broadcastInDim ReferenceIdeal.S1x128 ![1] ReferenceIdeal.Gen.bcast_S128_S1x128_1 br)) (ix2 p j) := by
  subst ha hb
  show _ = (a (ix2 p j) : EReal) + (broadcastInDim ReferenceIdeal.S50000x128 ![0, 1] ReferenceIdeal.Gen.bcast_S1x128_S50000x128_0_1
            (broadcastInDim ReferenceIdeal.S1x128 ![1] ReferenceIdeal.Gen.bcast_S128_S1x128_1 bk) (ix2 p j) : EReal)
  rw [RefElu.row_cast_apply, RefElu.hbias_apply]

/-- The first bias-and-ELU stage: the region's first output array is the reference's ELU of the biased aggregate. -/
theorem hfeat_corr (h46 : W5 m ρ c (kb KernelIdeal.main_v46) = U (rb ReferenceIdeal.main_v55))
    (h5 : W4 m ρ c (kb KernelIdeal.main_arg5) = U (rb ReferenceIdeal.main_arg5)) :
    W6 m ρ c (kb KernelIdeal.main_v51_0) = after opsG U (rb ReferenceIdeal.main_v59) := by
  refine (W6_arr m ρ c 3).trans ?_
  rw [KernelIdeal.RegionValue.region1_feat_final]
  open_fold
  simp only [TypedRef.ofBuf_toBuf]
  have e58 : ∀ w : (⟨ReferenceIdeal.S50000x128, .f32⟩ : BufTy).Contents (Elt Ideal),
      (.of ReferenceIdeal.main_v58 : StableHlo.TRef ReferenceIdeal.sig ⟨ReferenceIdeal.S50000x128, .f32⟩).ofBuf w = w :=
    fun w => rfl
  have e59 : ∀ v : (⟨ReferenceIdeal.S50000x128, .f32⟩ : BufTy).Contents (Elt Ideal),
      (.of ReferenceIdeal.main_v59 : StableHlo.TRef ReferenceIdeal.sig ⟨ReferenceIdeal.S50000x128, .f32⟩).toBuf v = v :=
    fun v => rfl
  simp only [e58, e59]
  funext i
  obtain ⟨p, j, rfl⟩ : ∃ (p : Fin 50000) (j : Fin 128), i = ix2 p j := ⟨i 0, i 1, eq_ix2 i⟩
  refine Eq.trans ?_ (RefElu.helu_apply _ ReferenceIdeal.Gen.bcast_S_S50000x128 (ix2 p j)).symm
  refine congrArg elu1 ?_
  refine Eq.trans ?_ (presum_eq (W5 m ρ c (kb KernelIdeal.main_v46)) (U (rb ReferenceIdeal.main_v55))
    (W4 m ρ c (kb KernelIdeal.main_arg5)) (U (rb ReferenceIdeal.main_arg5)) h46 h5 p j)
  exact congrArg (HAdd.hAdd (α := EReal) (β := EReal) (γ := EReal) (W5 m ρ c (kb KernelIdeal.main_v46) (ix2 p j)))
    (congrFun (bias1_row (W4 m ρ c)) (ix2 (0 : Fin 1) j))

/-- The second bias-and-ELU stage: the last region's output array is the reference's ELU of the biased aggregate. -/
theorem h2_corr (h106 : W11 m ρ c (kb KernelIdeal.main_v106) = U (rb ReferenceIdeal.main_v138))
    (h7 : W10 m ρ c (kb KernelIdeal.main_arg7) = U (rb ReferenceIdeal.main_arg7)) :
    W12 m ρ c (kb KernelIdeal.main_v108) = after opsR U (rb ReferenceIdeal.main_v142) := by
  refine (W12_arr m ρ c 2).trans ?_
  rw [KernelIdeal.RegionValue.region4_final]
  open_fold
  simp only [TypedRef.ofBuf_toBuf]
  have e141 : ∀ w : (⟨ReferenceIdeal.S50000x128, .f32⟩ : BufTy).Contents (Elt Ideal),
      (.of ReferenceIdeal.main_v141 : StableHlo.TRef ReferenceIdeal.sig ⟨ReferenceIdeal.S50000x128, .f32⟩).ofBuf w = w :=
    fun w => rfl
  have e142 : ∀ v : (⟨ReferenceIdeal.S50000x128, .f32⟩ : BufTy).Contents (Elt Ideal),
      (.of ReferenceIdeal.main_v142 : StableHlo.TRef ReferenceIdeal.sig ⟨ReferenceIdeal.S50000x128, .f32⟩).toBuf v = v :=
    fun v => rfl
  simp only [e141, e142]
  funext i
  obtain ⟨p, j, rfl⟩ : ∃ (p : Fin 50000) (j : Fin 128), i = ix2 p j := ⟨i 0, i 1, eq_ix2 i⟩
  refine Eq.trans ?_ (RefElu.helu_apply _ ReferenceIdeal.Gen.bcast_S_S50000x128 (ix2 p j)).symm
  refine congrArg elu1 ?_
  refine Eq.trans ?_ (presum_eq (W11 m ρ c (kb KernelIdeal.main_v106)) (U (rb ReferenceIdeal.main_v138))
    (W10 m ρ c (kb KernelIdeal.main_arg7)) (U (rb ReferenceIdeal.main_arg7)) h106 h7 p j)
  exact congrArg (HAdd.hAdd (α := EReal) (β := EReal) (γ := EReal) (W11 m ρ c (kb KernelIdeal.main_v106) (ix2 p j)))
    (congrFun (bias2_row (W10 m ρ c)) (ix2 (0 : Fin 1) j))

end Cert.Join

end
-- ==== Proof.LibSegment.lean ====
/-
  ROW GATHER AND ACCUMULATING SCATTER READ AT AN INDEX.

  A graph layer gathers rows of an array [N, C] by a column of E start indices and adds E update rows
  into an array [N, C] at a column of E destination indices (x[idx] and a segment sum); the same for a vector of length N.
  Read at one index: the gather is the operand's row at the start index, read signed and clamped into [0, N - 1];
  the accumulating scatter is the operand's element plus the sum of the update rows whose destination index, read signed,
  is that row (an index outside [0, N - 1] names no row and its update is dropped).
-/
import Idealize.ShloMosaic.Lib.ValueIdx
import Idealize.ShloMosaic.PureOps.Ideal.Laws

noncomputable section

open scoped BigOperators

namespace Cert.Segment

open Idealize.ShloMosaic Idealize.ShloMosaic.ValueIdx

/-- A start index read signed and clamped into [0, N-1]. -/
def clampRow (N : ℕ) (hN : 0 < N) {w : ℕ} (b : BitVec w) : Fin N := ⟨min b.toInt.toNat (N - 1), by omega⟩

/-- The clamped row's value: the minimum of the signed reading (negative read as 0) and N - 1. -/
theorem clampRow_val (N : ℕ) (hN : 0 < N) {w : ℕ} (b : BitVec w) :
    (clampRow N hN b).val = min b.toInt.toNat (N - 1) := rfl

/-- In a rank-2 shape axis 1 is not axis 0 (a closed fact, used to decide membership in the literal axis lists). -/
theorem one_ne_zero_fin2 : (1 : Fin 2) ≠ 0 := by decide

/-- Axis 1 is not in the list holding axis 0 alone. -/
theorem one_not_mem_zero : (1 : Fin 2) ∉ [(0 : Fin 2)] := fun h => one_ne_zero_fin2 (List.mem_singleton.mp h)

/-! ## Gather of rows of an [N, C] array -/

/-- The dimension numbers of a row gather: operand [N, C], start indices [E, 1], result [E, C]; the result's axis 1 is
    the offset axis (a whole row of C), the operand's axis 0 is collapsed and is the one the start index names. -/
abbrev gatherRowsDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, c): the operand at row idx[e, 0], read signed and clamped into [0, N - 1], column c. -/
theorem gather_rows_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherRowsDims N E C wf) x idx (ix2 e c) = x (ix2 (clampRow N hN (idx (ix2 e (0 : Fin 1)))) c) := by
  unfold Host.gather
  congr 1
  funext a
  refine Fin.ext ?_
  match a with
  | ⟨0, _⟩ =>
    show (gatherRowsDims N E C wf).start (ix2 e c) idx 0 + (gatherRowsDims N E C wf).batchCoord (ix2 e c) 0
      + (gatherRowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e c) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e c) idx 1 + (gatherRowsDims N E C wf).batchCoord (ix2 e c) 1
      + (gatherRowsDims N E C wf).offCoord (ix2 e c) 1 = _
    rw [GatherDims.batchCoord_eq_zero _ _ _ List.not_mem_nil]
    have h1 : (1 : Fin 2) ∈ (gatherRowsDims N E C wf).sKept :=
      (GatherDims.mem_sKept _ _).mpr ⟨one_not_mem_zero, List.not_mem_nil⟩
    unfold GatherDims.start GatherDims.offCoord
    rw [dif_neg (show ¬ (1 : Fin 2) ∈ (gatherRowsDims N E C wf).startIndexMap from one_not_mem_zero), dif_pos h1]
    simp only [Nat.add_zero, Nat.zero_add]
    rfl

/-! ## Gather of elements of a vector of length N -/

/-- The dimension numbers of an element gather: operand [N], start indices [E, 1], result [E]; no offset axis, the
    operand's one axis is collapsed and is the one the start index names. -/
abbrev gatherVecDims (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT e: the operand at idx[e, 0], read signed and clamped into [0, N - 1]. -/
theorem gather_vec_apply {α : Type} {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVecDims N E wf) x idx (ix1 e) = x (ix1 (clampRow N hN (idx (ix2 e (0 : Fin 1))))) := by
  unfold Host.gather
  congr 1
  funext a
  obtain rfl : a = 0 := Subsingleton.elim _ _
  refine Fin.ext ?_
  show (gatherVecDims N E wf).start (ix1 e) idx 0 + (gatherVecDims N E wf).batchCoord (ix1 e) 0
    + (gatherVecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVecDims N E wf).startIndexMap from List.mem_singleton.mpr rfl)]
  have hsi : (gatherVecDims N E wf).siIdx (ix1 e) ⟨List.idxOf (0 : Fin 1) (gatherVecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## The scatter's result index, in general -/

/-- An update lands at operand index i exactly when, on every axis, its start (read signed) plus its window coordinate is
    i's coordinate: the sum is then inside the operand, and outside it the update is dropped. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro heq a
      have hi := Option.some.inj heq
      have ha := congrArg (fun f => ((f a).val : ℤ)) hi
      simp only at ha
      rw [← ha, Int.toNat_of_nonneg (h a).1]
    · intro hall
      congr 1
      funext a
      refine Fin.ext ?_
      have := hall a
      show (d.start j idx a + (d.window j a : ℤ)).toNat = (i a).val
      omega
  · rename_i h
    constructor
    · intro heq; cases heq
    · intro hall
      exfalso
      apply h
      intro a
      have := hall a
      have hlt := (i a).isLt
      constructor <;> omega

/-! ## Accumulating scatter of rows into an [N, C] array -/

/-- The dimension numbers of a row scatter: operand [N, C], scatter indices [E, 1], updates [E, C]; the updates' axis 1
    is the window axis (a whole row of C), the operand's axis 0 is inserted and is the one the scatter index names. -/
abbrev scatterRowsDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update (e, c') reads its scatter index at [e, 0]. -/
theorem scatterRows_siIdx {N E C : ℕ} (wf : ScatterDims.WF ⟨2, ![N, C]⟩ ⟨2, ![E, 1]⟩ ⟨2, ![E, C]⟩ [1] [0] [0] 1)
    (e : Fin E) (c' : Fin C) (k : Fin (scatterRowsDims N E C wf).scatterDimsToOperandDims.length) :
    (scatterRowsDims N E C wf).siIdx (ix2 e c') k = ix2 e (0 : Fin 1) := by
  funext b; refine Fin.ext ?_
  match b with
  | ⟨0, _⟩ => rfl
  | ⟨1, _⟩ =>
    have hk : k.val < 1 := k.isLt
    show k.val = 0
    omega

/-- On the row axis the window starts at the scatter index read signed … -/
theorem scatterRows_start0 {N E C w : ℕ} (wf : ScatterDims.WF ⟨2, ![N, C]⟩ ⟨2, ![E, 1]⟩ ⟨2, ![E, C]⟩ [1] [0] [0] 1)
    (idx : IVec ⟨2, ![E, 1]⟩ w) (e : Fin E) (c' : Fin C) :
    (scatterRowsDims N E C wf).start (ix2 e c') idx 0 = (idx (ix2 e (0 : Fin 1))).toInt := by
  unfold ScatterDims.start
  rw [dif_pos (show (0 : Fin 2) ∈ (scatterRowsDims N E C wf).scatterDimsToOperandDims from List.mem_singleton.mpr rfl),
    scatterRows_siIdx]

/-- … and on the column axis at 0. -/
theorem scatterRows_start1 {N E C w : ℕ} (wf : ScatterDims.WF ⟨2, ![N, C]⟩ ⟨2, ![E, 1]⟩ ⟨2, ![E, C]⟩ [1] [0] [0] 1)
    (idx : IVec ⟨2, ![E, 1]⟩ w) (e : Fin E) (c' : Fin C) :
    (scatterRowsDims N E C wf).start (ix2 e c') idx 1 = 0 := by
  unfold ScatterDims.start
  rw [dif_neg (show ¬ (1 : Fin 2) ∈ (scatterRowsDims N E C wf).scatterDimsToOperandDims from one_not_mem_zero)]

/-- The operand's kept axes of a row scatter: axis 1 is kept, axis 0 (inserted) is not. -/
theorem scatterRows_mem_sKept {N E C : ℕ} (wf : ScatterDims.WF ⟨2, ![N, C]⟩ ⟨2, ![E, 1]⟩ ⟨2, ![E, C]⟩ [1] [0] [0] 1)
    (a : Fin 2) : a ∈ (scatterRowsDims N E C wf).sKept ↔ a ∉ [(0 : Fin 2)] := by
  simp [ScatterDims.sKept, Shape.kept, List.mem_filter, List.mem_finRange]

/-- The window coordinate on the row axis is 0 … -/
theorem scatterRows_window0 {N E C : ℕ} (wf : ScatterDims.WF ⟨2, ![N, C]⟩ ⟨2, ![E, 1]⟩ ⟨2, ![E, C]⟩ [1] [0] [0] 1)
    (e : Fin E) (c' : Fin C) : (scatterRowsDims N E C wf).window (ix2 e c') 0 = 0 := by
  unfold ScatterDims.window
  rw [dif_neg (fun h => ((scatterRows_mem_sKept wf 0).mp h) (List.mem_singleton.mpr rfl))]

/-- … and on the column axis the update's column. -/
theorem scatterRows_window1 {N E C : ℕ} (wf : ScatterDims.WF ⟨2, ![N, C]⟩ ⟨2, ![E, 1]⟩ ⟨2, ![E, C]⟩ [1] [0] [0] 1)
    (e : Fin E) (c' : Fin C) : (scatterRowsDims N E C wf).window (ix2 e c') 1 = c'.val := by
  unfold ScatterDims.window
  rw [dif_pos ((scatterRows_mem_sKept wf 1).mpr one_not_mem_zero)]
  rfl

/-- WHERE A ROW UPDATE LANDS: update (e, c') lands at (p, c) exactly when its scatter index idx[e, 0], read signed, is
    the row p and its column is c. -/
theorem scatterRows_resultIdx {N E C w : ℕ} (wf : ScatterDims.WF ⟨2, ![N, C]⟩ ⟨2, ![E, 1]⟩ ⟨2, ![E, C]⟩ [1] [0] [0] 1)
    (idx : IVec ⟨2, ![E, 1]⟩ w) (e : Fin E) (c' : Fin C) (p : Fin N) (c : Fin C) :
    (scatterRowsDims N E C wf).resultIdx? (ix2 e c') idx = some (ix2 p c) ↔
      ((idx (ix2 e (0 : Fin 1))).toInt = (p.val : ℤ) ∧ c' = c) := by
  rw [resultIdx?_eq_some_iff]
  constructor
  · intro hall
    have h0 := hall 0
    have h1 := hall 1
    rw [scatterRows_start0, scatterRows_window0] at h0
    rw [scatterRows_start1, scatterRows_window1] at h1
    refine ⟨?_, Fin.ext ?_⟩
    · have : (((ix2 p c : (⟨2, ![N, C]⟩ : Shape).Idx) 0).val : ℤ) = (p.val : ℤ) := rfl
      omega
    · have : (((ix2 p c : (⟨2, ![N, C]⟩ : Shape).Idx) 1).val : ℤ) = (c.val : ℤ) := rfl
      omega
  · rintro ⟨hp, rfl⟩ a
    match a with
    | ⟨0, _⟩ =>
      show (scatterRowsDims N E C wf).start (ix2 e c') idx 0 + ((scatterRowsDims N E C wf).window (ix2 e c') 0 : ℤ) = (p.val : ℤ)
      rw [scatterRows_start0, scatterRows_window0, hp]; simp
    | ⟨1, _⟩ =>
      show (scatterRowsDims N E C wf).start (ix2 e c') idx 1 + ((scatterRowsDims N E C wf).window (ix2 e c') 1 : ℤ) = (c'.val : ℤ)
      rw [scatterRows_start1, scatterRows_window1]; simp

/-- THE ACCUMULATING ROW SCATTER READ AT (p, c): the operand's element plus the sum, over the updates e whose scatter
    index read signed is the row p, of update e's column c. -/
theorem scatterAdd_rows_apply {N E C w : ℕ} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (p : Fin N) (c : Fin C) :
    Ideal.hostScatterAdd (scatterRowsDims N E C wf) x idx upd (ix2 p c) =
      x (ix2 p c) + ∑ e ∈ Finset.univ.filter (fun e : Fin E => (idx (ix2 e (0 : Fin 1))).toInt = (p.val : ℤ)), upd (ix2 e c) := by
  unfold Ideal.hostScatterAdd
  congr 1
  refine Finset.sum_nbij' (fun j : (⟨2, ![E, C]⟩ : Shape).Idx => (j 0 : Fin E)) (fun e : Fin E => ix2 e c) ?_ ?_ ?_ ?_ ?_
  · intro j hj
    obtain ⟨e, c', rfl⟩ : ∃ (e : Fin E) (c' : Fin C), j = ix2 e c' := ⟨j 0, j 1, eq_ix2 j⟩
    have h := (scatterRows_resultIdx wf idx e c' p c).mp (Finset.mem_filter.mp hj).2
    exact Finset.mem_filter.mpr ⟨Finset.mem_univ _, h.1⟩
  · intro e he
    exact Finset.mem_filter.mpr ⟨Finset.mem_univ _,
      (scatterRows_resultIdx wf idx e c p c).mpr ⟨(Finset.mem_filter.mp he).2, rfl⟩⟩
  · intro j hj
    obtain ⟨e, c', rfl⟩ : ∃ (e : Fin E) (c' : Fin C), j = ix2 e c' := ⟨j 0, j 1, eq_ix2 j⟩
    have h := (scatterRows_resultIdx wf idx e c' p c).mp (Finset.mem_filter.mp hj).2
    show ix2 e c = ix2 e c'
    rw [h.2]
  · intro e _; rfl
  · intro j hj
    obtain ⟨e, c', rfl⟩ : ∃ (e : Fin E) (c' : Fin C), j = ix2 e c' := ⟨j 0, j 1, eq_ix2 j⟩
    have h := (scatterRows_resultIdx wf idx e c' p c).mp (Finset.mem_filter.mp hj).2
    show upd (ix2 e c') = upd (ix2 e c)
    rw [h.2]

/-! ## Accumulating scatter of elements into a vector of length N -/

/-- The dimension numbers of an element scatter: operand [N], scatter indices [E, 1], updates [E]; no window axis, the
    operand's one axis is inserted and is the one the scatter index names. -/
abbrev scatterVecDims (N E : ℕ)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update e reads its scatter index at [e, 0]. -/
theorem scatterVec_siIdx {N E : ℕ} (wf : ScatterDims.WF ⟨1, ![N]⟩ ⟨2, ![E, 1]⟩ ⟨1, ![E]⟩ [] [0] [0] 1)
    (e : Fin E) (k : Fin (scatterVecDims N E wf).scatterDimsToOperandDims.length) :
    (scatterVecDims N E wf).siIdx (ix1 e) k = ix2 e (0 : Fin 1) := by
  funext b; refine Fin.ext ?_
  match b with
  | ⟨0, _⟩ => rfl
  | ⟨1, _⟩ =>
    have hk : k.val < 1 := k.isLt
    show k.val = 0
    omega

/-- The window starts at the scatter index read signed … -/
theorem scatterVec_start0 {N E w : ℕ} (wf : ScatterDims.WF ⟨1, ![N]⟩ ⟨2, ![E, 1]⟩ ⟨1, ![E]⟩ [] [0] [0] 1)
    (idx : IVec ⟨2, ![E, 1]⟩ w) (e : Fin E) :
    (scatterVecDims N E wf).start (ix1 e) idx 0 = (idx (ix2 e (0 : Fin 1))).toInt := by
  unfold ScatterDims.start
  rw [dif_pos (show (0 : Fin 1) ∈ (scatterVecDims N E wf).scatterDimsToOperandDims from List.mem_singleton.mpr rfl),
    scatterVec_siIdx]

/-- … and its window coordinate is 0: the one operand axis is inserted, not kept. -/
theorem scatterVec_window0 {N E : ℕ} (wf : ScatterDims.WF ⟨1, ![N]⟩ ⟨2, ![E, 1]⟩ ⟨1, ![E]⟩ [] [0] [0] 1)
    (e : Fin E) : (scatterVecDims N E wf).window (ix1 e) 0 = 0 := by
  unfold ScatterDims.window
  rw [dif_neg (fun h => by
    have h' : (0 : Fin 1) ∉ [(0 : Fin 1)] := by
      simpa [ScatterDims.sKept, Shape.kept, List.mem_filter, List.mem_finRange] using h
    exact h' (List.mem_singleton.mpr rfl))]

/-- WHERE AN ELEMENT UPDATE LANDS: update e lands at p exactly when its scatter index idx[e, 0], read signed, is p. -/
theorem scatterVec_resultIdx {N E w : ℕ} (wf : ScatterDims.WF ⟨1, ![N]⟩ ⟨2, ![E, 1]⟩ ⟨1, ![E]⟩ [] [0] [0] 1)
    (idx : IVec ⟨2, ![E, 1]⟩ w) (e : Fin E) (p : Fin N) :
    (scatterVecDims N E wf).resultIdx? (ix1 e) idx = some (ix1 p) ↔ (idx (ix2 e (0 : Fin 1))).toInt = (p.val : ℤ) := by
  rw [resultIdx?_eq_some_iff]
  constructor
  · intro hall
    have h0 := hall 0
    rw [scatterVec_start0, scatterVec_window0] at h0
    have : (((ix1 p : (⟨1, ![N]⟩ : Shape).Idx) 0).val : ℤ) = (p.val : ℤ) := rfl
    omega
  · intro hp a
    obtain rfl : a = 0 := Subsingleton.elim _ _
    show (scatterVecDims N E wf).start (ix1 e) idx 0 + ((scatterVecDims N E wf).window (ix1 e) 0 : ℤ) = (p.val : ℤ)
    rw [scatterVec_start0, scatterVec_window0, hp]; simp

/-- THE ACCUMULATING ELEMENT SCATTER READ AT p: the operand's element plus the sum of the updates e whose scatter index
    read signed is p. -/
theorem scatterAdd_vec_apply {N E w : ℕ} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (p : Fin N) :
    Ideal.hostScatterAdd (scatterVecDims N E wf) x idx upd (ix1 p) =
      x (ix1 p) + ∑ e ∈ Finset.univ.filter (fun e : Fin E => (idx (ix2 e (0 : Fin 1))).toInt = (p.val : ℤ)), upd (ix1 e) := by
  unfold Ideal.hostScatterAdd
  congr 1
  refine Finset.sum_nbij' (fun j : (⟨1, ![E]⟩ : Shape).Idx => (j 0 : Fin E)) (fun e : Fin E => ix1 e) ?_ ?_ ?_ ?_ ?_
  · intro j hj
    obtain ⟨e, rfl⟩ : ∃ (e : Fin E), j = ix1 e := ⟨j 0, eq_ix1 j⟩
    exact Finset.mem_filter.mpr ⟨Finset.mem_univ _, (scatterVec_resultIdx wf idx e p).mp (Finset.mem_filter.mp hj).2⟩
  · intro e he
    exact Finset.mem_filter.mpr ⟨Finset.mem_univ _, (scatterVec_resultIdx wf idx e p).mpr (Finset.mem_filter.mp he).2⟩
  · intro j _
    obtain ⟨e, rfl⟩ : ∃ (e : Fin E), j = ix1 e := ⟨j 0, eq_ix1 j⟩
    rfl
  · intro e _; rfl
  · intro j _
    obtain ⟨e, rfl⟩ : ∃ (e : Fin E), j = ix1 e := ⟨j 0, eq_ix1 j⟩
    rfl

/-! ## A start index already in range -/

/-- The program wraps a negative start index (b <s 0 ? b + N : b) before a gather; a start index whose signed value is already
    a row p < N is unchanged by the wrap and by the clamp. -/
theorem clampRow_wrap {N : ℕ} (hN : 0 < N) (b : BitVec 32) (p : Fin N) (h : b.toInt = (p.val : ℤ)) :
    clampRow N hN (Scalar.select (IntOp.cmpi .slt b 0#32) (IntOp.addi b (BitVec.ofNat 32 N)) b) = p := by
  have hslt : b.slt 0#32 = false := by
    rw [BitVec.slt]
    have h0 : (0#32 : BitVec 32).toInt = 0 := by decide
    rw [h0, h]
    exact decide_eq_false (by omega)
  have hc : IntOp.cmpi .slt b 0#32 = 0#1 := by
    show BitVec.ofBool (b.slt 0#32) = 0#1
    rw [hslt]; rfl
  rw [hc, select_zero]
  refine Fin.ext ?_
  rw [clampRow_val, h]
  have := p.isLt
  simp only [Int.toNat_natCast]
  omega

end Cert.Segment

end
-- ==== Proof.LibLogits.lean ====
/-
  THE ATTENTION LOGIT OF AN EDGE, TWO WAYS, at the ideal values.

  An edge `e` from node `p₁` to node `p₂` has the logit `∑ k < 256, (feat p₁ ‖ feat p₂) k · a k + b`: the two end nodes'
  feature rows side by side against the attention vector `a`, plus a bias.  Splitting the sum over 256 positions at 128
  gives `hw (p₁, 0) + hw (p₂, 1) + b` with the per-node half-logits `hw (p, q) = ∑ k < 128, feat (p, k) · a (128 q + k)`
  (`sum_cat_split`, `logits_inner`).  Both spellings are read here at an edge over variables:
  • the host's: gather the rows of both end nodes, join them along the columns, one matrix product with `a` as a column,
    the bias broadcast, the column cast to a vector (`href_logits`);
  • the one after the half-logits are there: gather column 0 at the sources and column 1 at the targets, add, add the bias
    cast to a scalar and broadcast (`hker_logits`).
  The start indices stay abstract: a gather reads them signed and clamped, the same way on both sides.  The only algebra
  used is that a sum over `128 + 128` positions is the sum of the two sums.
-/
import proofs.«121654_j5970004542118_2_alg».proof.Proof.LibSegment
import proofs.«121654_j5970004542118_2_alg».proof.Proof.LibBlockDot
import proofs.«121654_j5970004542118_2_alg».proof.Proof.LibColumn

noncomputable section

open scoped BigOperators

namespace Cert.Logits

open Idealize.ShloMosaic Idealize.ShloMosaic.ValueIdx Cert.DenseRow Cert.Segment

/-- A column `[a, 1]` cast to a vector `[a]` reads, at `i`, the column's entry of row `i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A one-entry vector `[1]` cast to a scalar reads the entry. -/
theorem shapeCast_1_scalar_apply {α : Type} (x : (⟨1, ![1]⟩ : Shape).Idx → α)
    (h : (⟨1, ![1]⟩ : Shape).ShapeCasts ⟨0, ![]⟩) : shapeCast ⟨0, ![]⟩ x h ix0 = x (ix1 (0 : Fin 1)) :=
  shapeCast_apply x h _ _ (by
    have h0 : ((⟨0, ![]⟩ : Shape).rowMajor ix0).val < 1 := ((⟨0, ![]⟩ : Shape).rowMajor ix0).isLt
    rw [Shape.rowMajor_val_one]
    show (0 : ℕ) = _
    omega)

/-- A sum over `256 = 128 + 128` positions of two rows side by side against `a` is the first row against the first half of
    `a` plus the second row against the second half. -/
theorem sum_cat_split (x y : Fin 128 → EReal) (a : Fin 256 → EReal) :
    ∑ k : Fin 256, cat (show 256 = 128 + 128 from rfl) x y k * a k
      = (∑ k : Fin 128, x k * a ⟨0 * 128 + k.val, by omega⟩) + ∑ k : Fin 128, y k * a ⟨1 * 128 + k.val, by omega⟩ := by
  refine (Fin.sum_univ_add (M := EReal) (a := 128) (b := 128)
    (fun k : Fin (128 + 128) => cat (show 256 = 128 + 128 from rfl) x y k * a k)).trans ?_
  refine congrArg₂ (· + ·) (Finset.sum_congr rfl fun k _ => ?_) (Finset.sum_congr rfl fun k _ => ?_)
  · refine congrArg₂ (· * ·) ?_ (congrArg a (Fin.ext (by show k.val = 0 * 128 + k.val; omega)))
    unfold cat
    rw [dif_pos (show (Fin.castAdd 128 k).val < 128 from k.isLt)]
    exact congrArg x (Fin.ext rfl)
  · refine congrArg₂ (· * ·) ?_ (congrArg a (Fin.ext (by show 128 + k.val = 1 * 128 + k.val; omega)))
    unfold cat
    rw [dif_neg (show ¬ (Fin.natAdd 128 k).val < 128 from by show ¬ 128 + k.val < 128; omega)]
    exact congrArg y (Fin.ext (by show 128 + k.val - 128 = k.val; omega))

/-- The split at an edge: the two half-logits plus the bias are the full logit. -/
theorem logits_inner (hw : (⟨2, ![50000, 2]⟩ : Shape).Idx → EReal) (feat : (⟨2, ![50000, 128]⟩ : Shape).Idx → EReal)
    (att : (⟨2, ![256, 1]⟩ : Shape).Idx → EReal)
    (hhw : ∀ (p : Fin 50000) (q : Fin 2), hw (ix2 p q)
      = ∑ k : Fin 128, feat (ix2 p k) * att (ix2 (⟨q.val * 128 + k.val, by omega⟩ : Fin 256) (0 : Fin 1)))
    (p1 p2 : Fin 50000) (b : EReal) :
    (hw (ix2 p1 (0 : Fin 2)) + hw (ix2 p2 (1 : Fin 2))) + b
      = (∑ k : Fin 256, cat (show 256 = 128 + 128 from rfl) (fun a => feat (ix2 p1 a)) (fun a => feat (ix2 p2 a)) k
          * att (ix2 k (0 : Fin 1))) + b := by
  rw [hhw p1 0, hhw p2 1]
  exact congrArg (· + b)
    (sum_cat_split (fun a => feat (ix2 p1 a)) (fun a => feat (ix2 p2 a)) (fun k => att (ix2 k (0 : Fin 1)))).symm

/-- The start-index column of a gather: the `E` indices with the negative ones moved up by `N`, laid out as a column. -/
def wrapCol (E N : ℕ) (idx : IVec ⟨1, ![E]⟩ 32) (h0 : (⟨0, ![]⟩ : Shape).BroadcastsInDim ⟨1, ![E]⟩ ![])
    (h1 : (⟨1, ![E]⟩ : Shape).BroadcastsInDim ⟨2, ![E, 1]⟩ ![0]) : IVec ⟨2, ![E, 1]⟩ 32 :=
  broadcastInDim ⟨2, ![E, 1]⟩ ![0] h1
    (select (cmpi .slt idx (broadcastInDim ⟨1, ![E]⟩ ![] h0 (constantI ⟨0, ![]⟩ 32 0#32)))
      (addi idx (broadcastInDim ⟨1, ![E]⟩ ![] h0 (constantI ⟨0, ![]⟩ 32 (BitVec.ofNat 32 N)))) idx)

/-- The logit of edge `e` from the half-logits: column 0 at the source, column 1 at the target, plus the bias. -/
def kerLogit {w : ℕ} (hw : (⟨2, ![50000, 2]⟩ : Shape).Idx → EReal) (idx1 idx2 : IVec ⟨2, ![850000, 1]⟩ w)
    (b : (⟨1, ![1]⟩ : Shape).Idx → EReal) (e : Fin 850000) : EReal :=
  (hw (ix2 (clampRow 50000 (by decide) (idx1 (ix2 e (0 : Fin 1)))) (0 : Fin 2))
    + hw (ix2 (clampRow 50000 (by decide) (idx2 (ix2 e (0 : Fin 1)))) (1 : Fin 2))) + b (ix1 (0 : Fin 1))

/-- The logit of edge `e` in full: the two end nodes' feature rows side by side against the attention vector, plus the
    bias. -/
def refLogit {w : ℕ} (feat : (⟨2, ![50000, 128]⟩ : Shape).Idx → EReal) (idx1 idx2 : IVec ⟨2, ![850000, 1]⟩ w)
    (att : (⟨2, ![256, 1]⟩ : Shape).Idx → EReal) (b : (⟨1, ![1]⟩ : Shape).Idx → EReal) (e : Fin 850000) : EReal :=
  (∑ k : Fin 256, cat (show 256 = 128 + 128 from rfl)
      (fun a => feat (ix2 (clampRow 50000 (by decide) (idx1 (ix2 e (0 : Fin 1)))) a))
      (fun a => feat (ix2 (clampRow 50000 (by decide) (idx2 (ix2 e (0 : Fin 1)))) a)) k * att (ix2 k (0 : Fin 1)))
    + b (ix1 (0 : Fin 1))

/-- The two are equal when the half-logits are the features against the halves of the attention vector. -/
theorem kerLogit_eq_refLogit {w : ℕ} (hw : (⟨2, ![50000, 2]⟩ : Shape).Idx → EReal)
    (feat : (⟨2, ![50000, 128]⟩ : Shape).Idx → EReal) (att : (⟨2, ![256, 1]⟩ : Shape).Idx → EReal)
    (hhw : ∀ (p : Fin 50000) (q : Fin 2), hw (ix2 p q)
      = ∑ k : Fin 128, feat (ix2 p k) * att (ix2 (⟨q.val * 128 + k.val, by omega⟩ : Fin 256) (0 : Fin 1)))
    (idx1 idx2 : IVec ⟨2, ![850000, 1]⟩ w) (b : (⟨1, ![1]⟩ : Shape).Idx → EReal) (e : Fin 850000) :
    kerLogit hw idx1 idx2 b e = refLogit feat idx1 idx2 att b e :=
  logits_inner hw feat att hhw _ _ _

/-- The host's spelling at edge `e`. -/
theorem href_logits {w : ℕ} (feat : FVec Ideal ⟨2, ![50000, 128]⟩ .f32) (idx1 idx2 : IVec ⟨2, ![850000, 1]⟩ w)
    (att : FVec Ideal ⟨2, ![256, 1]⟩ .f32) (b : FVec Ideal ⟨1, ![1]⟩ .f32)
    (wfG : GatherDims.WF ⟨2, ![50000, 128]⟩ ⟨2, ![850000, 1]⟩ ⟨2, ![850000, 128]⟩ [1] [0] [] [0] [] 1 ![1, 128])
    (hcat : Shape.Concatenates [(⟨2, ![850000, 128]⟩ : Shape), ⟨2, ![850000, 128]⟩] ⟨2, ![850000, 256]⟩ (1 : Fin 2))
    (h1 : (⟨1, ![1]⟩ : Shape).BroadcastsInDim ⟨2, ![1, 1]⟩ ![1])
    (h2 : (⟨2, ![1, 1]⟩ : Shape).BroadcastsInDim ⟨2, ![850000, 1]⟩ ![0, 1])
    (hsc : (⟨2, ![850000, 1]⟩ : Shape).ShapeCasts ⟨1, ![850000]⟩) (e : Fin 850000) :
    shapeCast ⟨1, ![850000]⟩
        (addf (Host.dotGeneral (DotDims.plain 850000 256 1) none
            (concatenate ⟨2, ![850000, 256]⟩ (1 : Fin 2)
              [⟨⟨2, ![850000, 128]⟩, Host.gather (gatherRowsDims 50000 850000 128 wfG) feat idx1⟩,
               ⟨⟨2, ![850000, 128]⟩, Host.gather (gatherRowsDims 50000 850000 128 wfG) feat idx2⟩] hcat) att)
          (broadcastInDim ⟨2, ![850000, 1]⟩ ![0, 1] h2 (broadcastInDim ⟨2, ![1, 1]⟩ ![1] h1 b))) hsc (ix1 e)
      = (∑ k : Fin 256, cat (show 256 = 128 + 128 from rfl)
            (fun a => feat (ix2 (clampRow 50000 (by decide) (idx1 (ix2 e (0 : Fin 1)))) a))
            (fun a => feat (ix2 (clampRow 50000 (by decide) (idx2 (ix2 e (0 : Fin 1)))) a)) k * att (ix2 k (0 : Fin 1)))
          + b (ix1 (0 : Fin 1)) := by
  refine (shapeCast_a1_a_apply _ hsc e).trans ?_
  refine (hlayer_apply (DotDims.plain 850000 256 1) rfl rfl (PlainDot.lhs_at 850000 256 1) (PlainDot.rhs_at 850000 256 1)
    none _ att b h1 h2 e (0 : Fin 1)).trans ?_
  unfold layer
  refine congrArg (· + b (ix1 (0 : Fin 1))) (Finset.sum_congr rfl fun k _ => congrArg (· * att (ix2 k (0 : Fin 1))) ?_)
  refine (concat_cols_apply (show 256 = 128 + 128 from rfl) _ _ hcat e k).trans ?_
  refine congrArg₂ (fun x y => cat (show 256 = 128 + 128 from rfl) x y k) (funext fun a => ?_) (funext fun a => ?_)
  · exact gather_rows_apply (by decide) wfG feat idx1 e a
  · exact gather_rows_apply (by decide) wfG feat idx2 e a

/-- The spelling over the half-logits at edge `e`. -/
theorem hker_logits {w : ℕ} (hw : FVec Ideal ⟨2, ![50000, 2]⟩ .f32) (idx1 idx2 : IVec ⟨2, ![850000, 1]⟩ w)
    (b : FVec Ideal ⟨1, ![1]⟩ .f32)
    (wfG : GatherDims.WF ⟨1, ![50000]⟩ ⟨2, ![850000, 1]⟩ ⟨1, ![850000]⟩ [] [0] [] [0] [] 1 ![1])
    (hs0 : (⟨2, ![50000, 2]⟩ : Shape).Slices ![0, 0] ⟨2, ![50000, 1]⟩)
    (hs1 : (⟨2, ![50000, 2]⟩ : Shape).Slices ![0, 1] ⟨2, ![50000, 1]⟩)
    (hc : (⟨2, ![50000, 1]⟩ : Shape).ShapeCasts ⟨1, ![50000]⟩)
    (hsc : (⟨1, ![1]⟩ : Shape).ShapeCasts ⟨0, ![]⟩)
    (hb0 : (⟨0, ![]⟩ : Shape).BroadcastsInDim ⟨1, ![850000]⟩ ![]) (e : Fin 850000) :
    addf (addf
          (Host.gather (gatherVecDims 50000 850000 wfG)
            (fun i => shapeCast ⟨1, ![50000]⟩ (extractStridedSlice ⟨2, ![50000, 1]⟩ ![0, 0] hw hs0) hc i) idx1)
          (Host.gather (gatherVecDims 50000 850000 wfG)
            (fun i => shapeCast ⟨1, ![50000]⟩ (extractStridedSlice ⟨2, ![50000, 1]⟩ ![0, 1] hw hs1) hc i) idx2))
        (broadcastInDim ⟨1, ![850000]⟩ ![] hb0 (fun i => shapeCast ⟨0, ![]⟩ b hsc i)) (ix1 e)
      = (hw (ix2 (clampRow 50000 (by decide) (idx1 (ix2 e (0 : Fin 1)))) (0 : Fin 2))
          + hw (ix2 (clampRow 50000 (by decide) (idx2 (ix2 e (0 : Fin 1)))) (1 : Fin 2))) + b (ix1 (0 : Fin 1)) := by
  refine (addf_apply _ _ (ix1 e)).trans ?_
  refine congrArg₂ (· + ·) ?_ ?_
  · refine (addf_apply _ _ (ix1 e)).trans ?_
    refine congrArg₂ (· + ·) ?_ ?_
    · refine (gather_vec_apply (by decide) wfG _ idx1 e).trans ?_
      refine (shapeCast_a1_a_apply _ hc _).trans ?_
      refine extractStridedSlice_apply _ _ hs0 _ _ fun a => ?_
      match a with
      | ⟨0, _⟩ => exact (Nat.zero_add _).symm
      | ⟨1, _⟩ => rfl
    · refine (gather_vec_apply (by decide) wfG _ idx2 e).trans ?_
      refine (shapeCast_a1_a_apply _ hc _).trans ?_
      refine extractStridedSlice_apply _ _ hs1 _ _ fun a => ?_
      match a with
      | ⟨0, _⟩ => exact (Nat.zero_add _).symm
      | ⟨1, _⟩ => rfl
  · refine (broadcastInDim_apply _ hb0 _ (ix1 e) ix0 fun a => a.elim0).trans ?_
    exact shapeCast_1_scalar_apply b hsc

end Cert.Logits

end
-- ==== Proof.JoinLogits.lean ====
/-
  THE ATTENTION LOGITS STAGE.

  The reference computes an edge's logit in one piece: it gathers the feature rows of both end nodes, joins them along the
  columns, and multiplies by the attention vector (a sum over 256 positions), then adds the bias.  The kernel program has
  the two half-logits per node from its second region and only gathers and adds them.  Both stretches of host operations
  are opened here to their composed terms and read at an edge (`klogits_apply`, `rlogits_apply`); the two readings are
  the two spellings of the logit proved equal for abstract start indices, and the start indices are the same operations
  of equal index arrays.
-/
import proofs.«121654_j5970004542118_2_alg».proof.Proof.JoinBase
import proofs.«121654_j5970004542118_2_alg».proof.Proof.LibRegionRows
import proofs.«121654_j5970004542118_2_alg».proof.Proof.LibLogits

set_option maxRecDepth 16384

noncomputable section

open scoped BigOperators

namespace Cert.Join

open Idealize.ShloMosaic Idealize.ShloMosaic.TcCoe Idealize.SL.Sem Idealize.ShloMosaic.StableHlo Idealize.ShloMosaic.ValueIdx
open Cert.ReferenceIdeal.RefRun
open Cert.KernelIdeal.Gen Cert.Logits

variable [KernelIdeal.Facts] [ReferenceIdeal.Facts]

/-- The kernel program's logits stretch, read at edge `e`. -/
theorem klogits_apply (V : KVal Ideal) (e : Fin 850000) :
    after KernelIdeal.Gen.hostOps2 V (kb KernelIdeal.main_v73) (ix1 e)
      = kerLogit (V (kb KernelIdeal.main_v51_1))
          (wrapCol 850000 50000 (V (kb KernelIdeal.main_v3)) KernelIdeal.Gen.bcast_S_S850000 KernelIdeal.Gen.bcast_S850000_S850000x1_0)
          (wrapCol 850000 50000 (V (kb KernelIdeal.main_v6)) KernelIdeal.Gen.bcast_S_S850000 KernelIdeal.Gen.bcast_S850000_S850000x1_0)
          (V (kb KernelIdeal.main_arg13)) e := by
  open_fold
  exact hker_logits (V (kb KernelIdeal.main_v51_1)) _ _ (V (kb KernelIdeal.main_arg13)) _ _ _ _ _ _ e

set_option maxHeartbeats 4000000 in
/-- The reference's logits stage, read at edge `e`. -/
theorem rlogits_apply (U : RVal Ideal) (e : Fin 850000) :
    after opsH U (rb ReferenceIdeal.main_v79) (ix1 e)
      = refLogit (U (rb ReferenceIdeal.main_v59))
          (wrapCol 850000 50000 (U (rb ReferenceIdeal.main_v12)) ReferenceIdeal.Gen.bcast_S_S850000 ReferenceIdeal.Gen.bcast_S850000_S850000x1_0)
          (wrapCol 850000 50000 (U (rb ReferenceIdeal.main_v15)) ReferenceIdeal.Gen.bcast_S_S850000 ReferenceIdeal.Gen.bcast_S850000_S850000x1_0)
          (U (rb ReferenceIdeal.main_arg12)) (U (rb ReferenceIdeal.main_arg13)) e := by
  open_fold
  exact href_logits (U (rb ReferenceIdeal.main_v59)) _ _ (U (rb ReferenceIdeal.main_arg12)) (U (rb ReferenceIdeal.main_arg13)) _ _ _ _ _ e

/-- The two logits stretches end at the same array. -/
theorem logits_corr (V : KVal Ideal) (U : RVal Ideal)
    (h3 : V (kb KernelIdeal.main_v3) = U (rb ReferenceIdeal.main_v12)) (h6 : V (kb KernelIdeal.main_v6) = U (rb ReferenceIdeal.main_v15))
    (h13 : V (kb KernelIdeal.main_arg13) = U (rb ReferenceIdeal.main_arg13))
    (hhw : ∀ (p : Fin 50000) (q : Fin 2), V (kb KernelIdeal.main_v51_1) (ix2 p q)
      = ∑ k : Fin 128, KernelIdeal.RegionValue.realArr ReferenceIdeal.S50000x128 (U (rb ReferenceIdeal.main_v59)) (ix2 p k)
          * KernelIdeal.RegionValue.realArr ReferenceIdeal.S256x1 (U (rb ReferenceIdeal.main_arg12)) (ix2 (⟨q.val * 128 + k.val, by omega⟩ : Fin 256) (0 : Fin 1))) :
    after KernelIdeal.Gen.hostOps2 V (kb KernelIdeal.main_v73) = after opsH U (rb ReferenceIdeal.main_v79) := by
  funext i
  obtain ⟨e, rfl⟩ : ∃ e : Fin 850000, i = ix1 e := ⟨i 0, eq_ix1 i⟩
  rw [klogits_apply V e, rlogits_apply U e, h3, h6, h13]
  exact kerLogit_eq_refLogit (V (kb KernelIdeal.main_v51_1)) (U (rb ReferenceIdeal.main_v59)) (U (rb ReferenceIdeal.main_arg12)) hhw _ _ _ e

end Cert.Join

end
-- ==== Proof.JoinHw.lean ====
/-
  THE ATTENTION HALF-LOGITS.

  The attention logit of an edge is the dot product of the attention vector `a` (256 numbers) with the two end nodes'
  feature rows side by side.  The kernel program splits it: region 1 multiplies the feature rows by the `[128, 2]`
  matrix whose two columns are the two halves of `a`, leaving per node `p` the two half-logits
  `hw (p, q) = ∑ k, feat (p, k) · a (128 q + k)`.  Here that matrix is read back to `a` (`v49_apply`: it is the two
  `[128, 1]` slices of `a` joined along the columns) and the region's value is restated over the region's own feature
  output (`hw_fact`).
-/
import proofs.«121654_j5970004542118_2_alg».proof.Proof.JoinBase
import proofs.«121654_j5970004542118_2_alg».proof.Proof.Region1
import proofs.«121654_j5970004542118_2_alg».proof.Proof.LibRegionRows
import proofs.«121654_j5970004542118_2_alg».proof.Proof.LibSegment
import proofs.«121654_j5970004542118_2_alg».proof.Proof.LibBlockDot
import proofs.«121654_j5970004542118_2_alg».proof.Proof.LibColumn

set_option maxRecDepth 16384

noncomputable section

open scoped BigOperators

namespace Cert.Join

open Idealize.ShloMosaic Idealize.ShloMosaic.TcCoe Idealize.SL.Sem Idealize.ShloMosaic.StableHlo Idealize.ShloMosaic.ValueIdx
open Cert.ReferenceIdeal.RefRun
open Cert.KernelIdeal.Gen

variable [KernelIdeal.Facts] [ReferenceIdeal.Facts]
variable (m : (ℓ : Loc KernelIdeal.nD KernelIdeal.τ KernelIdeal.sig) → Buf (Elt Ideal) ℓ) (ρ : Dev KernelIdeal.nD → PrngReg) (c : Dev KernelIdeal.nD)

/-! ## The attention weights as the kernel lays them out -/

/-- The `[128, 2]` attention weight matrix is the two halves of the `[256, 1]` attention vector side by side. -/
theorem v49_eq (V : KVal Ideal) : after KernelIdeal.Gen.hostOps1 V (kb KernelIdeal.main_v49)
    = concatenate KernelIdeal.S128x2 1
        [⟨KernelIdeal.S128x1, extractStridedSlice KernelIdeal.S128x1 ![0, 0] (V (kb KernelIdeal.main_arg12)) KernelIdeal.Gen.slices_S256x1_S128x1_0_0⟩,
         ⟨KernelIdeal.S128x1, extractStridedSlice KernelIdeal.S128x1 ![128, 0] (V (kb KernelIdeal.main_arg12)) KernelIdeal.Gen.slices_S256x1_S128x1_128_0⟩]
        KernelIdeal.Gen.concatenates_S128x1_S128x1_S128x2_d1 := by
  open_fold

/-- Entry `(k, q)` of the weight matrix is entry `128 q + k` of the attention vector. -/
theorem v49_apply (V : KVal Ideal) (k : Fin 128) (q : Fin 2) :
    after KernelIdeal.Gen.hostOps1 V (kb KernelIdeal.main_v49) (ix2 k q)
      = V (kb KernelIdeal.main_arg12) (ix2 (⟨q.val * 128 + k.val, by omega⟩ : Fin 256) (0 : Fin 1)) := by
  refine (congrFun (v49_eq V) (ix2 k q)).trans ?_
  refine (DenseRow.concat_cols_apply (show 2 = 1 + 1 from rfl) _ _ _ k q).trans ?_
  unfold DenseRow.cat
  match q with
  | ⟨0, _⟩ =>
    rw [dif_pos (show (0 : ℕ) < 1 from Nat.one_pos)]
    refine extractStridedSlice_apply _ _ _ _ _ fun a => ?_
    match a with
    | ⟨0, _⟩ => show 0 * 128 + k.val = 0 + k.val; omega
    | ⟨1, _⟩ => rfl
  | ⟨1, _⟩ =>
    rw [dif_neg (show ¬ (1 : ℕ) < 1 from Nat.lt_irrefl 1)]
    refine extractStridedSlice_apply _ _ _ _ _ fun a => ?_
    match a with
    | ⟨0, _⟩ => show 1 * 128 + k.val = 128 + k.val; omega
    | ⟨1, _⟩ => rfl

/-- The attention half-logits `hw` that region 1 leaves: row `p` of the features against half `q` of the attention
    vector. -/
theorem hw_fact (p : Fin 50000) (q : Fin 2) :
    W6 m ρ c (kb KernelIdeal.main_v51_1) (ix2 p q)
      = ∑ k : Fin 128, KernelIdeal.RegionValue.realArr KernelIdeal.S50000x128 (W6 m ρ c (kb KernelIdeal.main_v51_0)) (ix2 p k)
          * KernelIdeal.RegionValue.realArr KernelIdeal.S256x1 (W4 m ρ c (kb KernelIdeal.main_arg12)) (ix2 (⟨q.val * 128 + k.val, by omega⟩ : Fin 256) (0 : Fin 1)) := by
  refine (congrFun ((W6_arr m ρ c 4).trans (KernelIdeal.RegionValue.region1_hw_final (V5 m ρ) c)) (ix2 p q)).trans ?_
  have h3 : W6 m ρ c (kb KernelIdeal.main_v51_0) = _ :=
    (W6_arr m ρ c 3).trans (KernelIdeal.RegionValue.region1_feat_final (V5 m ρ) c)
  rw [h3]
  change @Eq EReal _ _
  refine Finset.sum_congr rfl fun k _ => congrArg₂ (· * ·) rfl ?_
  exact v49_apply (W4 m ρ c) k q

end Cert.Join

end
-- ==== Proof.JoinKCarry.lean ====
/-
  THE KERNEL PROGRAM'S BUFFERS CARRIED FROM WHERE THEY ARE WRITTEN TO WHERE THEY ARE READ.

  The program is in static single assignment form.  An index vector, the edge normalisation, an argument array or a
  region's output is written once and read several segments later; between the two no host operation writes it and no
  region has it among its arrays, so at the later boundary it holds what it held right after it was written (for an
  argument: the launch contents).  One lemma per (boundary, buffer) read that the comparison with the reference uses;
  each walks back one segment at a time.
-/
import proofs.«121654_j5970004542118_2_alg».proof.Proof.JoinBase

set_option maxRecDepth 16384

noncomputable section

namespace Cert.Join

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

theorem kc_W2_v8 : W2 m ρ c (kb main_v8) = W1 m ρ c (kb main_v8) := by
  host_back
  rfl
theorem kc_W2_v9 : W2 m ρ c (kb main_v9) = W1 m ρ c (kb main_v9) := by
  host_back
  rfl
theorem kc_W3_arg0 : W3 m ρ c (kb main_arg0) = W0 m ρ c (kb main_arg0) := by
  host_back; host_back; host_back
  rfl
theorem kc_W3_arg4 : W3 m ρ c (kb main_arg4) = W0 m ρ c (kb main_arg4) := by
  host_back; host_back; host_back
  rfl
theorem kc_W4_v8 : W4 m ρ c (kb main_v8) = W1 m ρ c (kb main_v8) := by
  r0_back; host_back; host_back
  rfl
theorem kc_W4_v9 : W4 m ρ c (kb main_v9) = W1 m ρ c (kb main_v9) := by
  r0_back; host_back; host_back
  rfl
theorem kc_W4_v32 : W4 m ρ c (kb main_v32) = W3 m ρ c (kb main_v32) := by
  r0_back
  rfl
theorem kc_W4_arg5 : W4 m ρ c (kb main_arg5) = W0 m ρ c (kb main_arg5) := by
  r0_back; host_back; host_back; host_back
  rfl
theorem kc_W4_arg12 : W4 m ρ c (kb main_arg12) = W0 m ρ c (kb main_arg12) := by
  r0_back; host_back; host_back; host_back
  rfl
theorem kc_W6_v3 : W6 m ρ c (kb main_v3) = W1 m ρ c (kb main_v3) := by
  r1_back; host_back; r0_back; host_back; host_back
  rfl
theorem kc_W6_v6 : W6 m ρ c (kb main_v6) = W1 m ρ c (kb main_v6) := by
  r1_back; host_back; r0_back; host_back; host_back
  rfl
theorem kc_W6_arg13 : W6 m ρ c (kb main_arg13) = W0 m ρ c (kb main_arg13) := by
  r1_back; host_back; r0_back; host_back; host_back; host_back
  rfl
theorem kc_W6_arg9 : W6 m ρ c (kb main_arg9) = W0 m ρ c (kb main_arg9) := by
  r1_back; host_back; r0_back; host_back; host_back; host_back
  rfl
theorem kc_W6_arg11 : W6 m ρ c (kb main_arg11) = W0 m ρ c (kb main_arg11) := by
  r1_back; host_back; r0_back; host_back; host_back; host_back
  rfl
set_option maxHeartbeats 1000000 in
theorem kc_W7_arg2 : W7 m ρ c (kb main_arg2) = W0 m ρ c (kb main_arg2) := by
  host_back; r1_back; host_back; r0_back; host_back; host_back; host_back
  rfl
set_option maxHeartbeats 1000000 in
theorem kc_W7_arg8 : W7 m ρ c (kb main_arg8) = W0 m ρ c (kb main_arg8) := by
  host_back; r1_back; host_back; r0_back; host_back; host_back; host_back
  rfl
set_option maxHeartbeats 1000000 in
theorem kc_W7_arg10 : W7 m ρ c (kb main_arg10) = W0 m ρ c (kb main_arg10) := by
  host_back; r1_back; host_back; r0_back; host_back; host_back; host_back
  rfl
set_option maxHeartbeats 1000000 in
theorem kc_W8_v3 : W8 m ρ c (kb main_v3) = W1 m ρ c (kb main_v3) := by
  r2_back; host_back; r1_back; host_back; r0_back; host_back; host_back
  rfl
theorem kc_W9_v51_0 : W9 m ρ c (kb main_v51_0) = W6 m ρ c (kb main_v51_0) := by
  host_back; r2_back; host_back
  rfl
set_option maxHeartbeats 1000000 in
theorem kc_W9_arg6 : W9 m ρ c (kb main_arg6) = W0 m ρ c (kb main_arg6) := by
  host_back; r2_back; host_back; r1_back; host_back; r0_back; host_back; host_back; host_back
  rfl
set_option maxHeartbeats 1000000 in
theorem kc_W10_v8 : W10 m ρ c (kb main_v8) = W1 m ρ c (kb main_v8) := by
  r3_back; host_back; r2_back; host_back; r1_back; host_back; r0_back; host_back; host_back
  rfl
set_option maxHeartbeats 1000000 in
theorem kc_W10_v9 : W10 m ρ c (kb main_v9) = W1 m ρ c (kb main_v9) := by
  r3_back; host_back; r2_back; host_back; r1_back; host_back; r0_back; host_back; host_back
  rfl
set_option maxHeartbeats 1000000 in
theorem kc_W10_v32 : W10 m ρ c (kb main_v32) = W3 m ρ c (kb main_v32) := by
  r3_back; host_back; r2_back; host_back; r1_back; host_back; r0_back
  rfl
set_option maxHeartbeats 1000000 in
theorem kc_W10_arg7 : W10 m ρ c (kb main_arg7) = W0 m ρ c (kb main_arg7) := by
  r3_back; host_back; r2_back; host_back; r1_back; host_back; r0_back; host_back; host_back; host_back
  rfl
set_option maxHeartbeats 1000000 in
theorem kc_W12_arg3 : W12 m ρ c (kb main_arg3) = W0 m ρ c (kb main_arg3) := by
  r4_back; host_back; r3_back; host_back; r2_back; host_back; r1_back; host_back; r0_back; host_back; host_back; host_back
  rfl
set_option maxHeartbeats 1000000 in
theorem kc_W12_arg14 : W12 m ρ c (kb main_arg14) = W0 m ρ c (kb main_arg14) := by
  r4_back; host_back; r3_back; host_back; r2_back; host_back; r1_back; host_back; r0_back; host_back; host_back; host_back
  rfl
set_option maxHeartbeats 1000000 in
theorem kc_W12_arg15 : W12 m ρ c (kb main_arg15) = W0 m ρ c (kb main_arg15) := by
  r4_back; host_back; r3_back; host_back; r2_back; host_back; r1_back; host_back; r0_back; host_back; host_back; host_back
  rfl

end Cert.Join

end
-- ==== Proof.RefCarry.lean ====
/-
  CARRYING THE REFERENCE'S BUFFERS BACK TO WHERE THEY WERE WRITTEN.

  The reference is in static single assignment form: a buffer is written by one operation of one stage and only read
  afterwards, and an argument is written by none.  So a buffer read at a later boundary holds what it held right after
  the stage that wrote it, and an argument read at any boundary holds what it held at the start.  Each fact below walks
  the read back one stage at a time: no operation of the stage writes the buffer (its written buffers are literal
  references, all different from the one read).
-/
import proofs.«121654_j5970004542118_2_alg».proof.Proof.JoinBase

set_option maxRecDepth 16384

noncomputable section

namespace Cert.Join

open Idealize.ShloMosaic Idealize.ShloMosaic.TcCoe Idealize.SL.Sem Idealize.ShloMosaic.StableHlo
open Cert.ReferenceIdeal.RefRun

variable {F : FTy → Type} [FloatOps F]
variable [ReferenceIdeal.Facts] (V : RVal F)

/-! ## Read by stages D and E, written by stages B, C and D -/

theorem rE_v17 : rE V (rb ReferenceIdeal.main_v17) = rB V (rb ReferenceIdeal.main_v17) := by
  iterate 3 host_back
  rfl
theorem rE_v18 : rE V (rb ReferenceIdeal.main_v18) = rB V (rb ReferenceIdeal.main_v18) := by
  iterate 3 host_back
  rfl
theorem rD_v26 : rD V (rb ReferenceIdeal.main_v26) = rC V (rb ReferenceIdeal.main_v26) := by
  iterate 1 host_back
  rfl
theorem rD_v17 : rD V (rb ReferenceIdeal.main_v17) = rB V (rb ReferenceIdeal.main_v17) := by
  iterate 2 host_back
  rfl
theorem rD_v18 : rD V (rb ReferenceIdeal.main_v18) = rB V (rb ReferenceIdeal.main_v18) := by
  iterate 2 host_back
  rfl
theorem rE_v27 : rE V (rb ReferenceIdeal.main_v27) = rD V (rb ReferenceIdeal.main_v27) := by
  iterate 1 host_back
  rfl

/-! ## Read by stages G … L, written by stages A, B and G -/

theorem rG_v15 : rG V (rb ReferenceIdeal.main_v15) = rB V (rb ReferenceIdeal.main_v15) := by
  iterate 5 host_back
  rfl
theorem rI_v8 : rI V (rb ReferenceIdeal.main_v8) = rA V (rb ReferenceIdeal.main_v8) := by
  iterate 8 host_back
  rfl
theorem rJ_v12 : rJ V (rb ReferenceIdeal.main_v12) = rB V (rb ReferenceIdeal.main_v12) := by
  iterate 8 host_back
  rfl
theorem rK_v59 : rK V (rb ReferenceIdeal.main_v59) = rG V (rb ReferenceIdeal.main_v59) := by
  iterate 4 host_back
  rfl
theorem rL_v12 : rL V (rb ReferenceIdeal.main_v12) = rB V (rb ReferenceIdeal.main_v12) := by
  iterate 10 host_back
  rfl
theorem rL_v15 : rL V (rb ReferenceIdeal.main_v15) = rB V (rb ReferenceIdeal.main_v15) := by
  iterate 10 host_back
  rfl

/-! ## Read by stages O and P, written by stages M, N and O -/

theorem rP_v110 : rP V (rb ReferenceIdeal.main_v110) = rO V (rb ReferenceIdeal.main_v110) := by
  iterate 1 host_back
  rfl
theorem rP_v100 : rP V (rb ReferenceIdeal.main_v100) = rM V (rb ReferenceIdeal.main_v100) := by
  iterate 3 host_back
  rfl
theorem rP_v101 : rP V (rb ReferenceIdeal.main_v101) = rM V (rb ReferenceIdeal.main_v101) := by
  iterate 3 host_back
  rfl
theorem rO_v109 : rO V (rb ReferenceIdeal.main_v109) = rN V (rb ReferenceIdeal.main_v109) := by
  iterate 1 host_back
  rfl
theorem rO_v100 : rO V (rb ReferenceIdeal.main_v100) = rM V (rb ReferenceIdeal.main_v100) := by
  iterate 2 host_back
  rfl
theorem rO_v101 : rO V (rb ReferenceIdeal.main_v101) = rM V (rb ReferenceIdeal.main_v101) := by
  iterate 2 host_back
  rfl

/-! ## The arguments, at the boundary where a stage reads them -/

theorem rA_arg1 : rA V (rb ReferenceIdeal.main_arg1) = V (rb ReferenceIdeal.main_arg1) := by
  iterate 1 host_back
  rfl
theorem rC_arg0 : rC V (rb ReferenceIdeal.main_arg0) = V (rb ReferenceIdeal.main_arg0) := by
  iterate 3 host_back
  rfl
theorem rC_arg4 : rC V (rb ReferenceIdeal.main_arg4) = V (rb ReferenceIdeal.main_arg4) := by
  iterate 3 host_back
  rfl
theorem rF_arg5 : rF V (rb ReferenceIdeal.main_arg5) = V (rb ReferenceIdeal.main_arg5) := by
  iterate 6 host_back
  rfl
theorem rG_arg12 : rG V (rb ReferenceIdeal.main_arg12) = V (rb ReferenceIdeal.main_arg12) := by
  iterate 7 host_back
  rfl
theorem rG_arg13 : rG V (rb ReferenceIdeal.main_arg13) = V (rb ReferenceIdeal.main_arg13) := by
  iterate 7 host_back
  rfl
theorem rK_arg6 : rK V (rb ReferenceIdeal.main_arg6) = V (rb ReferenceIdeal.main_arg6) := by
  iterate 11 host_back
  rfl
theorem rN_arg6 : rN V (rb ReferenceIdeal.main_arg6) = V (rb ReferenceIdeal.main_arg6) := by
  iterate 14 host_back
  rfl
theorem rQ_arg7 : rQ V (rb ReferenceIdeal.main_arg7) = V (rb ReferenceIdeal.main_arg7) := by
  iterate 17 host_back
  rfl
theorem rR_arg3 : rR V (rb ReferenceIdeal.main_arg3) = V (rb ReferenceIdeal.main_arg3) := by
  iterate 18 host_back
  rfl
theorem rR_arg14 : rR V (rb ReferenceIdeal.main_arg14) = V (rb ReferenceIdeal.main_arg14) := by
  iterate 18 host_back
  rfl
theorem rR_arg15 : rR V (rb ReferenceIdeal.main_arg15) = V (rb ReferenceIdeal.main_arg15) := by
  iterate 18 host_back
  rfl

end Cert.Join

end
-- ==== Proof.JoinAll.lean ====
/-
  THE TWO PROGRAMS' RESULTS ARE EQUAL, STAGE BY STAGE.

  From launch memories that agree on the sixteen argument arrays, the kernel program's buffer contents (the fold W0 … W13
  through its host stretches and regions) and the reference's contents after each of its nineteen stages (rA … rS) agree
  on every value the two programs share, in the order the values are produced:
    the index vectors with self loops, the inverse square root degrees and the edge normalisation;
    x · W1; the first gather-scale-scatter; bias and ELU (the node features h);
    the attention logits — the kernel program's h · [Watt₁ | Watt₂] gathered at the two ends of each edge and added, the
      reference's [h[row] | h[col]] · Watt: a sum over 256 split into two sums over 128 —; the global softmax;
    the attention-weighted edge MLP; its scatter onto the source nodes; (h + agg) · W2;
    the second gather-scale-scatter (the reference recomputes the index vectors and the normalisation: its second copy is
      compared with the kernel program's only one); bias and ELU; the mean pool and the final linear map.
  Each step cites the stage's own lemma at the two boundaries' contents; the buffers a stage reads are carried from the
  boundary where they were written.  Nothing needs to be finite: the sums are compared term by term.
-/
import proofs.«121654_j5970004542118_2_alg».proof.Proof.JoinHost
import proofs.«121654_j5970004542118_2_alg».proof.Proof.JoinDot
import proofs.«121654_j5970004542118_2_alg».proof.Proof.JoinAtt
import proofs.«121654_j5970004542118_2_alg».proof.Proof.JoinEdge
import proofs.«121654_j5970004542118_2_alg».proof.Proof.JoinElu
import proofs.«121654_j5970004542118_2_alg».proof.Proof.JoinLogits
import proofs.«121654_j5970004542118_2_alg».proof.Proof.JoinHw
import proofs.«121654_j5970004542118_2_alg».proof.Proof.JoinKCarry
import proofs.«121654_j5970004542118_2_alg».proof.Proof.RefCarry

set_option maxRecDepth 16384

noncomputable section

namespace Cert.Join

open Idealize.ShloMosaic Idealize.ShloMosaic.TcCoe Idealize.SL.Sem Idealize.ShloMosaic.StableHlo Idealize.ShloMosaic.ValueIdx
open Cert.ReferenceIdeal.RefRun
open Cert.KernelIdeal.Gen
open scoped BigOperators

variable [KernelIdeal.Facts] [ReferenceIdeal.Facts]
variable (m : (ℓ : Loc KernelIdeal.nD KernelIdeal.τ KernelIdeal.sig) → Buf (Elt Ideal) ℓ) (ρ : Dev KernelIdeal.nD → PrngReg)
variable (m' : (ℓ : Loc ReferenceIdeal.nD ReferenceIdeal.τ ReferenceIdeal.sig) → Buf (Elt Ideal) ℓ) (c : Dev KernelIdeal.nD)

/-- The two launch memories agree on the sixteen argument arrays. -/
def Agree : Prop :=
    m' ((c.tc : Thread ReferenceIdeal.nD ReferenceIdeal.τ).loc ReferenceIdeal.main_arg0) = m ((c.tc : Thread KernelIdeal.nD KernelIdeal.τ).loc KernelIdeal.main_arg0)
    ∧ m' ((c.tc : Thread ReferenceIdeal.nD ReferenceIdeal.τ).loc ReferenceIdeal.main_arg1) = m ((c.tc : Thread KernelIdeal.nD KernelIdeal.τ).loc KernelIdeal.main_arg1)
    ∧ m' ((c.tc : Thread ReferenceIdeal.nD ReferenceIdeal.τ).loc ReferenceIdeal.main_arg2) = m ((c.tc : Thread KernelIdeal.nD KernelIdeal.τ).loc KernelIdeal.main_arg2)
    ∧ m' ((c.tc : Thread ReferenceIdeal.nD ReferenceIdeal.τ).loc ReferenceIdeal.main_arg3) = m ((c.tc : Thread KernelIdeal.nD KernelIdeal.τ).loc KernelIdeal.main_arg3)
    ∧ m' ((c.tc : Thread ReferenceIdeal.nD ReferenceIdeal.τ).loc ReferenceIdeal.main_arg4) = m ((c.tc : Thread KernelIdeal.nD KernelIdeal.τ).loc KernelIdeal.main_arg4)
    ∧ m' ((c.tc : Thread ReferenceIdeal.nD ReferenceIdeal.τ).loc ReferenceIdeal.main_arg5) = m ((c.tc : Thread KernelIdeal.nD KernelIdeal.τ).loc KernelIdeal.main_arg5)
    ∧ m' ((c.tc : Thread ReferenceIdeal.nD ReferenceIdeal.τ).loc ReferenceIdeal.main_arg6) = m ((c.tc : Thread KernelIdeal.nD KernelIdeal.τ).loc KernelIdeal.main_arg6)
    ∧ m' ((c.tc : Thread ReferenceIdeal.nD ReferenceIdeal.τ).loc ReferenceIdeal.main_arg7) = m ((c.tc : Thread KernelIdeal.nD KernelIdeal.τ).loc KernelIdeal.main_arg7)
    ∧ m' ((c.tc : Thread ReferenceIdeal.nD ReferenceIdeal.τ).loc ReferenceIdeal.main_arg8) = m ((c.tc : Thread KernelIdeal.nD KernelIdeal.τ).loc KernelIdeal.main_arg8)
    ∧ m' ((c.tc : Thread ReferenceIdeal.nD ReferenceIdeal.τ).loc ReferenceIdeal.main_arg9) = m ((c.tc : Thread KernelIdeal.nD KernelIdeal.τ).loc KernelIdeal.main_arg9)
    ∧ m' ((c.tc : Thread ReferenceIdeal.nD ReferenceIdeal.τ).loc ReferenceIdeal.main_arg10) = m ((c.tc : Thread KernelIdeal.nD KernelIdeal.τ).loc KernelIdeal.main_arg10)
    ∧ m' ((c.tc : Thread ReferenceIdeal.nD ReferenceIdeal.τ).loc ReferenceIdeal.main_arg11) = m ((c.tc : Thread KernelIdeal.nD KernelIdeal.τ).loc KernelIdeal.main_arg11)
    ∧ m' ((c.tc : Thread ReferenceIdeal.nD ReferenceIdeal.τ).loc ReferenceIdeal.main_arg12) = m ((c.tc : Thread KernelIdeal.nD KernelIdeal.τ).loc KernelIdeal.main_arg12)
    ∧ m' ((c.tc : Thread ReferenceIdeal.nD ReferenceIdeal.τ).loc ReferenceIdeal.main_arg13) = m ((c.tc : Thread KernelIdeal.nD KernelIdeal.τ).loc KernelIdeal.main_arg13)
    ∧ m' ((c.tc : Thread ReferenceIdeal.nD ReferenceIdeal.τ).loc ReferenceIdeal.main_arg14) = m ((c.tc : Thread KernelIdeal.nD KernelIdeal.τ).loc KernelIdeal.main_arg14)
    ∧ m' ((c.tc : Thread ReferenceIdeal.nD ReferenceIdeal.τ).loc ReferenceIdeal.main_arg15) = m ((c.tc : Thread KernelIdeal.nD KernelIdeal.τ).loc KernelIdeal.main_arg15)

/-- The reference's launch contents on the device. -/
abbrev V0 : RVal Ideal := StableHlo.launchContents m' c

variable {m m' c}

theorem ag0 (h : Agree m m' c) : W0 m ρ c (kb KernelIdeal.main_arg0) = V0 m' c (rb ReferenceIdeal.main_arg0) := ((h).1).symm
theorem ag1 (h : Agree m m' c) : W0 m ρ c (kb KernelIdeal.main_arg1) = V0 m' c (rb ReferenceIdeal.main_arg1) := (((h).2).1).symm
theorem ag2 (h : Agree m m' c) : W0 m ρ c (kb KernelIdeal.main_arg2) = V0 m' c (rb ReferenceIdeal.main_arg2) := ((((h).2).2).1).symm
theorem ag3 (h : Agree m m' c) : W0 m ρ c (kb KernelIdeal.main_arg3) = V0 m' c (rb ReferenceIdeal.main_arg3) := (((((h).2).2).2).1).symm
theorem ag4 (h : Agree m m' c) : W0 m ρ c (kb KernelIdeal.main_arg4) = V0 m' c (rb ReferenceIdeal.main_arg4) := ((((((h).2).2).2).2).1).symm
theorem ag5 (h : Agree m m' c) : W0 m ρ c (kb KernelIdeal.main_arg5) = V0 m' c (rb ReferenceIdeal.main_arg5) := (((((((h).2).2).2).2).2).1).symm
theorem ag6 (h : Agree m m' c) : W0 m ρ c (kb KernelIdeal.main_arg6) = V0 m' c (rb ReferenceIdeal.main_arg6) := ((((((((h).2).2).2).2).2).2).1).symm
theorem ag7 (h : Agree m m' c) : W0 m ρ c (kb KernelIdeal.main_arg7) = V0 m' c (rb ReferenceIdeal.main_arg7) := (((((((((h).2).2).2).2).2).2).2).1).symm
theorem ag8 (h : Agree m m' c) : W0 m ρ c (kb KernelIdeal.main_arg8) = V0 m' c (rb ReferenceIdeal.main_arg8) := ((((((((((h).2).2).2).2).2).2).2).2).1).symm
theorem ag9 (h : Agree m m' c) : W0 m ρ c (kb KernelIdeal.main_arg9) = V0 m' c (rb ReferenceIdeal.main_arg9) := (((((((((((h).2).2).2).2).2).2).2).2).2).1).symm
theorem ag10 (h : Agree m m' c) : W0 m ρ c (kb KernelIdeal.main_arg10) = V0 m' c (rb ReferenceIdeal.main_arg10) := ((((((((((((h).2).2).2).2).2).2).2).2).2).2).1).symm
theorem ag11 (h : Agree m m' c) : W0 m ρ c (kb KernelIdeal.main_arg11) = V0 m' c (rb ReferenceIdeal.main_arg11) := (((((((((((((h).2).2).2).2).2).2).2).2).2).2).2).1).symm
theorem ag12 (h : Agree m m' c) : W0 m ρ c (kb KernelIdeal.main_arg12) = V0 m' c (rb ReferenceIdeal.main_arg12) := ((((((((((((((h).2).2).2).2).2).2).2).2).2).2).2).2).1).symm
theorem ag13 (h : Agree m m' c) : W0 m ρ c (kb KernelIdeal.main_arg13) = V0 m' c (rb ReferenceIdeal.main_arg13) := (((((((((((((((h).2).2).2).2).2).2).2).2).2).2).2).2).2).1).symm
theorem ag14 (h : Agree m m' c) : W0 m ρ c (kb KernelIdeal.main_arg14) = V0 m' c (rb ReferenceIdeal.main_arg14) := ((((((((((((((((h).2).2).2).2).2).2).2).2).2).2).2).2).2).2).1).symm
theorem ag15 (h : Agree m m' c) : W0 m ρ c (kb KernelIdeal.main_arg15) = V0 m' c (rb ReferenceIdeal.main_arg15) := ((((((((((((((((h).2).2).2).2).2).2).2).2).2).2).2).2).2).2).2).symm

/-! ## Index vectors, degrees, normalisation -/

theorem f_row (h : Agree m m' c) : W1 m ρ c (kb KernelIdeal.main_v3) = rB (V0 m' c) (rb ReferenceIdeal.main_v12) := row_corr _ _ (ag1 ρ h)
theorem f_col (h : Agree m m' c) : W1 m ρ c (kb KernelIdeal.main_v6) = rB (V0 m' c) (rb ReferenceIdeal.main_v15) := col_corr _ _ (ag1 ρ h)
theorem f_row2 (h : Agree m m' c) : W1 m ρ c (kb KernelIdeal.main_v8) = rB (V0 m' c) (rb ReferenceIdeal.main_v17) := row2_corr _ _ (ag1 ρ h)
theorem f_col2 (h : Agree m m' c) : W1 m ρ c (kb KernelIdeal.main_v9) = rB (V0 m' c) (rb ReferenceIdeal.main_v18) := col2_corr _ _ (ag1 ρ h)
theorem f_dinv (h : Agree m m' c) : W2 m ρ c (kb KernelIdeal.main_v17) = rC (V0 m' c) (rb ReferenceIdeal.main_v26) := dinv_corr _ _ (f_col2 ρ h)
theorem f_norm (h : Agree m m' c) : W3 m ρ c (kb KernelIdeal.main_v32) = rE (V0 m' c) (rb ReferenceIdeal.main_v42) :=
  normOf_corr (W2 m ρ c) (rD (V0 m' c)) ((f_dinv ρ h).trans (rD_v26 _).symm)
    ((kc_W2_v8 m ρ c).trans ((f_row2 ρ h).trans (rD_v17 _).symm)) ((kc_W2_v9 m ρ c).trans ((f_col2 ρ h).trans (rD_v18 _).symm))

/-! ## x · W1, the first convolution, bias and ELU -/

theorem f_xw1 (h : Agree m m' c) : W4 m ρ c (kb KernelIdeal.main_v33) = rD (V0 m' c) (rb ReferenceIdeal.main_v27) :=
  xw1_corr m ρ c (rC (V0 m' c)) ((kc_W3_arg0 m ρ c).trans ((ag0 ρ h).trans (rC_arg0 _).symm))
    ((kc_W3_arg4 m ρ c).trans ((ag4 ρ h).trans (rC_arg4 _).symm))
theorem f_out1 (h : Agree m m' c) : W5 m ρ c (kb KernelIdeal.main_v46) = rF (V0 m' c) (rb ReferenceIdeal.main_v55) :=
  conv1_corr (W4 m ρ c) (rE (V0 m' c)) ((f_xw1 ρ h).trans (rE_v27 _).symm)
    ((kc_W4_v8 m ρ c).trans ((f_row2 ρ h).trans (rE_v17 _).symm)) ((kc_W4_v9 m ρ c).trans ((f_col2 ρ h).trans (rE_v18 _).symm))
    ((kc_W4_v32 m ρ c).trans (f_norm ρ h))
theorem f_h (h : Agree m m' c) : W6 m ρ c (kb KernelIdeal.main_v51_0) = rG (V0 m' c) (rb ReferenceIdeal.main_v59) :=
  hfeat_corr m ρ c (rF (V0 m' c)) (f_out1 ρ h) ((kc_W4_arg5 m ρ c).trans ((ag5 ρ h).trans (rF_arg5 _).symm))

/-! ## Attention: logits, softmax, the weighted edge MLP and its scatter -/

theorem f_logits (h : Agree m m' c) : W7 m ρ c (kb KernelIdeal.main_v73) = rH (V0 m' c) (rb ReferenceIdeal.main_v79) :=
  logits_corr (W6 m ρ c) (rG (V0 m' c)) ((kc_W6_v3 m ρ c).trans ((f_row ρ h).trans (rG_v12 _).symm))
    ((kc_W6_v6 m ρ c).trans ((f_col ρ h).trans (rG_v15 _).symm))
    ((kc_W6_arg13 m ρ c).trans ((ag13 ρ h).trans (rG_arg13 _).symm))
    (fun p q => by
      rw [hw_fact m ρ c p q, f_h ρ h, (kc_W4_arg12 m ρ c).trans ((ag12 ρ h).trans (rG_arg12 _).symm)])
theorem f_att (h : Agree m m' c) : W7 m ρ c (kb KernelIdeal.main_v85) = rI (V0 m' c) (rb ReferenceIdeal.main_v91) :=
  att_corr (W6 m ρ c) (rH (V0 m' c)) (f_logits ρ h)
theorem f_w (h : Agree m m' c) : W8 m ρ c (kb KernelIdeal.main_v88) = rJ (V0 m' c) (rb ReferenceIdeal.main_v93) :=
  weighted_corr m ρ c (V0 m' c) (rI (V0 m' c)) (rI_v8 _) (f_att ρ h)
    ((kc_W7_arg2 m ρ c).trans (ag2 ρ h)) ((kc_W7_arg8 m ρ c).trans (ag8 ρ h)) ((kc_W7_arg10 m ρ c).trans (ag10 ρ h))
    ((kc_W6_arg9 m ρ c).trans (ag9 ρ h)) ((kc_W6_arg11 m ρ c).trans (ag11 ρ h))
theorem f_agg (h : Agree m m' c) : W9 m ρ c (kb KernelIdeal.main_v92) = rK (V0 m' c) (rb ReferenceIdeal.main_v97) :=
  agg_corr (W8 m ρ c) (rJ (V0 m' c)) ((kc_W8_v3 m ρ c).trans ((f_row ρ h).trans (rJ_v12 _).symm)) (f_w ρ h)

/-! ## (h + agg) · W2, the second convolution, bias and ELU, the pool -/

theorem f_xw2 (h : Agree m m' c) : W10 m ρ c (kb KernelIdeal.main_v93) = rO (V0 m' c) (rb ReferenceIdeal.main_v110) :=
  xw2_corr m ρ c (rK (V0 m' c)) ((kc_W9_v51_0 m ρ c).trans ((f_h ρ h).trans (rK_v59 _).symm)) (f_agg ρ h)
    ((kc_W9_arg6 m ρ c).trans ((ag6 ρ h).trans (rK_arg6 _).symm))
theorem f_row2' (h : Agree m m' c) : W1 m ρ c (kb KernelIdeal.main_v8) = rM (V0 m' c) (rb ReferenceIdeal.main_v100) :=
  row2_corr' (W0 m ρ c) (rL (V0 m' c)) ((f_row ρ h).trans (rL_v12 _).symm)
theorem f_col2' (h : Agree m m' c) : W1 m ρ c (kb KernelIdeal.main_v9) = rM (V0 m' c) (rb ReferenceIdeal.main_v101) :=
  col2_corr' (W0 m ρ c) (rL (V0 m' c)) ((f_col ρ h).trans (rL_v15 _).symm)
theorem f_dinv' (h : Agree m m' c) : W2 m ρ c (kb KernelIdeal.main_v17) = rN (V0 m' c) (rb ReferenceIdeal.main_v109) :=
  dinv_corr' (W0 m ρ c) (rL (V0 m' c)) ((f_col ρ h).trans (rL_v15 _).symm)
theorem f_norm' (h : Agree m m' c) : W3 m ρ c (kb KernelIdeal.main_v32) = rP (V0 m' c) (rb ReferenceIdeal.main_v125) :=
  normOf_corr' (W2 m ρ c) (rO (V0 m' c)) ((f_dinv' ρ h).trans (rO_v109 _).symm)
    ((kc_W2_v8 m ρ c).trans ((f_row2' ρ h).trans (rO_v100 _).symm)) ((kc_W2_v9 m ρ c).trans ((f_col2' ρ h).trans (rO_v101 _).symm))
theorem f_out2 (h : Agree m m' c) : W11 m ρ c (kb KernelIdeal.main_v106) = rQ (V0 m' c) (rb ReferenceIdeal.main_v138) :=
  conv2_corr (W10 m ρ c) (rP (V0 m' c)) ((f_xw2 ρ h).trans (rP_v110 _).symm)
    ((kc_W10_v8 m ρ c).trans ((f_row2' ρ h).trans (rP_v100 _).symm)) ((kc_W10_v9 m ρ c).trans ((f_col2' ρ h).trans (rP_v101 _).symm))
    ((kc_W10_v32 m ρ c).trans (f_norm' ρ h))
theorem f_h2 (h : Agree m m' c) : W12 m ρ c (kb KernelIdeal.main_v108) = rR (V0 m' c) (rb ReferenceIdeal.main_v142) :=
  h2_corr m ρ c (rQ (V0 m' c)) (f_out2 ρ h) ((kc_W10_arg7 m ρ c).trans ((ag7 ρ h).trans (rQ_arg7 _).symm))

/-- THE RESULTS: the kernel program's result array at the last boundary is the reference's result after its whole
    operation list, from launch memories that agree on the arguments. -/
theorem result_eq (h : Agree m m' c) :
    W13 m ρ c (kb KernelIdeal.main_v125) = after (ops (F := Ideal)) (StableHlo.launchContents m' c) (rb ReferenceIdeal.main_v159) := by
  rw [after_ops]
  exact pool_corr (W12 m ρ c) (rR (V0 m' c)) (f_h2 ρ h)
    ((kc_W12_arg3 m ρ c).trans ((ag3 ρ h).trans (rR_arg3 _).symm)) ((kc_W12_arg14 m ρ c).trans ((ag14 ρ h).trans (rR_arg14 _).symm))
    ((kc_W12_arg15 m ρ c).trans ((ag15 ρ h).trans (rR_arg15 _).symm))

end Cert.Join

end
-- ==== Proof.lean ====
/-
  The certificate of a graph network's forward pass: five launched kernels and the host operations between them,
  against the plain reference.

  The three frames.  Each kernel program (the word-level one and its idealization) is thirteen segments — host stretches
  and five launched regions of ten or a hundred blocks of rows —; every weakly fair execution terminates without a fault
  and leaves the sixteen argument arrays as launched (the imported frame proofs).  The reference is one straight line of
  228 host operations (its outlined functions written out at their calls); it terminates with every buffer at the
  operations' fold over the launch contents, and no operation writes an argument.

  The idealization rewrote nothing, so `preserves` has nothing to state.

  The algebraic claim.  At the ideal instance (floats are extended reals, a change of format is the identity, a matrix
  product into a zero accumulator is the plain sum) the two programs compute, stage by stage, the same values:
  a product of a block of rows is the same block of rows of the product (x · W1, (h + agg) · W2, the edge MLP's two
  layers); the kernel's ELU `v > 0 ? v : exp(min(v, 0)) − 1` is the reference's `v > 0 ? v : 1 · expm1(v > 0 ? 0 : v)` on
  every extended real; the attention logits `(h · [W₁ | W₂])[row, 0] + (h · [W₁ | W₂])[col, 1] + b` are the reference's
  `[h[row] | h[col]] · W + b` by splitting a sum over 256 into two sums over 128; every gather, scatter-add, softmax and the
  pooling are the same host operations on both sides and are never opened.  The sums are compared term by term in the
  same order, so nothing needs to be finite and the precondition is not used.
-/
import proofs.«121654_j5970004542118_2_alg».proof.Defs
import proofs.«121654_j5970004542118_2_alg».proof.Proof.Gen.Kernel
import proofs.«121654_j5970004542118_2_alg».proof.Proof.Gen.Kernel.Skeleton
import proofs.«121654_j5970004542118_2_alg».proof.Proof.Gen.Kernel.Launch
import proofs.«121654_j5970004542118_2_alg».proof.Proof.Gen.Kernel.Points
import proofs.«121654_j5970004542118_2_alg».proof.Proof.Gen.Kernel.Frame
import proofs.«121654_j5970004542118_2_alg».proof.Proof.Gen.KernelIdeal
import proofs.«121654_j5970004542118_2_alg».proof.Proof.Gen.KernelIdeal.Skeleton
import proofs.«121654_j5970004542118_2_alg».proof.Proof.Gen.KernelIdeal.Launch
import proofs.«121654_j5970004542118_2_alg».proof.Proof.Gen.KernelIdeal.Points
import proofs.«121654_j5970004542118_2_alg».proof.Proof.Gen.KernelIdeal.Frame
import proofs.«121654_j5970004542118_2_alg».proof.Proof.Gen.ReferenceIdeal
import proofs.«121654_j5970004542118_2_alg».proof.Proof.Gen.Pre_finite_inputs
import proofs.«121654_j5970004542118_2_alg».proof.Proof.KernelRun
import proofs.«121654_j5970004542118_2_alg».proof.Proof.RefRun
import proofs.«121654_j5970004542118_2_alg».proof.Proof.RefFrame
import proofs.«121654_j5970004542118_2_alg».proof.Proof.JoinAll
import Idealize.ShloMosaic.Adequacy
import Idealize.ShloMosaic.Init

set_option maxRecDepth 16384

noncomputable section

namespace Cert.Proof

open Idealize.ShloMosaic Idealize.SL.Sem

namespace Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.Join.ref_frame (F := Ideal) m ρ

/-- The idealization applied no rewrite. -/
theorem preserves : Cert.preserves_Kernel_KernelIdeal := trivial

/-- Both idealized programs run, and from memories agreeing on the arguments the kernel program's result array is the
    reference's, element by element: the per-device value is the kernel program's last boundary's contents at its result. -/
theorem algebraic : Cert.algebraic_KernelIdeal_ReferenceIdeal := by
  intro m ρ m' ρ' _ hagree
  refine ⟨fun c => Cert.KernelIdeal.Gen.W13 m ρ c (Proc.devRef .tc Cert.KernelIdeal.main_v125),
    Cert.KernelIdeal.Run.run_result (F := Ideal) m ρ, ?_⟩
  refine (θ_run (Cert.ReferenceIdeal.defs (F := Ideal)) _ _).mono (fun r h c => ⟨?_, ?_⟩)
    (Cert.ReferenceIdeal.RefRun.run_main (F := Ideal) m' ρ')
  · exact (h c Cert.ReferenceIdeal.main_v159).trans (Cert.Join.result_eq ρ (hagree c)).symm
  · exact Cert.Join.args_kept m' c r.2 (h c)

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
